-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S8192x8 : Shape := ⟨2, ![8192, 8]⟩
abbrev S768x8 : Shape := ⟨2, ![768, 8]⟩
abbrev S8 : Shape := ⟨1, ![8]⟩
abbrev S8x768x64 : Shape := ⟨3, ![8, 768, 64]⟩
abbrev S8x64 : Shape := ⟨2, ![8, 64]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_
  bcast_S_S8x768x64 : S_.BroadcastsInDim S8x768x64 (![] : Fin 0 → Fin S8x768x64.rank)
  reducesTo_S8x768x64_S_d0_1_2 : S8x768x64.ReducesTo [0, 1, 2] S_
  bcast_S_S8x64 : S_.BroadcastsInDim S8x64 (![] : Fin 0 → Fin S8x64.rank)
  reducesTo_S8x64_S_d0_1 : S8x64.ReducesTo [0, 1] S_

variable [Facts]

def fn_part1 {F : FTy → Type} [FloatOps F] (main_arg4 : FVec F S8x768x64 .f32) (main_arg5 : FVec F S8x64 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x768x64 .f32 := Host.absf main_arg4
  let main_cst_6 : FVec F S_ .f32 := constant S_ .f32 0x7F800000#32
  let main_v20 : FVec F S8x768x64 .f32 := broadcastInDim S8x768x64 ![] bcast_S_S8x768x64 main_cst_6
  let main_v21 : IVec S8x768x64 1 := cmpf .olt main_v19 main_v20
  let main_c_7 : IVec S_ 1 := constantI S_ 1 1#1
  let main_v22 : IVec S_ 1 := (fun x v => Host.reduce IntOp.andi x v reducesTo_S8x768x64_S_d0_1_2 h_S_) main_v21 main_c_7
  let main_v23 : IVec S_ 1 := andi main_v18 main_v22
  let main_v24 : FVec F S8x64 .f32 := Host.absf main_arg5
  let main_cst_8 : FVec F S_ .f32 := constant S_ .f32 0x7F800000#32
  let main_v25 : FVec F S8x64 .f32 := broadcastInDim S8x64 ![] bcast_S_S8x64 main_cst_8
  let main_v26 : IVec S8x64 1 := cmpf .olt main_v24 main_v25
  let main_c_9 : IVec S_ 1 := constantI S_ 1 1#1
  let main_v27 : IVec S_ 1 := (fun x v => Host.reduce IntOp.andi x v reducesTo_S8x64_S_d0_1 h_S_) main_v26 main_c_9
  let main_v28 : IVec S_ 1 := andi main_v23 main_v27
  main_v28

def fn {F : FTy → Type} [FloatOps F] (main_arg0 : FVec F S8192x768 .f32) (main_arg1 : FVec F S8192x8 .f32) (main_arg2 : FVec F S768x8 .f32) (main_arg3 : FVec F S8 .f32) (main_arg4 : FVec F S8x768x64 .f32) (main_arg5 : FVec F S8x64 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x8 .f32 := Host.absf main_arg1
  let main_cst_0 : FVec F S_ .f32 := constant S_ .f32 0x7F800000#32
  let main_v5 : FVec F S8192x8 .f32 := broadcastInDim S8192x8 ![] bcast_S_S8192x8 main_cst_0
  let main_v6 : IVec S8192x8 1 := cmpf .olt main_v4 main_v5
  let main_c_1 : IVec S_ 1 := constantI S_ 1 1#1
  let main_v7 : IVec S_ 1 := (fun x v => Host.reduce IntOp.andi x v reducesTo_S8192x8_S_d0_1 h_S_) main_v6 main_c_1
  let main_v8 : IVec S_ 1 := andi main_v3 main_v7
  let main_v9 : FVec F S768x8 .f32 := Host.absf main_arg2
  let main_cst_2 : FVec F S_ .f32 := constant S_ .f32 0x7F800000#32
  let main_v10 : FVec F S768x8 .f32 := broadcastInDim S768x8 ![] bcast_S_S768x8 main_cst_2
  let main_v11 : IVec S768x8 1 := cmpf .olt main_v9 main_v10
  let main_c_3 : IVec S_ 1 := constantI S_ 1 1#1
  let main_v12 : IVec S_ 1 := (fun x v => Host.reduce IntOp.andi x v reducesTo_S768x8_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_v13 main_v16
-- ==== Kernel.lean ====
abbrev S8192x768 : Shape := ⟨2, ![8192, 768]⟩
abbrev S8192x8 : Shape := ⟨2, ![8192, 8]⟩
abbrev S768x8 : Shape := ⟨2, ![768, 8]⟩
abbrev S8 : Shape := ⟨1, ![8]⟩
abbrev S8x768x64 : Shape := ⟨3, ![8, 768, 64]⟩
abbrev S8x64 : Shape := ⟨2, ![8, 64]⟩
abbrev S768x8x64 : Shape := ⟨3, ![768, 8, 64]⟩
abbrev S768x512 : Shape := ⟨2, ![768, 512]⟩
abbrev S768x520 : Shape := ⟨2, ![768, 520]⟩
abbrev S1x8 : Shape := ⟨2, ![1, 8]⟩
abbrev S8x8 : Shape := ⟨2, ![8, 8]⟩
abbrev S_ : Shape := ⟨0, ![]⟩
abbrev S8x8x64 : Shape := ⟨3, ![8, 8, 64]⟩
abbrev S8x512 : Shape := ⟨2, ![8, 512]⟩
abbrev S64x64 : Shape := ⟨2, ![64, 64]⟩
abbrev S1x64x1x64 : Shape := ⟨4, ![1, 64, 1, 64]⟩
abbrev S8x64x1x64 : Shape := ⟨4, ![8, 64, 1, 64]⟩
abbrev S512x64 : Shape := ⟨2, ![512, 64]⟩
abbrev S8192x64 : Shape := ⟨2, ![8192, 64]⟩
abbrev S2048x768 : Shape := ⟨2, ![2048, 768]⟩
abbrev S2048x8 : Shape := ⟨2, ![2048, 8]⟩
abbrev S2048x64 : Shape := ⟨2, ![2048, 64]⟩
abbrev S2048x512 : Shape := ⟨2, ![2048, 512]⟩

abbrev nBuf : Space → Nat
  | .hbm => 31
  | .vmem => 11
  | .smem => 0
  | _ => 0

abbrev bufTy : (tb : Table) → Fin (tcTables nBuf tb) → BufTy
  | .hbm, ⟨0, _⟩ => ⟨S8192x768, .f32⟩
  | .hbm, ⟨1, _⟩ => ⟨S8192x8, .f32⟩
  | .hbm, ⟨2, _⟩ => ⟨S768x8, .f32⟩
  | .hbm, ⟨3, _⟩ => ⟨S8, .f32⟩
  | .hbm, ⟨4, _⟩ => ⟨S8x768x64, .f32⟩
  | .hbm, ⟨5, _⟩ => ⟨S8x64, .f32⟩
  | .hbm, ⟨6, _⟩ => ⟨S768x8x64, .f32⟩
  | .hbm, ⟨7, _⟩ => ⟨S768x512, .f32⟩
  | .hbm, ⟨8, _⟩ => ⟨S768x520, .f32⟩
  | .hbm, ⟨9, _⟩ => ⟨S768x520, .bf16⟩
  | .hbm, ⟨10, _⟩ => ⟨S1x8, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .bf16⟩
  | .hbm, ⟨18, _⟩ => ⟨S8x8x64, .bf16⟩
  | .hbm, ⟨19, _⟩ => ⟨S8x512, .bf16⟩
  | .hbm, ⟨20, _⟩ => ⟨S64x64, .i32⟩
  | .hbm, ⟨21, _⟩ => ⟨S64x64, .i32⟩
  | .hbm, ⟨22, _⟩ => ⟨S_, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S64x64, .bf16⟩
  | .hbm, ⟨27, _⟩ => ⟨S1x64x1x64, .bf16⟩
  | .hbm, ⟨28, _⟩ => ⟨S8x64x1x64, .bf16⟩
  | .hbm, ⟨29, _⟩ => ⟨S512x64, .bf16⟩
  | .hbm, ⟨30, _⟩ => ⟨S8192x64, .f32⟩
  | .local _ .vmem, ⟨0, _⟩ => ⟨S2048x768, .f32⟩
  | .local _ .vmem, ⟨1, _⟩ => ⟨S2048x768, .f32⟩
  | .local _ .vmem, ⟨2, _⟩ => ⟨S2048x8, .f32⟩
  | .local _ .vmem, ⟨3, _⟩ => ⟨S2048x8, .f32⟩
  | .local _ .vmem, ⟨4, _⟩ => ⟨S1x8, .f32⟩
  | .local _ .vmem, ⟨5, _⟩ => ⟨S768x520, .bf16⟩
  | .local _ .vmem, ⟨6, _⟩ => ⟨S8x64, .f32⟩
  | .local _ .vmem, ⟨7, _⟩ => ⟨S8x512, .bf16⟩
  | .local _ .vmem, ⟨8, _⟩ => ⟨S512x64, .bf16⟩
  | .local _ .vmem, ⟨9, _⟩ => ⟨S2048x64, .f32⟩
  | .local _ .vmem, ⟨10, _⟩ => ⟨S2048x64, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x520 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S8x768x64_S768x8x64_1_0_2 : S8x768x64.Transposes [1, 0, 2] S768x8x64
  shapeCasts_S768x8x64_S768x512 : S768x8x64.ShapeCasts S768x512
  concatenates_S768x512_S768x8_S768x520_d1 : Shape.Concatenates [S768x512, S768x8] S768x520 1
  bitsLt_bf16_f32 : FTy.bits .bf16 < FTy.bits .f32
  shapeCasts_S8_S1x8 : S8.ShapeCasts S1x8
  bcast_S_S8x8 : S_.BroadcastsInDim S8x8 (![] : Fin 0 → Fin S8x8.rank)
  bcast_S8x8_S8x8x64_0_1 : S8x8.BroadcastsInDim S8x8x64 (![0, 1] : Fin 2 → Fin S8x8x64.rank)
  shapeCasts_S8x8x64_S8x512 : S8x8x64.ShapeCasts S8x512
  bcast_S_S64x64 : S_.BroadcastsInDim S64x64 (![] : Fin 0 → Fin S64x64.rank)
  shapeCasts_S64x64_S1x64x1x64 : S64x64.ShapeCasts S1x64x1x64
  bcast_S1x64x1x64_S8x64x1x64_0_1_2_3 : S1x64x1x64.BroadcastsInDim S8x64x1x64 (![0, 1, 2, 3] : Fin 4 → Fin S8x64x1x64.rank)
  shapeCasts_S8x64x1x64_S512x64 : S8x64x1x64.ShapeCasts S512x64
  inb_S2048x768_S2048x768_0_0 : ∀ a, (![0, 0] : Fin 2 → Nat) a + S2048x768.size a ≤ S2048x768.size a
  h_S2048x768 : 0 < S2048x768.numel
  inb_S768x520_S768x512_0_0 : ∀ a, (![0, 0] : Fin 2 → Nat) a + S768x512.size a ≤ S768x520.size a
  h_S768x512 : 0 < S768x512.numel
  shapeCasts_S768x512_S768x512 : S768x512.ShapeCasts S768x512
  inb_S768x520_S768x8_0_512 : ∀ a, (![0, 512] : Fin 2 → Nat) a + S768x8.size a ≤ S768x520.size a
  h_S768x8 : 0 < S768x8.numel
  shapeCasts_S768x8_S768x8 : S768x8.ShapeCasts S768x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  inb_S2048x8_S2048x8_0_0 : ∀ a, (![0, 0] : Fin 2 → Nat) a + S2048x8.size a ≤ S2048x8.size a
  h_S2048x8 : 0 < S2048x8.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S8x64_S8x64_0_0 : ∀ a, (![0, 0] : Fin 2 → Nat) a + S8x64.size a ≤ S8x64.size a
  h_S8x64 : 0 < S8x64.numel
  inb_S2048x64_S2048x64_0_0 : ∀ a, (![0, 0] : Fin 2 → Nat) a + S2048x64.size a ≤ S2048x64.size a
  h_S2048x64 : 0 < S2048x64.numel
  dot_S2048x768_S768x512_S2048x512_1_0_0_1_n_n_wf : DotDims.WF S2048x768 S768x512 S2048x512 [1] [0] [0] [1] [] []
  dot_S2048x768_S768x8_S2048x8_1_0_0_1_n_n_wf : DotDims.WF S2048x768 S768x8 S2048x8 [1] [0] [0] [1] [] []
  dot_S2048x8_S8x512_S2048x512_1_0_0_1_n_n_wf : DotDims.WF S2048x8 S8x512 S2048x512 [1] [0] [0] [1] [] []
  dot_S2048x512_S512x64_S2048x64_1_0_0_1_n_n_wf : DotDims.WF S2048x512 S512x64 S2048x64 [1] [0] [0] [1] [] []
  dot_S2048x8_S8x64_S2048x64_1_0_0_1_n_n_wf : DotDims.WF S2048x8 S8x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S8192x768.size a
  hwx0_0 : ∀ i : grid0.Coords, EltTy.bits .f32 = 32 ∨ (Rect.block (s := S8192x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S8192x8.size a
  hwx0_1 : ∀ i : grid0.Coords, EltTy.bits .f32 = 32 ∨ (Rect.block (s := S8192x8) S2048x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x520.size a ≤ S768x520.size a
  hwx0_3 : ∀ i : grid0.Coords, EltTy.bits .bf16 = 32 ∨ (Rect.block (s := S768x520) S768x520.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S8x64.size a
  hwx0_4 : ∀ i : grid0.Coords, EltTy.bits .f32 = 32 ∨ (Rect.block (s := S8x64) S8x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S8x512.size a
  hwx0_5 : ∀ i : grid0.Coords, EltTy.bits .bf16 = 32 ∨ (Rect.block (s := S8x512) S8x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S512x64.size a
  hwx0_6 : ∀ i : grid0.Coords, EltTy.bits .bf16 = 32 ∨ (Rect.block (s := S512x64) S512x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x64.size a ≤ S8192x64.size a
  hwx0_7 : ∀ i : grid0.Coords, EltTy.bits .f32 = 32 ∨ (Rect.block (s := S8192x64) S2048x64.size (cc0_transform_7 i) (hinb0_7 i)).WholeWords (EltTy.packing .f32)

variable [Facts₀]

def dot_S2048x768_S768x512_S2048x512_1_0_0_1_n_n : DotDims S2048x768 S768x512 S2048x512 where
  lhsContracting := [1]
  rhsContracting := [0]
  lhsNonContracting := [0]
  rhsNonContracting := [1]
  lhsBatch := []
  rhsBatch := []
  wf := dot_S2048x768_S768x512_S2048x512_1_0_0_1_n_n_wf
def dot_S2048x768_S768x8_S2048x8_1_0_0_1_n_n : DotDims S2048x768 S768x8 S2048x8 where
  lhsContracting := [1]
  rhsContracting := [0]
  lhsNonContracting := [0]
  rhsNonContracting := [1]
  lhsBatch := []
  rhsBatch := []
  wf := dot_S2048x768_S768x8_S2048x8_1_0_0_1_n_n_wf
def dot_S2048x8_S8x512_S2048x512_1_0_0_1_n_n : DotDims S2048x8 S8x512 S2048x512 where
  lhsContracting := [1]
  rhsContracting := [0]
  lhsNonContracting := [0]
  rhsNonContracting := [1]
  lhsBatch := []
  rhsBatch := []
  wf := dot_S2048x8_S8x512_S2048x512_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x8_S8x64_S2048x64_1_0_0_1_n_n : DotDims S2048x8 S8x64 S2048x64 where
  lhsContracting := [1]
  rhsContracting := [0]
  lhsNonContracting := [0]
  rhsNonContracting := [1]
  lhsBatch := []
  rhsBatch := []
  wf := dot_S2048x8_S8x64_S2048x64_1_0_0_1_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x520.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S8x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S512x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S2048x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x768 : Shape := ⟨2, ![8192, 768]⟩
abbrev S8192x8 : Shape := ⟨2, ![8192, 8]⟩
abbrev S768x8 : Shape := ⟨2, ![768, 8]⟩
abbrev S8 : Shape := ⟨1, ![8]⟩
abbrev S8x768x64 : Shape := ⟨3, ![8, 768, 64]⟩
abbrev S8x64 : Shape := ⟨2, ![8, 64]⟩
abbrev S8192 : Shape := ⟨1, ![8192]⟩
abbrev S65536 : Shape := ⟨1, ![65536]⟩
abbrev S1x8 : Shape := ⟨2, ![1, 8]⟩
abbrev S_ : Shape := ⟨0, ![]⟩
abbrev S65536x1 : Shape := ⟨2, ![65536, 1]⟩
abbrev S65536x2 : Shape := ⟨2, ![65536, 2]⟩
abbrev S1 : Shape := ⟨1, ![1]⟩
abbrev S1x1 : Shape := ⟨2, ![1, 1]⟩
abbrev S65536x768 : Shape := ⟨2, ![65536, 768]⟩
abbrev S8x8192x768 : Shape := ⟨3, ![8, 8192, 768]⟩
abbrev S8x8192x64 : Shape := ⟨3, ![8, 8192, 64]⟩
abbrev S8x1x64 : Shape := ⟨3, ![8, 1, 64]⟩
abbrev S65536x64 : Shape := ⟨2, ![65536, 64]⟩
abbrev S8192x64 : Shape := ⟨2, ![8192, 64]⟩

abbrev nBuf : Space → Nat
  | .hbm => 120
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x8, .f32⟩
  | .hbm, ⟨2, _⟩ => ⟨S768x8, .f32⟩
  | .hbm, ⟨3, _⟩ => ⟨S8, .f32⟩
  | .hbm, ⟨4, _⟩ => ⟨S8x768x64, .f32⟩
  | .hbm, ⟨5, _⟩ => ⟨S8x64, .f32⟩
  | .hbm, ⟨6, _⟩ => ⟨S8192, .i32⟩
  | .hbm, ⟨7, _⟩ => ⟨S8192x8, .i32⟩
  | .hbm, ⟨8, _⟩ => ⟨S65536, .i32⟩
  | .hbm, ⟨9, _⟩ => ⟨S8, .i32⟩
  | .hbm, ⟨10, _⟩ => ⟨S1x8, .i32⟩
  | .hbm, ⟨11, _⟩ => ⟨S8192x8, .i32⟩
  | .hbm, ⟨12, _⟩ => ⟨S65536, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S_, .i32⟩
  | .hbm, ⟨17, _⟩ => ⟨S65536, .i32⟩
  | .hbm, ⟨18, _⟩ => ⟨S65536, .i1⟩
  | .hbm, ⟨19, _⟩ => ⟨S_, .i32⟩
  | .hbm, ⟨20, _⟩ => ⟨S65536, .i32⟩
  | .hbm, ⟨21, _⟩ => ⟨S65536, .i32⟩
  | .hbm, ⟨22, _⟩ => ⟨S65536, .i32⟩
  | .hbm, ⟨23, _⟩ => ⟨S65536x1, .i32⟩
  | .hbm, ⟨24, _⟩ => ⟨S65536, .i32⟩
  | .hbm, ⟨25, _⟩ => ⟨S_, .i32⟩
  | .hbm, ⟨26, _⟩ => ⟨S65536, .i32⟩
  | .hbm, ⟨27, _⟩ => ⟨S65536, .i1⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S65536, .i32⟩
  | .hbm, ⟨32, _⟩ => ⟨S65536x1, .i32⟩
  | .hbm, ⟨33, _⟩ => ⟨S65536, .i32⟩
  | .hbm, ⟨34, _⟩ => ⟨S_, .i32⟩
  | .hbm, ⟨35, _⟩ => ⟨S65536, .i32⟩
  | .hbm, ⟨36, _⟩ => ⟨S65536, .i1⟩
  | .hbm, ⟨37, _⟩ => ⟨S_, .i32⟩
  | .hbm, ⟨38, _⟩ => ⟨S65536, .i32⟩
  | .hbm, ⟨39, _⟩ => ⟨S65536, .i32⟩
  | .hbm, ⟨40, _⟩ => ⟨S65536, .i32⟩
  | .hbm, ⟨41, _⟩ => ⟨S_, .i32⟩
  | .hbm, ⟨42, _⟩ => ⟨S65536, .i32⟩
  | .hbm, ⟨43, _⟩ => ⟨S65536, .i1⟩
  | .hbm, ⟨44, _⟩ => ⟨S_, .i32⟩
  | .hbm, ⟨45, _⟩ => ⟨S65536, .i32⟩
  | .hbm, ⟨46, _⟩ => ⟨S65536, .i32⟩
  | .hbm, ⟨47, _⟩ => ⟨S65536, .i32⟩
  | .hbm, ⟨48, _⟩ => ⟨S65536x1, .i32⟩
  | .hbm, ⟨49, _⟩ => ⟨S65536x1, .i32⟩
  | .hbm, ⟨50, _⟩ => ⟨S65536x2, .i32⟩
  | .hbm, ⟨51, _⟩ => ⟨S65536, .f32⟩
  | .hbm, ⟨52, _⟩ => ⟨S65536x1, .f32⟩
  | .hbm, ⟨53, _⟩ => ⟨S_, .i32⟩
  | .hbm, ⟨54, _⟩ => ⟨S65536, .i32⟩
  | .hbm, ⟨55, _⟩ => ⟨S65536, .i1⟩
  | .hbm, ⟨56, _⟩ => ⟨S_, .i32⟩
  | .hbm, ⟨57, _⟩ => ⟨S65536, .i32⟩
  | .hbm, ⟨58, _⟩ => ⟨S65536, .i32⟩
  | .hbm, ⟨59, _⟩ => ⟨S65536, .i32⟩
  | .hbm, ⟨60, _⟩ => ⟨S65536x1, .i32⟩
  | .hbm, ⟨61, _⟩ => ⟨S1, .i32⟩
  | .hbm, ⟨62, _⟩ => ⟨S_, .i32⟩
  | .hbm, ⟨63, _⟩ => ⟨S65536x1, .i32⟩
  | .hbm, ⟨64, _⟩ => ⟨S65536x1, .i1⟩
  | .hbm, ⟨65, _⟩ => ⟨S1x1, .i32⟩
  | .hbm, ⟨66, _⟩ => ⟨S65536x1, .i32⟩
  | .hbm, ⟨67, _⟩ => ⟨S65536x1, .i1⟩
  | .hbm, ⟨68, _⟩ => ⟨S65536x1, .i1⟩
  | .hbm, ⟨69, _⟩ => ⟨S_, .i1⟩
  | .hbm, ⟨70, _⟩ => ⟨S65536, .i1⟩
  | .hbm, ⟨71, _⟩ => ⟨S65536x768, .f32⟩
  | .hbm, ⟨72, _⟩ => ⟨S65536x768, .i1⟩
  | .hbm, ⟨73, _⟩ => ⟨S_, .f32⟩
  | .hbm, ⟨74, _⟩ => ⟨S65536x768, .f32⟩
  | .hbm, ⟨75, _⟩ => ⟨S65536x768, .f32⟩
  | .hbm, ⟨76, _⟩ => ⟨S8x8192x768, .f32⟩
  | .hbm, ⟨77, _⟩ => ⟨S8192x8, .f32⟩
  | .hbm, ⟨78, _⟩ => ⟨S1x8, .f32⟩
  | .hbm, ⟨79, _⟩ => ⟨S8192x8, .f32⟩
  | .hbm, ⟨80, _⟩ => ⟨S8192x8, .f32⟩
  | .hbm, ⟨81, _⟩ => ⟨S_, .i32⟩
  | .hbm, ⟨82, _⟩ => ⟨S65536, .i32⟩
  | .hbm, ⟨83, _⟩ => ⟨S65536, .i1⟩
  | .hbm, ⟨84, _⟩ => ⟨S_, .i32⟩
  | .hbm, ⟨85, _⟩ => ⟨S65536, .i32⟩
  | .hbm, ⟨86, _⟩ => ⟨S65536, .i32⟩
  | .hbm, ⟨87, _⟩ => ⟨S65536, .i32⟩
  | .hbm, ⟨88, _⟩ => ⟨S_, .i32⟩
  | .hbm, ⟨89, _⟩ => ⟨S65536, .i32⟩
  | .hbm, ⟨90, _⟩ => ⟨S65536, .i1⟩
  | .hbm, ⟨91, _⟩ => ⟨S_, .i32⟩
  | .hbm, ⟨92, _⟩ => ⟨S65536, .i32⟩
  | .hbm, ⟨93, _⟩ => ⟨S65536, .i32⟩
  | .hbm, ⟨94, _⟩ => ⟨S65536, .i32⟩
  | .hbm, ⟨95, _⟩ => ⟨S65536x1, .i32⟩
  | .hbm, ⟨96, _⟩ => ⟨S65536x1, .i32⟩
  | .hbm, ⟨97, _⟩ => ⟨S65536x2, .i32⟩
  | .hbm, ⟨98, _⟩ => ⟨S65536, .f32⟩
  | .hbm, ⟨99, _⟩ => ⟨S65536x1, .f32⟩
  | .hbm, ⟨100, _⟩ => ⟨S8x8192x64, .f32⟩
  | .hbm, ⟨101, _⟩ => ⟨S8x1x64, .f32⟩
  | .hbm, ⟨102, _⟩ => ⟨S8x8192x64, .f32⟩
  | .hbm, ⟨103, _⟩ => ⟨S8x8192x64, .f32⟩
  | .hbm, ⟨104, _⟩ => ⟨S65536x64, .f32⟩
  | .hbm, ⟨105, _⟩ => ⟨S65536x64, .f32⟩
  | .hbm, ⟨106, _⟩ => ⟨S65536x64, .f32⟩
  | .hbm, ⟨107, _⟩ => ⟨S65536x64, .f32⟩
  | .hbm, ⟨108, _⟩ => ⟨S65536x64, .f32⟩
  | .hbm, ⟨109, _⟩ => ⟨S_, .f32⟩
  | .hbm, ⟨110, _⟩ => ⟨S8192x64, .f32⟩
  | .hbm, ⟨111, _⟩ => ⟨S_, .i32⟩
  | .hbm, ⟨112, _⟩ => ⟨S65536, .i32⟩
  | .hbm, ⟨113, _⟩ => ⟨S65536, .i1⟩
  | .hbm, ⟨114, _⟩ => ⟨S_, .i32⟩
  | .hbm, ⟨115, _⟩ => ⟨S65536, .i32⟩
  | .hbm, ⟨116, _⟩ => ⟨S65536, .i32⟩
  | .hbm, ⟨117, _⟩ => ⟨S65536, .i32⟩
  | .hbm, ⟨118, _⟩ => ⟨S65536x1, .i32⟩
  | .hbm, ⟨119, _⟩ => ⟨S8192x64, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1_0 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_7 : Ref sig .tc := ⟨.hbm, 81, rfl⟩
abbrev main_v43 : Ref sig .tc := ⟨.hbm, 82, rfl⟩
abbrev main_v44 : Ref sig .tc := ⟨.hbm, 83, rfl⟩
abbrev main_c_8 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_c_9 : Ref sig .tc := ⟨.hbm, 88, rfl⟩
abbrev main_v48 : Ref sig .tc := ⟨.hbm, 89, rfl⟩
abbrev main_v49 : Ref sig .tc := ⟨.hbm, 90, rfl⟩
abbrev main_c_10 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst : Ref sig .tc := ⟨.hbm, 109, rfl⟩
abbrev main_v67 : Ref sig .tc := ⟨.hbm, 110, rfl⟩
abbrev main_c_11 : Ref sig .tc := ⟨.hbm, 111, rfl⟩
abbrev main_v68 : Ref sig .tc := ⟨.hbm, 112, rfl⟩
abbrev main_v69 : Ref sig .tc := ⟨.hbm, 113, rfl⟩
abbrev main_c_12 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩

abbrev nD : Nat := 1
abbrev τ : Topo := Topo.v7x

variable {F : FTy → Type} [FloatOps F]

class Facts₀ : Prop where
  bcast_S8192_S8192x8_0 : S8192.BroadcastsInDim S8192x8 (![0] : Fin 1 → Fin S8192x8.rank)
  shapeCasts_S8192x8_S65536 : S8192x8.ShapeCasts S65536
  shapeCasts_S8_S1x8 : S8.ShapeCasts S1x8
  bcast_S1x8_S8192x8_0_1 : S1x8.BroadcastsInDim S8192x8 (![0, 1] : Fin 2 → Fin S8192x8.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  bcast_S65536_S65536x768_0 : S65536.BroadcastsInDim S65536x768 (![0] : Fin 1 → Fin S65536x768.rank)
  bcast_S_S65536x768 : S_.BroadcastsInDim S65536x768 (![] : Fin 0 → Fin S65536x768.rank)
  shapeCasts_S65536x768_S8x8192x768 : S65536x768.ShapeCasts S8x8192x768
  bcast_S8_S1x8_1 : S8.BroadcastsInDim S1x8 (![1] : Fin 1 → Fin S1x8.rank)
  bcast_S8x64_S8x1x64_0_2 : S8x64.BroadcastsInDim S8x1x64 (![0, 2] : Fin 2 → Fin S8x1x64.rank)
  bcast_S8x1x64_S8x8192x64_0_1_2 : S8x1x64.BroadcastsInDim S8x8192x64 (![0, 1, 2] : Fin 3 → Fin S8x8192x64.rank)
  shapeCasts_S8x8192x64_S65536x64 : S8x8192x64.ShapeCasts S65536x64
  bcast_S65536x1_S65536x64_0_1 : S65536x1.BroadcastsInDim S65536x64 (![0, 1] : Fin 2 → Fin S65536x64.rank)
  bcast_S_S8192x64 : S_.BroadcastsInDim S8192x64 (![] : Fin 0 → Fin S8192x64.rank)
  gather_S65536_S65536x1_S65536_n_0_n_n_0_1_1_wf : GatherDims.WF S65536 S65536x1 S65536 [] [0] [] [0] [] 1 ![1]
  gather_S8192x8_S65536x2_S65536_n_01_n_n_01_1_11_wf : GatherDims.WF S8192x8 S65536x2 S65536 [] [0, 1] [] [0, 1] [] 1 ![1, 1]
  gather_S8192x768_S65536x1_S65536x768_1_0_n_n_0_1_1768_wf : GatherDims.WF S8192x768 S65536x1 S65536x768 [1] [0] [] [0] [] 1 ![1, 768]
  dot_S8192x768_S768x8_S8192x8_1_0_0_1_n_n_wf : DotDims.WF S8192x768 S768x8 S8192x8 [1] [0] [0] [1] [] []
  dot_S8x8192x768_S8x768x64_S8x8192x64_2_1_1_2_0_0_wf : DotDims.WF S8x8192x768 S8x768x64 S8x8192x64 [2] [1] [1] [2] [0] [0]
  scatter_S8192x64_S65536x1_S65536x64_1_0_0_1_wf : ScatterDims.WF S8192x64 S65536x1 S65536x64 [1] [0] [0] 1

variable [Facts₀]

def comparator_i32_i32_d0 : BitVec 32 × BitVec 32 → BitVec 32 × BitVec 32 → BitVec 1 :=
  fun l r =>
    let v2 := IntOp.cmpi .slt l.1 r.1
    v2
def gather_S65536_S65536x1_S65536_n_0_n_n_0_1_1 : GatherDims S65536 S65536x1 S65536 where
  offsetDims := []
  collapsedSliceDims := [0]
  operandBatchingDims := []
  startIndicesBatchingDims := []
  startIndexMap := [0]
  indexVectorDim := 1
  sliceSizes := ![1]
  wf := gather_S65536_S65536x1_S65536_n_0_n_n_0_1_1_wf
def gather_S8192x8_S65536x2_S65536_n_01_n_n_01_1_11 : GatherDims S8192x8 S65536x2 S65536 where
  offsetDims := []
  collapsedSliceDims := [0, 1]
  operandBatchingDims := []
  startIndicesBatchingDims := []
  startIndexMap := [0, 1]
  indexVectorDim := 1
  sliceSizes := ![1, 1]
  wf := gather_S8192x8_S65536x2_S65536_n_01_n_n_01_1_11_wf
def gather_S8192x768_S65536x1_S65536x768_1_0_n_n_0_1_1768 : GatherDims S8192x768 S65536x1 S65536x768 where
  offsetDims := [1]
  collapsedSliceDims := [0]
  operandBatchingDims := []
  startIndicesBatchingDims := []
  startIndexMap := [0]
  indexVectorDim := 1
  sliceSizes := ![1, 768]
  wf := gather_S8192x768_S65536x1_S65536x768_1_0_n_n_0_1_1768_wf
def dot_S8192x768_S768x8_S8192x8_1_0_0_1_n_n : DotDims S8192x768 S768x8 S8192x8 where
  lhsContracting := [1]
  rhsContracting := [0]
  lhsNonContracting := [0]
  rhsNonContracting := [1]
  lhsBatch := []
  rhsBatch := []
  wf := dot_S8192x768_S768x8_S8192x8_1_0_0_1_n_n_wf
def dot_S8x8192x768_S8x768x64_S8x8192x64_2_1_1_2_0_0 : DotDims S8x8192x768 S8x768x64 S8x8192x64 where
  lhsContracting := [2]
  rhsContracting := [1]
  lhsNonContracting := [1]
  rhsNonContracting := [2]
  lhsBatch := [0]
  rhsBatch := [0]
  wf := dot_S8x8192x768_S8x768x64_S8x8192x64_2_1_1_2_0_0_wf
def scatter_S8192x64_S65536x1_S65536x64_1_0_0_1 : ScatterDims S8192x64 S65536x1 S65536x64 where
  updateWindowDims := [1]
  insertedWindowDims := [0]
  scatterDimsToOperandDims := [0]
  indexVectorDim := 1
  wf := scatter_S8192x64_S65536x1_S65536x64_1_0_0_1_wf

class Facts : Prop extends Facts₀ where

variable [Facts]
-- ==== Proof.MoeSpec.lean ====
/-
  The mixture-of-experts layer both programs compute, as functions of the six argument arrays read as extended reals,
  index by index.  For a token `t`, an expert `e` and an output column `o`:

    logit t e  = Σ_d x[t,d] · W_gate[d,e]                 (the gate's linear map)
    gate  t e  = (logit t e + b_gate[e]) · gates[t,e]     (learned gate times the given gate)
    lin   t e o = Σ_d x[t,d] · W_experts[e,d,o]           (expert e's linear map, before its bias)

  The fused form sums the gated expert outputs and the gated biases separately,
    fused t o   = Σ_e gate t e · lin t e o  +  Σ_e gate t e · b_experts[e,o],
  and the dispatched form sums, over the experts, each expert's biased output weighted by the two gates one after the other,
    routed t o  = 0 + Σ_e ((lin t e o + b_experts[e,o]) · (logit t e + b_gate[e])) · gates[t,e].
  They agree whenever every entry is a real number (distributivity fails at the infinities, so finiteness is used).
-/
import Idealize.ShloMosaic.PureOps.Ideal
import Idealize.ShloMosaic.Lib.ValueIdx

noncomputable section

open scoped BigOperators

namespace Cert.Moe

open Idealize.ShloMosaic Idealize.ShloMosaic.ValueIdx

/-- The gate's linear map at token `t`, expert `e`. -/
def logit (x : (⟨2, ![8192, 768]⟩ : Shape).Idx → EReal) (wg : (⟨2, ![768, 8]⟩ : Shape).Idx → EReal)
    (t : Fin 8192) (e : Fin 8) : EReal :=
  ∑ d : Fin 768, x (ix2 t d) * wg (ix2 d e)

/-- The learned gate plus its bias, times the given gate. -/
def gate (x : (⟨2, ![8192, 768]⟩ : Shape).Idx → EReal) (g : (⟨2, ![8192, 8]⟩ : Shape).Idx → EReal)
    (wg : (⟨2, ![768, 8]⟩ : Shape).Idx → EReal) (bg : (⟨1, ![8]⟩ : Shape).Idx → EReal)
    (t : Fin 8192) (e : Fin 8) : EReal :=
  (logit x wg t e + bg (ix1 e)) * g (ix2 t e)

/-- Expert `e`'s linear map at token `t`, output column `o`, without its bias. -/
def lin (x : (⟨2, ![8192, 768]⟩ : Shape).Idx → EReal) (we : (⟨3, ![8, 768, 64]⟩ : Shape).Idx → EReal)
    (t : Fin 8192) (e : Fin 8) (o : Fin 64) : EReal :=
  ∑ d : Fin 768, x (ix2 t d) * we (ix3 e d o)

/-- The fused form: gated expert outputs and gated biases summed separately. -/
def fused (x : (⟨2, ![8192, 768]⟩ : Shape).Idx → EReal) (g : (⟨2, ![8192, 8]⟩ : Shape).Idx → EReal)
    (wg : (⟨2, ![768, 8]⟩ : Shape).Idx → EReal) (bg : (⟨1, ![8]⟩ : Shape).Idx → EReal)
    (we : (⟨3, ![8, 768, 64]⟩ : Shape).Idx → EReal) (be : (⟨2, ![8, 64]⟩ : Shape).Idx → EReal) :
    (⟨2, ![8192, 64]⟩ : Shape).Idx → EReal := fun i =>
  (∑ e : Fin 8, gate x g wg bg (i 0) e * lin x we (i 0) e (i 1))
    + ∑ e : Fin 8, gate x g wg bg (i 0) e * be (ix2 e (i 1))

/-- The dispatched form: from zero, each expert's biased output times the learned gate, times the given gate. -/
def routed (x : (⟨2, ![8192, 768]⟩ : Shape).Idx → EReal) (g : (⟨2, ![8192, 8]⟩ : Shape).Idx → EReal)
    (wg : (⟨2, ![768, 8]⟩ : Shape).Idx → EReal) (bg : (⟨1, ![8]⟩ : Shape).Idx → EReal)
    (we : (⟨3, ![8, 768, 64]⟩ : Shape).Idx → EReal) (be : (⟨2, ![8, 64]⟩ : Shape).Idx → EReal) :
    (⟨2, ![8192, 64]⟩ : Shape).Idx → EReal := fun i =>
  0 + ∑ e : Fin 8, ((lin x we (i 0) e (i 1) + be (ix2 e (i 1))) * (logit x wg (i 0) e + bg (ix1 e))) * g (ix2 (i 0) e)

end Cert.Moe

end
-- ==== Proof.MoeCollapse.lean ====
/-
  Two sums against tables of zeros and ones, on the extended reals.  The 512 stacked columns are numbered
  `j = e * 64 + o` for an expert `e < 8` and an output column `o < 64`.

  * Spreading.  Against the table `P e j = 1` when `j / 64 = e` and `0` otherwise, `Σ_e g e · P e j` has one nonzero term:
    it is `g (j / 64)`.
  * Folding.  Against the table `S j o = 1` when `j % 64 = o` and `0` otherwise, `Σ_j f j · S j o` keeps the eight terms
    `j = e * 64 + o`: it is `Σ_e f (e * 64 + o)`.

  Both use only `a · 0 = 0` and `a · 1 = a`, which hold for every extended real, infinite ones included.
-/
import Mathlib.Data.EReal.Basic
import Mathlib.Algebra.BigOperators.Fin

noncomputable section

open scoped BigOperators

namespace Cert.Moe

/-- Column `e * 64 + o` of the 512 stacked columns, and back: the expert is the quotient by 64, the output column the
    remainder. -/
def col : Fin 8 × Fin 64 ≃ Fin 512 where
  toFun x := ⟨x.1.val * 64 + x.2.val, by have := x.1.isLt; have := x.2.isLt; omega⟩
  invFun j := (⟨j.val / 64, by have := j.isLt; omega⟩, ⟨j.val % 64, Nat.mod_lt _ (by decide)⟩)
  left_inv x := by
    have h1 := x.1.isLt
    have h2 := x.2.isLt
    refine Prod.ext (Fin.ext ?_) (Fin.ext ?_)
    · show (x.1.val * 64 + x.2.val) / 64 = x.1.val
      omega
    · show (x.1.val * 64 + x.2.val) % 64 = x.2.val
      omega
  right_inv j := Fin.ext (by
    show j.val / 64 * 64 + j.val % 64 = j.val
    omega)

theorem col_val (e : Fin 8) (o : Fin 64) : (col (e, o)).val = e.val * 64 + o.val := rfl

/-- Spreading: one term of the sum over the experts survives. -/
theorem spread_sum (g : Fin 8 → EReal) (P : Fin 8 → Fin 512 → EReal)
    (hP : ∀ e j, P e j = if j.val / 64 = e.val then 1 else 0) (e : Fin 8) (o : Fin 64) :
    ∑ e' : Fin 8, g e' * P e' (col (e, o)) = g e := by
  have ho := o.isLt
  have hq : (col (e, o)).val / 64 = e.val := by rw [col_val]; omega
  rw [Finset.sum_eq_single e]
  · rw [hP, if_pos hq, mul_one]
  · intro e' _ he'
    rw [hP, if_neg (fun h => he' (Fin.ext (h.symm.trans hq))), mul_zero]
  · intro h
    exact absurd (Finset.mem_univ _) h

/-- Folding: the eight columns with remainder `o` survive. -/
theorem fold_sum (f : Fin 512 → EReal) (S : Fin 512 → Fin 64 → EReal)
    (hS : ∀ j o, S j o = if j.val % 64 = o.val then 1 else 0) (o : Fin 64) :
    ∑ j : Fin 512, f j * S j o = ∑ e : Fin 8, f (col (e, o)) := by
  rw [← Equiv.sum_comp col, Fintype.sum_prod_type]
  refine Finset.sum_congr rfl fun e _ => ?_
  have ho := o.isLt
  rw [Finset.sum_eq_single o]
  · have hr : (col (e, o)).val % 64 = o.val := by rw [col_val]; omega
    rw [hS, if_pos hr, mul_one]
  · intro o' _ ho'
    have ho'' := o'.isLt
    have hr : ¬ (col (e, o')).val % 64 = o.val := by
      rw [col_val]
      intro h
      exact ho' (Fin.ext (by omega))
    rw [hS, if_neg hr, mul_zero]
  · intro h
    exact absurd (Finset.mem_univ _) h

/-- Spread, multiply column by column, fold: the sum over the experts of the gate times that expert's column. -/
theorem spread_mul_fold (g : Fin 8 → EReal) (y : Fin 512 → EReal) (P : Fin 8 → Fin 512 → EReal) (S : Fin 512 → Fin 64 → EReal)
    (hP : ∀ e j, P e j = if j.val / 64 = e.val then 1 else 0)
    (hS : ∀ j o, S j o = if j.val % 64 = o.val then 1 else 0) (o : Fin 64) :
    ∑ j : Fin 512, ((∑ e : Fin 8, g e * P e j) * y j) * S j o = ∑ e : Fin 8, g e * y (col (e, o)) := by
  refine (fold_sum (fun j => (∑ e : Fin 8, g e * P e j) * y j) S hS o).trans (Finset.sum_congr rfl fun e _ => ?_)
  show (∑ e' : Fin 8, g e' * P e' (col (e, o))) * y (col (e, o)) = g e * y (col (e, o))
  rw [spread_sum g P hP e o]

end Cert.Moe

end
-- ==== Proof.MoeTables.lean ====
/-
  The four arrays the fused kernel's launch builds from its arguments before the region, read at an entry.

  * The stacked weights, 768 by 520: the experts' weights `we[e, d, o]` with the expert axis moved next to the output
    axis and the two merged (column `e * 64 + o`), then the gate's weights `wg[d, e]` in columns 512 to 519; the change
    of float format is the identity on extended reals.  So column `e * 64 + o` of row `d` is `we[e, d, o]` and column
    `512 + e` is `wg[d, e]`.
  * The row of gate biases, 1 by 8: the 8 biases with a unit axis in front.
  * The spreading table, 8 by 512: the 8 by 8 identity (two index grids compared) with each entry repeated along 64
    columns, so the entry `(e, j)` is 1 when `j / 64 = e` and 0 otherwise.
  * The folding table, 512 by 64: the 64 by 64 identity stacked 8 times, so the entry `(j, o)` is 1 when `j % 64 = o`
    and 0 otherwise.
-/
import proofs.«181126_g60644938220147_cont_9to1c4b_99_20_alg».proof.Proof.Gen.KernelIdeal
import proofs.«181126_g60644938220147_cont_9to1c4b_99_20_alg».proof.Proof.MoeCollapse
import Idealize.ShloMosaic.PureOps.Ideal
import Idealize.ShloMosaic.Lib.ValueLayout

noncomputable section

namespace Cert.KernelIdeal.MoeValue

open Cert.KernelIdeal Idealize.ShloMosaic Idealize.ShloMosaic.ValueIdx Cert.Moe
open Facts₀

variable [Facts]

/-! ## The four arrays as terms of the arguments -/

/-- The stacked weights. -/
def stacked (we : S8x768x64.Idx → EReal) (wg : S768x8.Idx → EReal) : S768x520.Idx → EReal :=
  truncf (F := Ideal) (φ := .f32) .bf16
    (concatenate S768x520 1
      [⟨S768x512, shapeCast S768x512 (transpose S768x8x64 [1, 0, 2] we transposes_S8x768x64_S768x8x64_1_0_2)
          shapeCasts_S768x8x64_S768x512⟩,
        ⟨S768x8, wg⟩] concatenates_S768x512_S768x8_S768x520_d1)
    bitsLt_bf16_f32

/-- The row of gate biases. -/
def biasRow (bg : S8.Idx → EReal) : S1x8.Idx → EReal := shapeCast S1x8 bg shapeCasts_S8_S1x8

/-- The identity table of side `n` as the launch builds it: a row-index grid (plus a zero) compared with a column-index
    grid, the truth value read as a number. -/
def eye (s : Shape) (h : S_.BroadcastsInDim s (![] : Fin 0 → Fin s.rank)) (r c : Fin s.rank) : s.Idx → EReal :=
  uitofp (F := Ideal) .bf16
    (cmpi .eq (addi (iotaInDim s 32 r) (broadcastInDim s ![] h (constantI S_ 32 0#32))) (iotaInDim s 32 c))

/-- The spreading table. -/
def spreadTable : S8x512.Idx → EReal :=
  shapeCast S8x512 (broadcastInDim S8x8x64 ![0, 1] bcast_S8x8_S8x8x64_0_1 (eye S8x8 bcast_S_S8x8 0 1))
    shapeCasts_S8x8x64_S8x512

/-- The folding table. -/
def foldTable : S512x64.Idx → EReal :=
  shapeCast S512x64
    (broadcastInDim S8x64x1x64 ![0, 1, 2, 3] bcast_S1x64x1x64_S8x64x1x64_0_1_2_3
      (shapeCast S1x64x1x64 (eye S64x64 bcast_S_S64x64 0 1) shapeCasts_S64x64_S1x64x1x64))
    shapeCasts_S8x64x1x64_S512x64

/-! ## Read at an entry -/

/-- An entry of the identity table: two indices below 2^32 compared as 32-bit words. -/
theorem eye_word (a b : ℕ) (ha : a < 2 ^ 32) (hb : b < 2 ^ 32) :
    (FloatOps.uitofp (F := Ideal) .bf16 (IntOp.cmpi .eq (IntOp.addi (BitVec.ofNat 32 a) 0#32) (BitVec.ofNat 32 b)) : EReal)
      = if a = b then 1 else 0 := by
  have hadd : IntOp.addi (BitVec.ofNat 32 a) 0#32 = BitVec.ofNat 32 a := by
    show BitVec.ofNat 32 a + 0#32 = _
    exact BitVec.add_zero _
  rw [hadd]
  by_cases h : a = b
  · subst h
    rw [if_pos rfl]
    show (((BitVec.ofBool (BitVec.ofNat 32 a == BitVec.ofNat 32 a)).toNat : ℝ) : EReal) = 1
    simp
  · rw [if_neg h]
    have hne : (BitVec.ofNat 32 a == BitVec.ofNat 32 b) = false := by
      rw [beq_eq_false_iff_ne]
      intro e
      have e' := congrArg BitVec.toNat e
      rw [BitVec.toNat_ofNat, BitVec.toNat_ofNat, Nat.mod_eq_of_lt ha, Nat.mod_eq_of_lt hb] at e'
      exact h e'
    show (((BitVec.ofBool (BitVec.ofNat 32 a == BitVec.ofNat 32 b)).toNat : ℝ) : EReal) = 0
    rw [hne]
    simp

/-- The 8 by 8 identity at `(a, b)`. -/
theorem eye8_apply (a b : Fin 8) : eye S8x8 bcast_S_S8x8 0 1 (ix2 a b) = if a.val = b.val then 1 else 0 :=
  eye_word a.val b.val (by have := a.isLt; omega) (by have := b.isLt; omega)

/-- The 64 by 64 identity at `(a, b)`. -/
theorem eye64_apply (a b : Fin 64) : eye S64x64 bcast_S_S64x64 0 1 (ix2 a b) = if a.val = b.val then 1 else 0 :=
  eye_word a.val b.val (by have := a.isLt; omega) (by have := b.isLt; omega)

/-- The spreading table at `(e, j)`. -/
theorem spreadTable_apply (e : Fin 8) (j : Fin 512) : spreadTable (ix2 e j) = if j.val / 64 = e.val then 1 else 0 := by
  have hj := j.isLt
  unfold spreadTable
  refine (shapeCast_apply _ shapeCasts_S8x8x64_S8x512 (ix2 e j)
    (ix3 e (⟨j.val / 64, by omega⟩ : Fin 8) (⟨j.val % 64, Nat.mod_lt _ (by decide)⟩ : Fin 64)) ?_).trans ?_
  · rw [Shape.rowMajor_val_three, Shape.rowMajor_val_two]
    show (e.val * 8 + j.val / 64) * 64 + j.val % 64 = e.val * 512 + j.val
    omega
  refine (broadcastInDim_apply _ bcast_S8x8_S8x8x64_0_1 _ _ (ix2 e (⟨j.val / 64, by omega⟩ : Fin 8)) fun a => ?_).trans ?_
  · match a with
    | ⟨0, _⟩ => rfl
    | ⟨1, _⟩ => rfl
  rw [eye8_apply]
  exact if_congr eq_comm rfl rfl

/-- The folding table at `(j, o)`. -/
theorem foldTable_apply (j : Fin 512) (o : Fin 64) : foldTable (ix2 j o) = if j.val % 64 = o.val then 1 else 0 := by
  have hj := j.isLt
  have ho := o.isLt
  unfold foldTable
  refine (shapeCast_apply _ shapeCasts_S8x64x1x64_S512x64 (ix2 j o)
    (ix4 (⟨j.val / 64, by omega⟩ : Fin 8) (⟨j.val % 64, Nat.mod_lt _ (by decide)⟩ : Fin 64) (0 : Fin 1) o) ?_).trans ?_
  · rw [Shape.rowMajor_val_four, Shape.rowMajor_val_two]
    show ((j.val / 64 * 64 + j.val % 64) * 1 + 0) * 64 + o.val = j.val * 64 + o.val
    omega
  refine (broadcastInDim_apply _ bcast_S1x64x1x64_S8x64x1x64_0_1_2_3 _ _
    (ix4 (0 : Fin 1) (⟨j.val % 64, Nat.mod_lt _ (by decide)⟩ : Fin 64) (0 : Fin 1) o) fun a => ?_).trans ?_
  · match a with
    | ⟨0, _⟩ => rfl
    | ⟨1, _⟩ => rfl
    | ⟨2, _⟩ => rfl
    | ⟨3, _⟩ => rfl
  refine (shapeCast_apply _ shapeCasts_S64x64_S1x64x1x64 _ (ix2 (⟨j.val % 64, Nat.mod_lt _ (by decide)⟩ : Fin 64) o) ?_).trans ?_
  · rw [Shape.rowMajor_val_four, Shape.rowMajor_val_two]
    show j.val % 64 * 64 + o.val = ((0 * 64 + j.val % 64) * 1 + 0) * 64 + o.val
    omega
  exact eye64_apply _ o

/-- The row of gate biases at `(0, e)`. -/
theorem biasRow_apply (u : Fin 1) (e : Fin 8) (bg : S8.Idx → EReal) : biasRow bg (ix2 u e) = bg (ix1 e) :=
  shapeCast_a_1a_apply bg shapeCasts_S8_S1x8 u e

/-- The stacked weights at an expert column: `we[e, d, o]`. -/
theorem stacked_expert (we : S8x768x64.Idx → EReal) (wg : S768x8.Idx → EReal) (d : Fin 768) (j : Fin 520) (e : Fin 8) (o : Fin 64)
    (hj : j.val = e.val * 64 + o.val) : stacked we wg (ix2 d j) = we (ix3 e d o) := by
  have ho := o.isLt
  have he := e.isLt
  unfold stacked
  rw [truncf_apply]
  refine (concatenate_pair_apply_left (t := S768x520) (s₁ := S768x512) (s₂ := S768x8) (1 : Fin 2) _ _ concatenates_S768x512_S768x8_S768x520_d1 (ix2 d j) rfl
    (ix2 d (⟨j.val, by omega⟩ : Fin 512)) fun b => ?_).trans ?_
  · match b with
    | ⟨0, _⟩ => rfl
    | ⟨1, _⟩ => rfl
  refine (shapeCast_apply _ shapeCasts_S768x8x64_S768x512 _ (ix3 d e o) ?_).trans ?_
  · rw [Shape.rowMajor_val_three, Shape.rowMajor_val_two]
    show (d.val * 8 + e.val) * 64 + o.val = d.val * 512 + j.val
    omega
  exact transpose_apply _ we transposes_S8x768x64_S768x8x64_1_0_2 (ix3 d e o) (ix3 e d o) fun b =>
    match b with
    | ⟨0, _⟩ => rfl
    | ⟨1, _⟩ => rfl
    | ⟨2, _⟩ => rfl

/-- The stacked weights at a gate column: `wg[d, e]`. -/
theorem stacked_gate (we : S8x768x64.Idx → EReal) (wg : S768x8.Idx → EReal) (d : Fin 768) (j : Fin 520) (e : Fin 8)
    (hj : j.val = 512 + e.val) : stacked we wg (ix2 d j) = wg (ix2 d e) := by
  unfold stacked
  rw [truncf_apply]
  refine concatenate_pair_apply_right (t := S768x520) (s₁ := S768x512) (s₂ := S768x8) (1 : Fin 2) _ _ concatenates_S768x512_S768x8_S768x520_d1 (ix2 d j) rfl rfl
    (ix2 d e) (fun b hb => ?_) ?_
  · match b with
    | ⟨0, _⟩ => rfl
    | ⟨1, _⟩ => exact absurd rfl hb
  · show e.val + 512 = j.val
    omega

end Cert.KernelIdeal.MoeValue

end
-- ==== Proof.MoeWindows.lean ====
/-
  What the fused kernel's body finds in its windows at grid point `t`, entry by entry.

  The grid has four points; point `t` handles token rows `t * 2048 … t * 2048 + 2047`.  The token block and the given-gate
  block at point `t` are those rows of the two arrays; every other window holds its whole array at every point.  Four of
  those arrays are built by the launch from the arguments before the region (the stacked weights, the row of gate biases,
  the spreading and folding tables): the region finds each at the term of the arguments that builds it, and that term is
  read at an entry.  A block's coordinate in its array is always block index times block size plus the coordinate inside
  the block; the body's two loads of the stacked weights read columns 0 to 511 and columns 512 to 519 of the block.
-/
import proofs.«181126_g60644938220147_cont_9to1c4b_99_20_alg».proof.Proof.Gen.KernelIdeal.Value
import proofs.«181126_g60644938220147_cont_9to1c4b_99_20_alg».proof.Proof.MoeTables
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.MoeValue

open Cert.KernelIdeal Cert.KernelIdeal.Gen Cert.KernelIdeal.Value Idealize.ShloMosaic.ValueIdx Cert.Moe

variable (m : (ℓ : Loc nD τ sig) → Buf (Elt Ideal) ℓ) (ρ : Dev nD → PrngReg)

/-! ## The arrays the launch builds, as the region finds them -/

theorem V_stacked (c : Dev nD) : (V m c main_v3 : S768x520.Idx → EReal)
    = stacked (m ((c : Thread nD τ).loc main_arg4)) (m ((c : Thread nD τ).loc main_arg2)) := by
  dsimp only [Gen.V, Gen.hostOps0]; after_results; rfl

theorem V_biasRow (c : Dev nD) : (V m c main_v4 : S1x8.Idx → EReal) = biasRow (m ((c : Thread nD τ).loc main_arg3)) := by
  dsimp only [Gen.V, Gen.hostOps0]; after_results; rfl

theorem V_spreadTable (c : Dev nD) : (V m c main_v12 : S8x512.Idx → EReal) = spreadTable := by
  dsimp only [Gen.V, Gen.hostOps0]; after_results; rfl

theorem V_foldTable (c : Dev nD) : (V m c main_v21 : S512x64.Idx → EReal) = foldTable := by
  dsimp only [Gen.V, Gen.hostOps0]; after_results; rfl

/-! ## The index maps -/

/-- The printed index maps over the four grid points: the token block, the given-gate block and the output block move one
    block of 2048 rows per point; every other window stays at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The blocks, entry by entry -/

/-- Row `p` of the token block at point `t` is row `t * 2048 + p` of the tokens. -/
theorem tokens_blk (c : Dev nD) (t : Fin cfg0.N) (p : Fin 2048) (d : Fin 768) (r : Fin 8192) (hr : r.val = t.val * 2048 + p.val) :
    (iblk m c 0 t : Vec Ideal S2048x768 .f32) (ix2 p d) = (m ((c : Thread nD τ).loc main_arg0) : S8192x768.Idx → EReal) (ix2 r d) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 2048 + 1 * p.val = r.val; rw [e0, hr]; omega
  | ⟨1, _⟩ => show win0_0.index t (1 : Fin 2) * 768 + 1 * d.val = d.val; rw [e1]; omega

/-- Row `p` of the given-gate block at point `t` is row `t * 2048 + p` of the given gates. -/
theorem gates_blk (c : Dev nD) (t : Fin cfg0.N) (p : Fin 2048) (e : Fin 8) (r : Fin 8192) (hr : r.val = t.val * 2048 + p.val) :
    (iblk m c 1 t : Vec Ideal S2048x8 .f32) (ix2 p e) = (m ((c : Thread nD τ).loc main_arg1) : S8192x8.Idx → EReal) (ix2 r e) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 2048 + 1 * p.val = r.val; rw [e0, hr]; omega
  | ⟨1, _⟩ => show win0_1.index t (1 : Fin 2) * 8 + 1 * e.val = e.val; rw [e1]; omega

/-- The row of gate biases at every point: the gate biases. -/
theorem biasRow_blk (c : Dev nD) (t : Fin cfg0.N) (e : Fin 8) :
    (iblk m c 2 t : Vec Ideal S1x8 .f32) (ix2 (0 : Fin 1) e) = (m ((c : Thread nD τ).loc main_arg3) : S8.Idx → EReal) (ix1 e) := by
  obtain ⟨-, -, -, -, e0, e1, -⟩ := idx_facts t
  unfold iblk
  rw [View.read_apply]
  show (V m c main_v4 : S1x8.Idx → EReal) _ = _
  rw [V_biasRow]
  refine Eq.trans ?_ (biasRow_apply (0 : Fin 1) e _)
  congr 1
  funext a
  apply Fin.ext
  match a with
  | ⟨0, _⟩ => show win0_2.index t (0 : Fin 2) * 1 + 1 * 0 = 0; rw [e0]
  | ⟨1, _⟩ => show win0_2.index t (1 : Fin 2) * 8 + 1 * e.val = e.val; rw [e1]; omega

/-- The experts' biases at every point. -/
theorem biases_blk (c : Dev nD) (t : Fin cfg0.N) (e : Fin 8) (q : Fin 64) :
    (iblk m c 4 t : Vec Ideal S8x64 .f32) (ix2 e q) = (m ((c : Thread nD τ).loc main_arg5) : S8x64.Idx → EReal) (ix2 e q) := by
  obtain ⟨-, -, -, -, -, -, -, -, e0, e1, -⟩ := idx_facts t
  unfold iblk
  rw [View.read_apply]
  show V m c main_arg5 _ = _
  rw [V_main_arg5]
  congr 1
  funext a
  apply Fin.ext
  match a with
  | ⟨0, _⟩ => show win0_4.index t (0 : Fin 2) * 8 + 1 * e.val = e.val; rw [e0]; omega
  | ⟨1, _⟩ => show win0_4.index t (1 : Fin 2) * 64 + 1 * q.val = q.val; rw [e1]; omega

/-- The spreading table at every point: 1 where the column's expert is the row. -/
theorem spread_blk (c : Dev nD) (t : Fin cfg0.N) (e : Fin 8) (j : Fin 512) :
    (iblk m c 5 t : Vec Ideal S8x512 .bf16) (ix2 e j) = (if j.val / 64 = e.val then (1 : EReal) else 0) := by
  obtain ⟨-, -, -, -, -, -, -, -, -, -, e0, e1, -⟩ := idx_facts t
  unfold iblk
  rw [View.read_apply]
  show (V m c main_v12 : S8x512.Idx → EReal) _ = _
  rw [V_spreadTable]
  refine Eq.trans ?_ (spreadTable_apply e j)
  congr 1
  funext a
  apply Fin.ext
  match a with
  | ⟨0, _⟩ => show win0_5.index t (0 : Fin 2) * 8 + 1 * e.val = e.val; rw [e0]; omega
  | ⟨1, _⟩ => show win0_5.index t (1 : Fin 2) * 512 + 1 * j.val = j.val; rw [e1]; omega

/-- The folding table at every point: 1 where the row's output column is the column. -/
theorem fold_blk (c : Dev nD) (t : Fin cfg0.N) (j : Fin 512) (o : Fin 64) :
    (iblk m c 6 t : Vec Ideal S512x64 .bf16) (ix2 j o) = (if j.val % 64 = o.val then (1 : EReal) else 0) := by
  obtain ⟨-, -, -, -, -, -, -, -, -, -, -, -, e0, e1, -⟩ := idx_facts t
  unfold iblk
  rw [View.read_apply]
  show (V m c main_v21 : S512x64.Idx → EReal) _ = _
  rw [V_foldTable]
  refine Eq.trans ?_ (foldTable_apply j o)
  congr 1
  funext a
  apply Fin.ext
  match a with
  | ⟨0, _⟩ => show win0_6.index t (0 : Fin 2) * 512 + 1 * j.val = j.val; rw [e0]; omega
  | ⟨1, _⟩ => show win0_6.index t (1 : Fin 2) * 64 + 1 * o.val = o.val; rw [e1]; omega

/-- The body's load of columns 0 to 511 of the stacked weights, at column `e * 64 + o`: expert `e`'s weight. -/
theorem experts_ld (c : Dev nD) (t : Fin cfg0.N) (d : Fin 768) (e : Fin 8) (o : Fin 64) :
    (View.ld (iblk m c 3 t : Vec Ideal S768x520 .bf16) r0_1 : Vec Ideal S768x512 .bf16) (ix2 d (col (e, o)))
      = (m ((c : Thread nD τ).loc main_arg4) : S8x768x64.Idx → EReal) (ix3 e d o) := by
  obtain ⟨-, -, -, -, -, -, e0, e1, -⟩ := idx_facts t
  have ho := o.isLt
  have he := e.isLt
  show (iblk m c 3 t : Vec Ideal S768x520 .bf16) (r0_1.idx (ix2 d (col (e, o)))) = _
  unfold iblk
  rw [View.read_apply]
  show (V m c main_v3 : S768x520.Idx → EReal) _ = _
  rw [V_stacked]
  refine Eq.trans ?_ (stacked_expert (m ((c : Thread nD τ).loc main_arg4)) (m ((c : Thread nD τ).loc main_arg2)) d (⟨e.val * 64 + o.val, by omega⟩ : Fin 520) e o rfl)
  congr 1
  funext a
  apply Fin.ext
  match a with
  | ⟨0, _⟩ => show win0_3.index t (0 : Fin 2) * 768 + 1 * (0 + 1 * d.val) = d.val; rw [e0]; omega
  | ⟨1, _⟩ => show win0_3.index t (1 : Fin 2) * 520 + 1 * (0 + 1 * (e.val * 64 + o.val)) = e.val * 64 + o.val; rw [e1]; omega

/-- The body's load of columns 512 to 519 of the stacked weights: the gate's weights. -/
theorem gateW_ld (c : Dev nD) (t : Fin cfg0.N) (d : Fin 768) (e : Fin 8) :
    (View.ld (iblk m c 3 t : Vec Ideal S768x520 .bf16) r0_2 : Vec Ideal S768x8 .bf16) (ix2 d e)
      = (m ((c : Thread nD τ).loc main_arg2) : S768x8.Idx → EReal) (ix2 d e) := by
  obtain ⟨-, -, -, -, -, -, e0, e1, -⟩ := idx_facts t
  have he := e.isLt
  show (iblk m c 3 t : Vec Ideal S768x520 .bf16) (r0_2.idx (ix2 d e)) = _
  unfold iblk
  rw [View.read_apply]
  show (V m c main_v3 : S768x520.Idx → EReal) _ = _
  rw [V_stacked]
  refine Eq.trans ?_ (stacked_gate (m ((c : Thread nD τ).loc main_arg4)) (m ((c : Thread nD τ).loc main_arg2)) d (⟨512 + e.val, by omega⟩ : Fin 520) e rfl)
  congr 1
  funext a
  apply Fin.ext
  match a with
  | ⟨0, _⟩ => show win0_3.index t (0 : Fin 2) * 768 + 1 * (0 + 1 * d.val) = d.val; rw [e0]; omega
  | ⟨1, _⟩ => show win0_3.index t (1 : Fin 2) * 520 + 1 * (512 + 1 * e.val) = 512 + e.val; rw [e1]; omega

end Cert.KernelIdeal.MoeValue

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«181126_g60644938220147_cont_9to1c4b_99_20_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.MoeProducts.lean ====
/-
  The five matrix products of the fused kernel's body are plain products: each dimension record contracts the left
  operand's columns against the right operand's rows and keeps the left operand's row and the right operand's column.
  So, at the ideal values, each product into the zero accumulator is read at an entry `(p, c)` as the sum over the shared
  axis of `lhs (p, j) * rhs (j, c)`.
-/
import proofs.«181126_g60644938220147_cont_9to1c4b_99_20_alg».proof.Proof.Gen.KernelIdeal
import proofs.«181126_g60644938220147_cont_9to1c4b_99_20_alg».proof.Proof.LibMatRows

noncomputable section

namespace Cert.KernelIdeal.MoeValue

open Cert.KernelIdeal Idealize.ShloMosaic Idealize.ShloMosaic.ValueIdx Cert.LibMatRows

variable [Facts]

/-- Tokens by features times features by the 512 stacked expert columns. -/
theorem rows_experts : RowsTimesMat dot_S2048x768_S768x512_S2048x512_1_0_0_1_n_n where
  rank := rfl
  size := rfl
  l0 i q := by simp [DotDims.lhsIdx, dot_S2048x768_S768x512_S2048x512_1_0_0_1_n_n]; rfl
  l1 i q := DotDims.lhsIdx_val_of_single _ rfl i q
  r0 i q := DotDims.rhsIdx_val_of_single _ rfl i q
  r1 i q := by simp [DotDims.rhsIdx, dot_S2048x768_S768x512_S2048x512_1_0_0_1_n_n]; rfl

/-- Tokens by features times features by the 8 gate columns. -/
theorem rows_logits : RowsTimesMat dot_S2048x768_S768x8_S2048x8_1_0_0_1_n_n where
  rank := rfl
  size := rfl
  l0 i q := by simp [DotDims.lhsIdx, dot_S2048x768_S768x8_S2048x8_1_0_0_1_n_n]; rfl
  l1 i q := DotDims.lhsIdx_val_of_single _ rfl i q
  r0 i q := DotDims.rhsIdx_val_of_single _ rfl i q
  r1 i q := by simp [DotDims.rhsIdx, dot_S2048x768_S768x8_S2048x8_1_0_0_1_n_n]; rfl

/-- Tokens by experts times the 8 by 512 spreading table. -/
theorem rows_spread : RowsTimesMat dot_S2048x8_S8x512_S2048x512_1_0_0_1_n_n where
  rank := rfl
  size := rfl
  l0 i q := by simp [DotDims.lhsIdx, dot_S2048x8_S8x512_S2048x512_1_0_0_1_n_n]; rfl
  l1 i q := DotDims.lhsIdx_val_of_single _ rfl i q
  r0 i q := DotDims.rhsIdx_val_of_single _ rfl i q
  r1 i q := by simp [DotDims.rhsIdx, dot_S2048x8_S8x512_S2048x512_1_0_0_1_n_n]; rfl

/-- Tokens by the 512 stacked columns times the 512 by 64 folding table. -/
theorem rows_fold : RowsTimesMat dot_S2048x512_S512x64_S2048x64_1_0_0_1_n_n where
  rank := rfl
  size := rfl
  l0 i q := by simp [DotDims.lhsIdx, dot_S2048x512_S512x64_S2048x64_1_0_0_1_n_n]; rfl
  l1 i q := DotDims.lhsIdx_val_of_single _ rfl i q
  r0 i q := DotDims.rhsIdx_val_of_single _ rfl i q
  r1 i q := by simp [DotDims.rhsIdx, dot_S2048x512_S512x64_S2048x64_1_0_0_1_n_n]; rfl

/-- Tokens by experts times the experts' biases. -/
theorem rows_bias : RowsTimesMat dot_S2048x8_S8x64_S2048x64_1_0_0_1_n_n where
  rank := rfl
  size := rfl
  l0 i q := by simp [DotDims.lhsIdx, dot_S2048x8_S8x64_S2048x64_1_0_0_1_n_n]; rfl
  l1 i q := DotDims.lhsIdx_val_of_single _ rfl i q
  r0 i q := DotDims.rhsIdx_val_of_single _ rfl i q
  r1 i q := by simp [DotDims.rhsIdx, dot_S2048x8_S8x64_S2048x64_1_0_0_1_n_n]; rfl

end Cert.KernelIdeal.MoeValue

end
-- ==== Proof.MoePayload.lean ====
/-
  The fused kernel's one stored value, read at an entry `(p, q)` of its 2048 by 64 block at the ideal values, as sums of
  products of the entries of the eight vectors the body loads.  With
      g e  = ((Σ_d x (p, d) · wg (d, e)) + bg (0, e)) · gates (p, e)          (the gate of token `p` for expert `e`)
      y j  =  Σ_d x (p, d) · we (d, j)                                        (the 512 stacked expert columns)
  the stored value at `(p, q)` is
      Σ_j ((Σ_e g e · P (e, j)) · y j) · S (j, q)  +  Σ_e g e · be (e, q).
  Every change of float format is the identity on extended reals, a reshape to the same shape reads the same entry, the
  row of gate biases is read at row 0 whatever the token, and each product into the zero accumulator is a plain sum over
  the contracted axis.
-/
import proofs.«181126_g60644938220147_cont_9to1c4b_99_20_alg».proof.Proof.Gen.KernelIdeal.Skeleton
import proofs.«181126_g60644938220147_cont_9to1c4b_99_20_alg».proof.Proof.MoeProducts
import Idealize.ShloMosaic.Lib.ValueLayout

noncomputable section

namespace Cert.KernelIdeal.MoeValue

open Cert.KernelIdeal Cert.KernelIdeal.Gen Idealize.ShloMosaic Idealize.ShloMosaic.ValueIdx Cert.LibMatRows

variable [Facts]

/-- The gate of the block's token `p` for expert `e`, from the loaded vectors. -/
def gateOf (v0 : Vec Ideal S2048x768 .f32) (v5 : Vec Ideal S768x8 .bf16) (v8 : Vec Ideal S1x8 .f32) (v12 : Vec Ideal S2048x8 .f32)
    (p : Fin 2048) (e : Fin 8) : EReal :=
  ((∑ d : Fin 768, v0 (ix2 p d) * v5 (ix2 d e)) + v8 (ix2 (0 : Fin 1) e)) * v12 (ix2 p e)

/-- The stored value at `(p, q)`. -/
theorem payload_apply (v0 : Vec Ideal S2048x768 .f32) (v2 : Vec Ideal S768x512 .bf16) (v5 : Vec Ideal S768x8 .bf16)
    (v8 : Vec Ideal S1x8 .f32) (v12 : Vec Ideal S2048x8 .f32) (v15 : Vec Ideal S8x512 .bf16) (v20 : Vec Ideal S512x64 .bf16)
    (v23 : Vec Ideal S8x64 .f32) (p : Fin 2048) (q : Fin 64) :
    k0_pay1 v0 v2 v5 v8 v12 v15 v20 v23 (ix2 p q)
      = (∑ j : Fin 512, ((∑ e : Fin 8, gateOf v0 v5 v8 v12 p e * v15 (ix2 e j))
            * (∑ d : Fin 768, v0 (ix2 p d) * v2 (ix2 d j))) * v20 (ix2 j q))
        + ∑ e : Fin 8, gateOf v0 v5 v8 v12 p e * v23 (ix2 e q) := by
  unfold k0_pay1 gateOf
  simp only [addf_apply, mulf_apply, truncf_apply, shapeCast_self, matmul_rows rows_fold, matmul_rows rows_bias,
    matmul_rows rows_spread, matmul_rows rows_experts, matmul_rows rows_logits, broadcastTo_1b_ab_apply]

end Cert.KernelIdeal.MoeValue

end
-- ==== Proof.MoeBlock.lean ====
/-
  One entry of the fused kernel's block is the fused layer's value at the token the block's row stands for.

  The body's stored value at `(p, q)` is  Σ_j ((Σ_e g e · P (e, j)) · y j) · S (j, q) + Σ_e g e · be (e, q)  over the
  vectors it loads.  When those vectors hold: row `p` of the tokens and of the given gates = row `t` of the arrays; the
  gate's weights and the row of gate biases; the experts' weights with column `e * 64 + o` holding `we[e, ·, o]`; the
  spreading and folding tables of zeros and ones; and the experts' biases — then `g e` is the layer's gate of token `t`
  for expert `e`, `y (e * 64 + o)` is expert `e`'s linear map at `(t, o)`, the spreading sum keeps the one gate of
  column `j`'s expert and the folding sum keeps the eight columns of output `q`: the entry is
  Σ_e gate t e · lin t e q + Σ_e gate t e · be (e, q), the fused form, with the kernel's own grouping.
-/
import proofs.«181126_g60644938220147_cont_9to1c4b_99_20_alg».proof.Proof.MoeSpec
import proofs.«181126_g60644938220147_cont_9to1c4b_99_20_alg».proof.Proof.MoePayload
import proofs.«181126_g60644938220147_cont_9to1c4b_99_20_alg».proof.Proof.MoeCollapse

noncomputable section

namespace Cert.KernelIdeal.MoeValue

open Cert.KernelIdeal Cert.KernelIdeal.Gen Idealize.ShloMosaic Idealize.ShloMosaic.ValueIdx Cert.Moe

variable [Facts]

theorem block_entry (v0 : Vec Ideal S2048x768 .f32) (v2 : Vec Ideal S768x512 .bf16) (v5 : Vec Ideal S768x8 .bf16)
    (v8 : Vec Ideal S1x8 .f32) (v12 : Vec Ideal S2048x8 .f32) (v15 : Vec Ideal S8x512 .bf16) (v20 : Vec Ideal S512x64 .bf16)
    (v23 : Vec Ideal S8x64 .f32)
    (x : S8192x768.Idx → EReal) (g : S8192x8.Idx → EReal) (wg : S768x8.Idx → EReal) (bg : S8.Idx → EReal)
    (we : S8x768x64.Idx → EReal) (be : S8x64.Idx → EReal)
    (t : Fin 8192) (p : Fin 2048) (q : Fin 64)
    (h0 : ∀ d : Fin 768, v0 (ix2 p d) = x (ix2 t d))
    (h12 : ∀ e : Fin 8, v12 (ix2 p e) = g (ix2 t e))
    (h5 : ∀ (d : Fin 768) (e : Fin 8), v5 (ix2 d e) = wg (ix2 d e))
    (h8 : ∀ e : Fin 8, v8 (ix2 (0 : Fin 1) e) = bg (ix1 e))
    (h2 : ∀ (d : Fin 768) (e : Fin 8) (o : Fin 64), v2 (ix2 d (col (e, o))) = we (ix3 e d o))
    (h15 : ∀ (e : Fin 8) (j : Fin 512), v15 (ix2 e j) = if j.val / 64 = e.val then 1 else 0)
    (h20 : ∀ (j : Fin 512) (o : Fin 64), v20 (ix2 j o) = if j.val % 64 = o.val then 1 else 0)
    (h23 : ∀ e : Fin 8, v23 (ix2 e q) = be (ix2 e q)) :
    k0_pay1 v0 v2 v5 v8 v12 v15 v20 v23 (ix2 p q) = fused x g wg bg we be (ix2 t q) := by
  have hg : ∀ e : Fin 8, gateOf v0 v5 v8 v12 p e = gate x g wg bg t e := fun e => by
    unfold gateOf gate logit
    rw [h8, h12]
    refine congrArg (fun s => (s + bg (ix1 e)) * g (ix2 t e)) ?_
    exact Finset.sum_congr rfl fun d _ => by rw [h0, h5]
  have key := spread_mul_fold (fun e => gateOf v0 v5 v8 v12 p e) (fun j => ∑ d : Fin 768, v0 (ix2 p d) * v2 (ix2 d j))
    (fun e j => v15 (ix2 e j)) (fun j o => v20 (ix2 j o)) h15 h20 q
  rw [payload_apply]
  unfold fused
  show _ = (∑ e : Fin 8, gate x g wg bg t e * lin x we t e q) + ∑ e : Fin 8, gate x g wg bg t e * be (ix2 e q)
  refine congrArg₂ (· + ·) (key.trans (Finset.sum_congr rfl fun e _ => ?_)) (Finset.sum_congr rfl fun e _ => ?_)
  · show gateOf v0 v5 v8 v12 p e * (∑ d : Fin 768, v0 (ix2 p d) * v2 (ix2 d (col (e, q))))
      = gate x g wg bg t e * lin x we t e q
    rw [hg]
    unfold lin
    refine congrArg (fun s => gate x g wg bg t e * s) ?_
    exact Finset.sum_congr rfl fun d _ => by rw [h0, h2]
  · rw [hg, h23]

end Cert.KernelIdeal.MoeValue

end
-- ==== Proof.MoeArray.lean ====
/-
  From the blocks to the result array.  Grid point `t` writes back rows `t * 2048 … t * 2048 + 2047` of the result, and
  what it writes is the fused layer of the argument arrays read on those rows: entry `(p, q)` of its block is the body's
  stored value over the windows' blocks at `t`, which is the fused layer's value at token `t * 2048 + p` and output
  column `q`.  Row `r` of the result lies in the block of point `r / 2048`, so the four blocks cover the array and the
  array ends holding the fused layer of the arguments.
-/
import proofs.«181126_g60644938220147_cont_9to1c4b_99_20_alg».proof.Proof.Gen.KernelIdeal.Value
import proofs.«181126_g60644938220147_cont_9to1c4b_99_20_alg».proof.Proof.MoeWindows
import proofs.«181126_g60644938220147_cont_9to1c4b_99_20_alg».proof.Proof.MoeBlock
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.MoeValue

open Cert.KernelIdeal Cert.KernelIdeal.Gen Cert.KernelIdeal.Value Idealize.ShloMosaic.ValueIdx Cert.Moe

variable (m : (ℓ : Loc nD τ sig) → Buf (Elt Ideal) ℓ) (ρ : Dev nD → PrngReg)

theorem hz : (![0, 0] : Fin 2 → Nat) = fun _ => 0 := funext fun a => by fin_cases a <;> rfl

/-- What point `t` writes back is block `t` of the fused layer of the argument arrays. -/
theorem flushed_eq (c : Dev nD) (t : Fin cfg0.N) :
    (dats m 0 c).flushed 7 t = ((cfg0.win 7).blk t).view.read (Elt Ideal)
      (fused (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed7]
  unfold out0_7
  rw [View.canon_unit_zero hz]
  simp only [View.ld_unit_zero (S := S2048x768) hz, View.ld_unit_zero (S := S1x8) hz, View.ld_unit_zero (S := S2048x8) hz,
    View.ld_unit_zero (S := S8x512) hz, View.ld_unit_zero (S := S512x64) hz, View.ld_unit_zero (S := S8x64) hz]
  funext j
  obtain ⟨p, q, rfl⟩ : ∃ (p : Fin 2048) (q : Fin 64), j = ix2 p q := ⟨j 0, j 1, eq_ix2 j⟩
  have hN : cfg0.N = 4 := N_0
  have ht := t.isLt
  have hp := p.isLt
  obtain ⟨-, -, -, -, -, -, -, -, -, -, -, -, -, -, e0, e1⟩ := idx_facts t
  have hemb : ((cfg0.win 7).blk t).view.emb (ix2 p q) = ix2 (⟨t.val * 2048 + p.val, by omega⟩ : Fin 8192) q := by
    funext a
    apply Fin.ext
    match a with
    | ⟨0, _⟩ => show win0_7.index t (0 : Fin 2) * 2048 + 1 * p.val = t.val * 2048 + p.val; rw [e0]; omega
    | ⟨1, _⟩ => show win0_7.index t (1 : Fin 2) * 64 + 1 * q.val = q.val; rw [e1]; omega
  show k0_pay1 (iblk m c 0 t) (View.ld (iblk m c 3 t) r0_1) (View.ld (iblk m c 3 t) r0_2) (iblk m c 2 t) (iblk m c 1 t)
      (iblk m c 5 t) (iblk m c 6 t) (iblk m c 4 t) (ix2 p q)
    = (fused (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) (((cfg0.win 7).blk t).view.emb (ix2 p q))
  rw [hemb]
  exact block_entry (iblk m c 0 t) (View.ld (iblk m c 3 t) r0_1) (View.ld (iblk m c 3 t) r0_2) (iblk m c 2 t) (iblk m c 1 t)
    (iblk m c 5 t) (iblk m c 6 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (⟨t.val * 2048 + p.val, by omega⟩ : Fin 8192) p q
    (fun d => tokens_blk m c t p d _ rfl)
    (fun e => gates_blk m c t p e _ rfl)
    (fun d e => gateW_ld m c t d e)
    (fun e => biasRow_blk m c t e)
    (fun d e o => experts_ld m c t d e o)
    (fun e j => spread_blk m c t e j)
    (fun j o => fold_blk m c t j o)
    (fun e => biases_blk m c t e q)

/-- An index of the result is in point `t`'s block iff each coordinate is in the block's range on its axis. -/
theorem mem_blk (t : Fin cfg0.N) (i : S8192x64.Idx) :
    i ∈ ((cfg0.win 7).blk t).view.set ↔ ∀ a : Fin 2, win0_7.index t a * S2048x64.size a ≤ (i a).val
      ∧ (i a).val < win0_7.index t a * S2048x64.size a + S2048x64.size a := by
  show i ∈ ((View.whole main_v22).slice (win0_7.rect t)).set ↔ _
  rw [View.set_slice_whole, Rect.mem_set_unit]
  exact Iff.rfl

/-- Row `r` of the result is in the block of point `r / 2048`. -/
theorem cover (i : S8192x64.Idx) : ∃ t : Fin cfg0.N, (cfg0.win 7).flush t = true ∧ i ∈ ((cfg0.win 7).blk t).view.set := by
  have hN : cfg0.N = 4 := N_0
  have hi0 : (i 0).val < 8192 := (i 0).isLt
  have hi1 : (i 1).val < 64 := (i 1).isLt
  obtain ⟨t, ht⟩ : ∃ t : Fin cfg0.N, t.val = (i 0).val / 2048 := ⟨⟨(i 0).val / 2048, by rw [hN]; omega⟩, rfl⟩
  obtain ⟨-, -, -, -, -, -, -, -, -, -, -, -, -, -, e0, e1⟩ := idx_facts t
  refine ⟨t, flush0_7 t, ?_⟩
  rw [mem_blk]
  intro a
  match a with
  | ⟨0, _⟩ =>
    show win0_7.index t (0 : Fin 2) * 2048 ≤ (i 0).val ∧ (i 0).val < win0_7.index t (0 : Fin 2) * 2048 + 2048
    rw [e0, ht]
    omega
  | ⟨1, _⟩ =>
    show win0_7.index t (1 : Fin 2) * 64 ≤ (i 1).val ∧ (i 1).val < win0_7.index t (1 : Fin 2) * 64 + 64
    rw [e1]
    omega

/-- The result array after the run is the fused layer of the argument arrays. -/
theorem final (c : Dev nD) : (dats m 0 c).arrAt 7 cfg0.N
    = (fused (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) :=
  (dats m 0 c).arrAt_eq_of_cover 7 _ (fun t _ => flushed_eq m c t) cover

end Cert.KernelIdeal.MoeValue

end
-- ==== Proof.MoeKernel.lean ====
/-
  The fused kernel's run, read: every weakly fair execution terminates with the result array holding the fused
  mixture-of-experts layer of the six argument arrays — for each token, the gated expert outputs summed over the experts
  plus the gated expert biases summed over the experts — and the argument arrays unchanged.
-/
import proofs.«181126_g60644938220147_cont_9to1c4b_99_20_alg».proof.Proof.Gen.KernelIdeal.Value
import proofs.«181126_g60644938220147_cont_9to1c4b_99_20_alg».proof.Proof.MoeSpec
import proofs.«181126_g60644938220147_cont_9to1c4b_99_20_alg».proof.Proof.MoeArray

noncomputable section

open Idealize.ShloMosaic Idealize.ShloMosaic.TcCoe Idealize.SL.Sem

namespace Cert.KernelIdeal.MoeValue

open Cert.KernelIdeal Cert.KernelIdeal.Gen Cert.KernelIdeal.Value

theorem run [Cert.KernelIdeal.Facts] (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v22)
          = Cert.Moe.fused (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun r h c => ⟨(h c).1.trans (final m c), (h c).2⟩) (Value.run_blocks m ρ)

end Cert.KernelIdeal.MoeValue

end
-- ==== Proof.RefStages.lean ====
/-
  The reference's dispatched mixture-of-experts layer, stage by stage, as pure functions of the six
  argument arrays (floats read as extended reals).  The 65536 (token, expert) pairs are laid out row-major;
  a stable sort of the pairs' expert numbers gives the order in which the pairs are visited, expert by expert.
  Each stage below is the composition of exactly the array operations the program applies to the earlier
  stages; nothing is simplified here.
-/
import proofs.«181126_g60644938220147_cont_9to1c4b_99_20_alg».proof.ReferenceIdeal
import Idealize.ShloMosaic.PureOps.Ideal

set_option synthInstance.maxSize 4096

noncomputable section

namespace Cert.ReferenceIdeal.Stages

open Idealize.ShloMosaic Idealize.SL.Sem Cert.ReferenceIdeal
open Cert.ReferenceIdeal.Facts₀ Cert.ReferenceIdeal.Facts

variable [Cert.ReferenceIdeal.Facts]

/-- The contents of an array of shape `s` and element type `e`, a float being an extended real. -/
abbrev T (s : Shape) (e : EltTy) : Type := (⟨s, e⟩ : BufTy).Contents (Elt Ideal)

/-- The token number of each pair: `0,…,0, 1,…,1, …` (each token eight times), flattened. -/
def pairRows : T S65536 .i32 :=
  fun i => shapeCast S65536
    (broadcastInDim S8192x8 ![0] bcast_S8192_S8192x8_0 (iotaInDim S8192 32 0 : T S8192 .i32) : T S8192x8 .i32)
    shapeCasts_S8192x8_S65536 i

/-- The expert number of each pair: `0,1,…,7, 0,1,…,7, …`, flattened. -/
def pairCols : T S65536 .i32 :=
  fun i => shapeCast S65536
    (broadcastInDim S8192x8 ![0, 1] bcast_S1x8_S8192x8_0_1
      ((fun j => shapeCast S1x8 (iotaInDim S8 32 0 : T S8 .i32) shapeCasts_S8_S1x8 j) : T S1x8 .i32) : T S8192x8 .i32)
    shapeCasts_S8192x8_S65536 i

/-- The stable sorting permutation of the pairs by expert number: the positions `0 … 65535` carried along the sort. -/
def order : T S65536 .i32 :=
  (Host.sort2 S65536 0 comparator_i32_i32_d0 pairCols (iotaInDim S65536 32 0 : T S65536 .i32)).2

/-- Index normalisation: a negative entry has `n` added, any other is kept. -/
def wrap (n : BitVec 32) (v : T S65536 .i32) : T S65536 .i32 :=
  (select
    ((cmpi .slt v (broadcastInDim S65536 ![] bcast_S_S65536 (constantI S_ 32 0#32 : T S_ .i32) : T S65536 .i32)) : T S65536 .i1)
    ((addi v (broadcastInDim S65536 ![] bcast_S_S65536 (constantI S_ 32 n : T S_ .i32) : T S65536 .i32)) : T S65536 .i32)
    v : T S65536 .i32)

/-- A vector as a one-column matrix. -/
def col {e : EltTy} (v : T S65536 e) : T S65536x1 e :=
  broadcastInDim S65536x1 ![0] bcast_S65536_S65536x1_0 v

/-- The token of the `k`-th visited pair. -/
def batchIdx : T S65536 .i32 :=
  Host.gather gather_S65536_S65536x1_S65536_n_0_n_n_0_1_1 pairRows (col (e := .i32) (wrap 65536#32 order))

/-- The expert of the `k`-th visited pair. -/
def expertIdx : T S65536 .i32 :=
  Host.gather gather_S65536_S65536x1_S65536_n_0_n_n_0_1_1 pairCols (col (e := .i32) (wrap 65536#32 order))

/-- The (token, expert) index pair of the `k`-th visited pair, as a two-column matrix. -/
def pairIdx : T S65536x2 .i32 :=
  concatenate S65536x2 1 [⟨S65536x1, col (e := .i32) (wrap 8192#32 batchIdx)⟩, ⟨S65536x1, col (e := .i32) (wrap 8#32 expertIdx)⟩]
    concatenates_S65536x1_S65536x1_S65536x2_d1

/-- The given gate at each visited pair. -/
def gatesAt (gates : T S8192x8 .f32) : T S65536 .f32 :=
  Host.gather gather_S8192x8_S65536x2_S65536_n_01_n_n_01_1_11 gates pairIdx

/-- Which visited pairs have their (normalised) token number inside `0 … 8191`. -/
def takeMask : T S65536 .i1 :=
  Host.reduce IntOp.andi
    ((andi
      ((cmpi .sge (col (e := .i32) (wrap 8192#32 batchIdx))
        (broadcastInDim S65536x1 ![] bcast_S_S65536x1 (constantI S_ 32 0#32 : T S_ .i32) : T S65536x1 .i32)) : T S65536x1 .i1)
      ((cmpi .sle (col (e := .i32) (wrap 8192#32 batchIdx))
        (broadcastInDim S65536x1 ![0, 1] bcast_S1x1_S65536x1_0_1
          (broadcastInDim S1x1 ![1] bcast_S1_S1x1_1 (constantI S1 32 8191#32 : T S1 .i32) : T S1x1 .i32) : T S65536x1 .i32)) : T S65536x1 .i1))
      : T S65536x1 .i1)
    (constantI S_ 1 1#1 : T S_ .i1) reducesTo_S65536x1_S65536_d1 h_S_

/-- The token rows of `x` in visiting order; a row whose token number is out of range is filled with the not-a-number word. -/
def taken (x : T S8192x768 .f32) : T S65536x768 .f32 :=
  (select
    (broadcastInDim S65536x768 ![0] bcast_S65536_S65536x768_0 takeMask : T S65536x768 .i1)
    (Host.gather gather_S8192x768_S65536x1_S65536x768_1_0_n_n_0_1_1768 x (col (e := .i32) (wrap 8192#32 batchIdx)) : T S65536x768 .f32)
    (broadcastInDim S65536x768 ![] bcast_S_S65536x768 (constant (F := Ideal) S_ .f32 0x7FC00000#32 : T S_ .f32) : T S65536x768 .f32)
    : T S65536x768 .f32)

/-- The visited rows cut into eight consecutive chunks of 8192 rows, one per expert. -/
def chunks (x : T S8192x768 .f32) : T S8x8192x768 .f32 :=
  fun i => shapeCast S8x8192x768 (taken x) shapeCasts_S65536x768_S8x8192x768 i

/-- The learned gate before the given one: `x · W_gate + b_gate`. -/
def logits (x : T S8192x768 .f32) (wg : T S768x8 .f32) (bg : T S8 .f32) : T S8192x8 .f32 :=
  addf (F := Ideal) (φ := .f32)
    (Host.dotGeneral (F := Ideal) (φ₁ := .f32) (φ₂ := .f32) dot_S8192x768_S768x8_S8192x8_1_0_0_1_n_n none x wg : T S8192x8 .f32)
    (broadcastInDim S8192x8 ![0, 1] bcast_S1x8_S8192x8_0_1
      (broadcastInDim S1x8 ![1] bcast_S8_S1x8_1 bg : T S1x8 .f32) : T S8192x8 .f32)

/-- The learned gate at each visited pair. -/
def gateAt (x : T S8192x768 .f32) (wg : T S768x8 .f32) (bg : T S8 .f32) : T S65536 .f32 :=
  Host.gather gather_S8192x8_S65536x2_S65536_n_01_n_n_01_1_11 (logits x wg bg) pairIdx

/-- Each expert applied to its chunk: `chunk_e · W_e + b_e`. -/
def expertOut (x : T S8192x768 .f32) (we : T S8x768x64 .f32) (be : T S8x64 .f32) : T S8x8192x64 .f32 :=
  addf (F := Ideal) (φ := .f32)
    (Host.dotGeneral (F := Ideal) (φ₁ := .f32) (φ₂ := .f32) dot_S8x8192x768_S8x768x64_S8x8192x64_2_1_1_2_0_0 none (chunks x) we : T S8x8192x64 .f32)
    (broadcastInDim S8x8192x64 ![0, 1, 2] bcast_S8x1x64_S8x8192x64_0_1_2
      (broadcastInDim S8x1x64 ![0, 2] bcast_S8x64_S8x1x64_0_2 be : T S8x1x64 .f32) : T S8x8192x64 .f32)

/-- The expert outputs, flattened back to visiting order, times the learned gate, times the given gate. -/
def scaled (x : T S8192x768 .f32) (gates : T S8192x8 .f32) (wg : T S768x8 .f32) (bg : T S8 .f32)
    (we : T S8x768x64 .f32) (be : T S8x64 .f32) : T S65536x64 .f32 :=
  mulf (F := Ideal) (φ := .f32)
    (mulf (F := Ideal) (φ := .f32)
      ((fun i => shapeCast S65536x64 (expertOut x we be) shapeCasts_S8x8192x64_S65536x64 i) : T S65536x64 .f32)
      (broadcastInDim S65536x64 ![0, 1] bcast_S65536x1_S65536x64_0_1 (col (e := .f32) (gateAt x wg bg)) : T S65536x64 .f32)
      : T S65536x64 .f32)
    (broadcastInDim S65536x64 ![0, 1] bcast_S65536x1_S65536x64_0_1 (col (e := .f32) (gatesAt gates)) : T S65536x64 .f32)

/-- The result: from zero, every visited pair's scaled row added into its token's row. -/
def out (x : T S8192x768 .f32) (gates : T S8192x8 .f32) (wg : T S768x8 .f32) (bg : T S8 .f32)
    (we : T S8x768x64 .f32) (be : T S8x64 .f32) : T S8192x64 .f32 :=
  Host.scatterAdd (F := Ideal) (φ := .f32) scatter_S8192x64_S65536x1_S65536x64_1_0_0_1
    (broadcastInDim S8192x64 ![] bcast_S_S8192x64 (constant (F := Ideal) S_ .f32 0x00000000#32 : T S_ .f32) : T S8192x64 .f32)
    (col (e := .i32) (wrap 8192#32 batchIdx))
    (scaled x gates wg bg we be)

end Cert.ReferenceIdeal.Stages

end
-- ==== Proof.RefLine.lean ====
/-
  The reference program as a straight line.  Its entry function calls three outlined functions (a stable argsort,
  a row gather with an in-range mask, and the select the gather's index normalisation uses); with the calls
  unfolded it is a sequence of 114 array operations, each writing one buffer of its own from earlier ones.  Every
  weakly fair execution therefore terminates, nothing faulting, with each buffer holding the fold of the
  operations over the initial contents.
-/
import proofs.«181126_g60644938220147_cont_9to1c4b_99_20_alg».proof.ReferenceIdeal
import Idealize.ShloMosaic.Lib.StableHlo.Run

set_option synthInstance.maxSize 4096

noncomputable section

namespace Cert.ReferenceIdeal.MoeRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

variable {F : FTy → Type} [FloatOps F]

/-- The entry function's 114 operations in order, the three calls unfolded at their call sites over the
    buffers each call names. -/
abbrev ops : List (HloOp τ sig (Elt F)) :=
  [
    StableHlo.nullary main_v0 (iotaInDim S8192 32 0),
    StableHlo.unary main_v0 main_v1 (broadcastInDim S8192x8 ![0] bcast_S8192_S8192x8_0 : (⟨S8192, .i32⟩ : BufTy).Contents (Elt F) → (⟨S8192x8, .i32⟩ : BufTy).Contents (Elt F)),
    StableHlo.reshape main_v1 main_v2 rfl shapeCasts_S8192x8_S65536,
    StableHlo.nullary main_v3 (iotaInDim S8 32 0),
    StableHlo.reshape main_v3 main_v4 rfl shapeCasts_S8_S1x8,
    StableHlo.unary main_v4 main_v5 (broadcastInDim S8192x8 ![0, 1] bcast_S1x8_S8192x8_0_1 : (⟨S1x8, .i32⟩ : BufTy).Contents (Elt F) → (⟨S8192x8, .i32⟩ : BufTy).Contents (Elt F)),
    StableHlo.reshape main_v5 main_v6 rfl shapeCasts_S8192x8_S65536,
    StableHlo.TRef.nullary main_call0.v0 (iotaInDim S65536 32 0),
    StableHlo.TRef.binary (.of main_v6 : StableHlo.TRef sig ⟨S65536, .i32⟩) main_call0.v0 main_call0.v1_0 (fun x y => (Host.sort2 S65536 0 comparator_i32_i32_d0 x y).1),
    StableHlo.TRef.binary (.of main_v6 : StableHlo.TRef sig ⟨S65536, .i32⟩) main_call0.v0 main_call0.v1_1 (fun x y => (Host.sort2 S65536 0 comparator_i32_i32_d0 x y).2),
    StableHlo.nullary main_c (constantI S_ 32 0#32),
    StableHlo.unary main_c main_v8 (broadcastInDim S65536 ![] bcast_S_S65536 : (⟨S_, .i32⟩ : BufTy).Contents (Elt F) → (⟨S65536, .i32⟩ : BufTy).Contents (Elt F)),
    StableHlo.binary main_v7 main_v8 main_v9 (cmpi .slt : (⟨S65536, .i32⟩ : BufTy).Contents (Elt F) → (⟨S65536, .i32⟩ : BufTy).Contents (Elt F) → (⟨S65536, .i1⟩ : BufTy).Contents (Elt F)),
    StableHlo.nullary main_c_0 (constantI S_ 32 65536#32),
    StableHlo.unary main_c_0 main_v10 (broadcastInDim S65536 ![] bcast_S_S65536 : (⟨S_, .i32⟩ : BufTy).Contents (Elt F) → (⟨S65536, .i32⟩ : BufTy).Contents (Elt F)),
    StableHlo.binary main_v7 main_v10 main_v11 (addi : (⟨S65536, .i32⟩ : BufTy).Contents (Elt F) → (⟨S65536, .i32⟩ : BufTy).Contents (Elt F) → (⟨S65536, .i32⟩ : BufTy).Contents (Elt F)),
    StableHlo.ternary main_v9 main_v11 main_v7 main_v12 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v12 main_v13 (broadcastInDim S65536x1 ![0] bcast_S65536_S65536x1_0 : (⟨S65536, .i32⟩ : BufTy).Contents (Elt F) → (⟨S65536x1, .i32⟩ : BufTy).Contents (Elt F)),
    StableHlo.binary main_v2 main_v13 main_v14 ((fun x i => Host.gather gather_S65536_S65536x1_S65536_n_0_n_n_0_1_1 x i) : (⟨S65536, .i32⟩ : BufTy).Contents (Elt F) → (⟨S65536x1, .i32⟩ : BufTy).Contents (Elt F) → (⟨S65536, .i32⟩ : BufTy).Contents (Elt F)),
    StableHlo.nullary main_c_1 (constantI S_ 32 0#32),
    StableHlo.unary main_c_1 main_v15 (broadcastInDim S65536 ![] bcast_S_S65536 : (⟨S_, .i32⟩ : BufTy).Contents (Elt F) → (⟨S65536, .i32⟩ : BufTy).Contents (Elt F)),
    StableHlo.binary main_v7 main_v15 main_v16 (cmpi .slt : (⟨S65536, .i32⟩ : BufTy).Contents (Elt F) → (⟨S65536, .i32⟩ : BufTy).Contents (Elt F) → (⟨S65536, .i1⟩ : BufTy).Contents (Elt F)),
    StableHlo.nullary main_c_2 (constantI S_ 32 65536#32),
    StableHlo.unary main_c_2 main_v17 (broadcastInDim S65536 ![] bcast_S_S65536 : (⟨S_, .i32⟩ : BufTy).Contents (Elt F) → (⟨S65536, .i32⟩ : BufTy).Contents (Elt F)),
    StableHlo.binary main_v7 main_v17 main_v18 (addi : (⟨S65536, .i32⟩ : BufTy).Contents (Elt F) → (⟨S65536, .i32⟩ : BufTy).Contents (Elt F) → (⟨S65536, .i32⟩ : BufTy).Contents (Elt F)),
    StableHlo.ternary main_v16 main_v18 main_v7 main_v19 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v19 main_v20 (broadcastInDim S65536x1 ![0] bcast_S65536_S65536x1_0 : (⟨S65536, .i32⟩ : BufTy).Contents (Elt F) → (⟨S65536x1, .i32⟩ : BufTy).Contents (Elt F)),
    StableHlo.binary main_v6 main_v20 main_v21 ((fun x i => Host.gather gather_S65536_S65536x1_S65536_n_0_n_n_0_1_1 x i) : (⟨S65536, .i32⟩ : BufTy).Contents (Elt F) → (⟨S65536x1, .i32⟩ : BufTy).Contents (Elt F) → (⟨S65536, .i32⟩ : BufTy).Contents (Elt F)),
    StableHlo.nullary main_c_3 (constantI S_ 32 0#32),
    StableHlo.unary main_c_3 main_v22 (broadcastInDim S65536 ![] bcast_S_S65536 : (⟨S_, .i32⟩ : BufTy).Contents (Elt F) → (⟨S65536, .i32⟩ : BufTy).Contents (Elt F)),
    StableHlo.binary main_v14 main_v22 main_v23 (cmpi .slt : (⟨S65536, .i32⟩ : BufTy).Contents (Elt F) → (⟨S65536, .i32⟩ : BufTy).Contents (Elt F) → (⟨S65536, .i1⟩ : BufTy).Contents (Elt F)),
    StableHlo.nullary main_c_4 (constantI S_ 32 8192#32),
    StableHlo.unary main_c_4 main_v24 (broadcastInDim S65536 ![] bcast_S_S65536 : (⟨S_, .i32⟩ : BufTy).Contents (Elt F) → (⟨S65536, .i32⟩ : BufTy).Contents (Elt F)),
    StableHlo.binary main_v14 main_v24 main_v25 (addi : (⟨S65536, .i32⟩ : BufTy).Contents (Elt F) → (⟨S65536, .i32⟩ : BufTy).Contents (Elt F) → (⟨S65536, .i32⟩ : BufTy).Contents (Elt F)),
    StableHlo.ternary main_v23 main_v25 main_v14 main_v26 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.nullary main_c_5 (constantI S_ 32 0#32),
    StableHlo.unary main_c_5 main_v27 (broadcastInDim S65536 ![] bcast_S_S65536 : (⟨S_, .i32⟩ : BufTy).Contents (Elt F) → (⟨S65536, .i32⟩ : BufTy).Contents (Elt F)),
    StableHlo.binary main_v21 main_v27 main_v28 (cmpi .slt : (⟨S65536, .i32⟩ : BufTy).Contents (Elt F) → (⟨S65536, .i32⟩ : BufTy).Contents (Elt F) → (⟨S65536, .i1⟩ : BufTy).Contents (Elt F)),
    StableHlo.nullary main_c_6 (constantI S_ 32 8#32),
    StableHlo.unary main_c_6 main_v29 (broadcastInDim S65536 ![] bcast_S_S65536 : (⟨S_, .i32⟩ : BufTy).Contents (Elt F) → (⟨S65536, .i32⟩ : BufTy).Contents (Elt F)),
    StableHlo.binary main_v21 main_v29 main_v30 (addi : (⟨S65536, .i32⟩ : BufTy).Contents (Elt F) → (⟨S65536, .i32⟩ : BufTy).Contents (Elt F) → (⟨S65536, .i32⟩ : BufTy).Contents (Elt F)),
    StableHlo.ternary main_v28 main_v30 main_v21 main_v31 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v26 main_v32 (broadcastInDim S65536x1 ![0] bcast_S65536_S65536x1_0 : (⟨S65536, .i32⟩ : BufTy).Contents (Elt F) → (⟨S65536x1, .i32⟩ : BufTy).Contents (Elt F)),
    StableHlo.unary main_v31 main_v33 (broadcastInDim S65536x1 ![0] bcast_S65536_S65536x1_0 : (⟨S65536, .i32⟩ : BufTy).Contents (Elt F) → (⟨S65536x1, .i32⟩ : BufTy).Contents (Elt F)),
    StableHlo.binary main_v32 main_v33 main_v34 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    StableHlo.binary main_arg1 main_v34 main_v35 ((fun x i => Host.gather gather_S8192x8_S65536x2_S65536_n_01_n_n_01_1_11 x i) : (⟨S8192x8, .f32⟩ : BufTy).Contents (Elt F) → (⟨S65536x2, .i32⟩ : BufTy).Contents (Elt F) → (⟨S65536, .f32⟩ : BufTy).Contents (Elt F)),
    StableHlo.unary main_v35 main_v36 (broadcastInDim S65536x1 ![0] bcast_S65536_S65536x1_0 : (⟨S65536, .f32⟩ : BufTy).Contents (Elt F) → (⟨S65536x1, .f32⟩ : BufTy).Contents (Elt F)),
    StableHlo.TRef.nullary main_call1.c (constantI S_ 32 0#32),
    StableHlo.TRef.unary main_call1.c main_call1.v0 (broadcastInDim S65536 ![] bcast_S_S65536),
    StableHlo.TRef.binary (.of main_v14 : StableHlo.TRef sig ⟨S65536, .i32⟩) main_call1.v0 main_call1.v1 (cmpi .slt),
    StableHlo.TRef.nullary main_call1.c_0 (constantI S_ 32 8192#32),
    StableHlo.TRef.unary main_call1.c_0 main_call1.v2 (broadcastInDim S65536 ![] bcast_S_S65536),
    StableHlo.TRef.binary (.of main_v14 : StableHlo.TRef sig ⟨S65536, .i32⟩) main_call1.v2 main_call1.v3 addi,
    StableHlo.TRef.ternary main_call1.v1 main_call1.v3 (.of main_v14 : StableHlo.TRef sig ⟨S65536, .i32⟩) main_call1.call0.v0 select,
    StableHlo.TRef.unary main_call1.call0.v0 main_call1.v5 (broadcastInDim S65536x1 ![0] bcast_S65536_S65536x1_0),
    StableHlo.TRef.nullary main_call1.c_1 (constantI S1 32 8191#32),
    StableHlo.TRef.nullary main_call1.c_2 (constantI S_ 32 0#32),
    StableHlo.TRef.unary main_call1.c_2 main_call1.v6 (broadcastInDim S65536x1 ![] bcast_S_S65536x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S65536x1 ![0, 1] bcast_S1x1_S65536x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S65536x1_S65536_d1 h_S_),
    StableHlo.TRef.binary (.of main_arg0 : StableHlo.TRef sig ⟨S8192x768, .f32⟩) main_call1.v5 main_call1.v13 (fun x i => Host.gather gather_S8192x768_S65536x1_S65536x768_1_0_n_n_0_1_1768 x i),
    StableHlo.TRef.unary main_call1.v12 main_call1.v14 (broadcastInDim S65536x768 ![0] bcast_S65536_S65536x768_0),
    StableHlo.TRef.nullary main_call1.cst (constant S_ .f32 0x7FC00000#32),
    StableHlo.TRef.unary main_call1.cst main_call1.v15 (broadcastInDim S65536x768 ![] bcast_S_S65536x768),
    StableHlo.TRef.ternary main_call1.v14 main_call1.v13 main_call1.v15 main_call1.v16 select,
    StableHlo.reshape main_v37 main_v38 rfl shapeCasts_S65536x768_S8x8192x768,
    StableHlo.binary main_arg0 main_arg2 main_v39 ((fun l r => Host.dotGeneral dot_S8192x768_S768x8_S8192x8_1_0_0_1_n_n none l r) : (⟨S8192x768, .f32⟩ : BufTy).Contents (Elt F) → (⟨S768x8, .f32⟩ : BufTy).Contents (Elt F) → (⟨S8192x8, .f32⟩ : BufTy).Contents (Elt F)),
    StableHlo.unary main_arg3 main_v40 (broadcastInDim S1x8 ![1] bcast_S8_S1x8_1 : (⟨S8, .f32⟩ : BufTy).Contents (Elt F) → (⟨S1x8, .f32⟩ : BufTy).Contents (Elt F)),
    StableHlo.unary main_v40 main_v41 (broadcastInDim S8192x8 ![0, 1] bcast_S1x8_S8192x8_0_1 : (⟨S1x8, .f32⟩ : BufTy).Contents (Elt F) → (⟨S8192x8, .f32⟩ : BufTy).Contents (Elt F)),
    StableHlo.binary main_v39 main_v41 main_v42 (addf : (⟨S8192x8, .f32⟩ : BufTy).Contents (Elt F) → (⟨S8192x8, .f32⟩ : BufTy).Contents (Elt F) → (⟨S8192x8, .f32⟩ : BufTy).Contents (Elt F)),
    StableHlo.nullary main_c_7 (constantI S_ 32 0#32),
    StableHlo.unary main_c_7 main_v43 (broadcastInDim S65536 ![] bcast_S_S65536 : (⟨S_, .i32⟩ : BufTy).Contents (Elt F) → (⟨S65536, .i32⟩ : BufTy).Contents (Elt F)),
    StableHlo.binary main_v14 main_v43 main_v44 (cmpi .slt : (⟨S65536, .i32⟩ : BufTy).Contents (Elt F) → (⟨S65536, .i32⟩ : BufTy).Contents (Elt F) → (⟨S65536, .i1⟩ : BufTy).Contents (Elt F)),
    StableHlo.nullary main_c_8 (constantI S_ 32 8192#32),
    StableHlo.unary main_c_8 main_v45 (broadcastInDim S65536 ![] bcast_S_S65536 : (⟨S_, .i32⟩ : BufTy).Contents (Elt F) → (⟨S65536, .i32⟩ : BufTy).Contents (Elt F)),
    StableHlo.binary main_v14 main_v45 main_v46 (addi : (⟨S65536, .i32⟩ : BufTy).Contents (Elt F) → (⟨S65536, .i32⟩ : BufTy).Contents (Elt F) → (⟨S65536, .i32⟩ : BufTy).Contents (Elt F)),
    StableHlo.ternary main_v44 main_v46 main_v14 main_v47 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.nullary main_c_9 (constantI S_ 32 0#32),
    StableHlo.unary main_c_9 main_v48 (broadcastInDim S65536 ![] bcast_S_S65536 : (⟨S_, .i32⟩ : BufTy).Contents (Elt F) → (⟨S65536, .i32⟩ : BufTy).Contents (Elt F)),
    StableHlo.binary main_v21 main_v48 main_v49 (cmpi .slt : (⟨S65536, .i32⟩ : BufTy).Contents (Elt F) → (⟨S65536, .i32⟩ : BufTy).Contents (Elt F) → (⟨S65536, .i1⟩ : BufTy).Contents (Elt F)),
    StableHlo.nullary main_c_10 (constantI S_ 32 8#32),
    StableHlo.unary main_c_10 main_v50 (broadcastInDim S65536 ![] bcast_S_S65536 : (⟨S_, .i32⟩ : BufTy).Contents (Elt F) → (⟨S65536, .i32⟩ : BufTy).Contents (Elt F)),
    StableHlo.binary main_v21 main_v50 main_v51 (addi : (⟨S65536, .i32⟩ : BufTy).Contents (Elt F) → (⟨S65536, .i32⟩ : BufTy).Contents (Elt F) → (⟨S65536, .i32⟩ : BufTy).Contents (Elt F)),
    StableHlo.ternary main_v49 main_v51 main_v21 main_v52 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v47 main_v53 (broadcastInDim S65536x1 ![0] bcast_S65536_S65536x1_0 : (⟨S65536, .i32⟩ : BufTy).Contents (Elt F) → (⟨S65536x1, .i32⟩ : BufTy).Contents (Elt F)),
    StableHlo.unary main_v52 main_v54 (broadcastInDim S65536x1 ![0] bcast_S65536_S65536x1_0 : (⟨S65536, .i32⟩ : BufTy).Contents (Elt F) → (⟨S65536x1, .i32⟩ : BufTy).Contents (Elt F)),
    StableHlo.binary main_v53 main_v54 main_v55 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    StableHlo.binary main_v42 main_v55 main_v56 ((fun x i => Host.gather gather_S8192x8_S65536x2_S65536_n_01_n_n_01_1_11 x i) : (⟨S8192x8, .f32⟩ : BufTy).Contents (Elt F) → (⟨S65536x2, .i32⟩ : BufTy).Contents (Elt F) → (⟨S65536, .f32⟩ : BufTy).Contents (Elt F)),
    StableHlo.unary main_v56 main_v57 (broadcastInDim S65536x1 ![0] bcast_S65536_S65536x1_0 : (⟨S65536, .f32⟩ : BufTy).Contents (Elt F) → (⟨S65536x1, .f32⟩ : BufTy).Contents (Elt F)),
    StableHlo.binary main_v38 main_arg4 main_v58 ((fun l r => Host.dotGeneral dot_S8x8192x768_S8x768x64_S8x8192x64_2_1_1_2_0_0 none l r) : (⟨S8x8192x768, .f32⟩ : BufTy).Contents (Elt F) → (⟨S8x768x64, .f32⟩ : BufTy).Contents (Elt F) → (⟨S8x8192x64, .f32⟩ : BufTy).Contents (Elt F)),
    StableHlo.unary main_arg5 main_v59 (broadcastInDim S8x1x64 ![0, 2] bcast_S8x64_S8x1x64_0_2 : (⟨S8x64, .f32⟩ : BufTy).Contents (Elt F) → (⟨S8x1x64, .f32⟩ : BufTy).Contents (Elt F)),
    StableHlo.unary main_v59 main_v60 (broadcastInDim S8x8192x64 ![0, 1, 2] bcast_S8x1x64_S8x8192x64_0_1_2 : (⟨S8x1x64, .f32⟩ : BufTy).Contents (Elt F) → (⟨S8x8192x64, .f32⟩ : BufTy).Contents (Elt F)),
    StableHlo.binary main_v58 main_v60 main_v61 (addf : (⟨S8x8192x64, .f32⟩ : BufTy).Contents (Elt F) → (⟨S8x8192x64, .f32⟩ : BufTy).Contents (Elt F) → (⟨S8x8192x64, .f32⟩ : BufTy).Contents (Elt F)),
    StableHlo.reshape main_v61 main_v62 rfl shapeCasts_S8x8192x64_S65536x64,
    StableHlo.unary main_v57 main_v63 (broadcastInDim S65536x64 ![0, 1] bcast_S65536x1_S65536x64_0_1 : (⟨S65536x1, .f32⟩ : BufTy).Contents (Elt F) → (⟨S65536x64, .f32⟩ : BufTy).Contents (Elt F)),
    StableHlo.binary main_v62 main_v63 main_v64 (mulf : (⟨S65536x64, .f32⟩ : BufTy).Contents (Elt F) → (⟨S65536x64, .f32⟩ : BufTy).Contents (Elt F) → (⟨S65536x64, .f32⟩ : BufTy).Contents (Elt F)),
    StableHlo.unary main_v36 main_v65 (broadcastInDim S65536x64 ![0, 1] bcast_S65536x1_S65536x64_0_1 : (⟨S65536x1, .f32⟩ : BufTy).Contents (Elt F) → (⟨S65536x64, .f32⟩ : BufTy).Contents (Elt F)),
    StableHlo.binary main_v64 main_v65 main_v66 (mulf : (⟨S65536x64, .f32⟩ : BufTy).Contents (Elt F) → (⟨S65536x64, .f32⟩ : BufTy).Contents (Elt F) → (⟨S65536x64, .f32⟩ : BufTy).Contents (Elt F)),
    StableHlo.nullary main_cst (constant S_ .f32 0x00000000#32),
    StableHlo.unary main_cst main_v67 (broadcastInDim S8192x64 ![] bcast_S_S8192x64 : (⟨S_, .f32⟩ : BufTy).Contents (Elt F) → (⟨S8192x64, .f32⟩ : BufTy).Contents (Elt F)),
    StableHlo.nullary main_c_11 (constantI S_ 32 0#32),
    StableHlo.unary main_c_11 main_v68 (broadcastInDim S65536 ![] bcast_S_S65536 : (⟨S_, .i32⟩ : BufTy).Contents (Elt F) → (⟨S65536, .i32⟩ : BufTy).Contents (Elt F)),
    StableHlo.binary main_v14 main_v68 main_v69 (cmpi .slt : (⟨S65536, .i32⟩ : BufTy).Contents (Elt F) → (⟨S65536, .i32⟩ : BufTy).Contents (Elt F) → (⟨S65536, .i1⟩ : BufTy).Contents (Elt F)),
    StableHlo.nullary main_c_12 (constantI S_ 32 8192#32),
    StableHlo.unary main_c_12 main_v70 (broadcastInDim S65536 ![] bcast_S_S65536 : (⟨S_, .i32⟩ : BufTy).Contents (Elt F) → (⟨S65536, .i32⟩ : BufTy).Contents (Elt F)),
    StableHlo.binary main_v14 main_v70 main_v71 (addi : (⟨S65536, .i32⟩ : BufTy).Contents (Elt F) → (⟨S65536, .i32⟩ : BufTy).Contents (Elt F) → (⟨S65536, .i32⟩ : BufTy).Contents (Elt F)),
    StableHlo.ternary main_v69 main_v71 main_v14 main_v72 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v72 main_v73 (broadcastInDim S65536x1 ![0] bcast_S65536_S65536x1_0 : (⟨S65536, .i32⟩ : BufTy).Contents (Elt F) → (⟨S65536x1, .i32⟩ : BufTy).Contents (Elt F)),
    StableHlo.ternary main_v67 main_v73 main_v66 main_v74 ((fun x i u => Host.scatterAdd scatter_S8192x64_S65536x1_S65536x64_1_0_0_1 x i u) : (⟨S8192x64, .f32⟩ : BufTy).Contents (Elt F) → (⟨S65536x1, .i32⟩ : BufTy).Contents (Elt F) → (⟨S65536x64, .f32⟩ : BufTy).Contents (Elt F) → (⟨S8192x64, .f32⟩ : BufTy).Contents (Elt F)) ]

set_option maxRecDepth 8192 in
set_option maxHeartbeats 8000000 in
/-- The entry function is that straight line: with its two windows and the called functions unfolded and
    sequencing evaluated, both sides are the same chain of steps, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., reshape_bufs_sub .., nullary_bufs_sub .., reshape_bufs_sub .., unary_bufs_sub ..,
    reshape_bufs_sub .., nullary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., reshape_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., unary_bufs_sub .., binary_bufs_sub .., unary_bufs_sub ..,
    unary_bufs_sub .., binary_bufs_sub .., reshape_bufs_sub .., unary_bufs_sub .., binary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..⟩

/-- Every weakly fair execution terminates with each buffer at the operations' fold over the initial contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.MoeRun

end
-- ==== Proof.RefRun.lean ====
/-
  The reference's run.  The straight line of 114 operations is read in eight consecutive stretches; after each
  stretch the buffers later stretches read hold the named stages of the layer (`Stages`), and the argument
  buffers are never written.  Read at the result buffer the whole line is `Stages.out` of the six argument arrays.
-/
import proofs.«181126_g60644938220147_cont_9to1c4b_99_20_alg».proof.Proof.RefStages
import proofs.«181126_g60644938220147_cont_9to1c4b_99_20_alg».proof.Proof.RefLine

set_option synthInstance.maxSize 4096

noncomputable section

namespace Cert.ReferenceIdeal.MoeRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The fold over two stretches run one after the other is the second's fold from the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Joining two one-column matrices side by side respects equality of the columns. -/
theorem pair_congr {α : Type} {a a' b b' : S65536x1.Idx → α} (ha : a = a') (hb : b = b') :
    concatenate S65536x2 1 [⟨S65536x1, a⟩, ⟨S65536x1, b⟩] concatenates_S65536x1_S65536x1_S65536x2_d1
      = concatenate S65536x2 1 [⟨S65536x1, a'⟩, ⟨S65536x1, b'⟩] concatenates_S65536x1_S65536x1_S65536x2_d1 := by
  subst ha; subst hb; rfl

/-! ## The stretches -/

section Stretches

variable {F : FTy → Type} [FloatOps F]

/-- Operations 1 … 19 of the line. -/
abbrev opsA : List (HloOp τ sig (Elt F)) :=
  [
    StableHlo.nullary main_v0 (iotaInDim S8192 32 0),
    StableHlo.unary main_v0 main_v1 (broadcastInDim S8192x8 ![0] bcast_S8192_S8192x8_0 : (⟨S8192, .i32⟩ : BufTy).Contents (Elt F) → (⟨S8192x8, .i32⟩ : BufTy).Contents (Elt F)),
    StableHlo.reshape main_v1 main_v2 rfl shapeCasts_S8192x8_S65536,
    StableHlo.nullary main_v3 (iotaInDim S8 32 0),
    StableHlo.reshape main_v3 main_v4 rfl shapeCasts_S8_S1x8,
    StableHlo.unary main_v4 main_v5 (broadcastInDim S8192x8 ![0, 1] bcast_S1x8_S8192x8_0_1 : (⟨S1x8, .i32⟩ : BufTy).Contents (Elt F) → (⟨S8192x8, .i32⟩ : BufTy).Contents (Elt F)),
    StableHlo.reshape main_v5 main_v6 rfl shapeCasts_S8192x8_S65536,
    StableHlo.TRef.nullary main_call0.v0 (iotaInDim S65536 32 0),
    StableHlo.TRef.binary (.of main_v6 : StableHlo.TRef sig ⟨S65536, .i32⟩) main_call0.v0 main_call0.v1_0 (fun x y => (Host.sort2 S65536 0 comparator_i32_i32_d0 x y).1),
    StableHlo.TRef.binary (.of main_v6 : StableHlo.TRef sig ⟨S65536, .i32⟩) main_call0.v0 main_call0.v1_1 (fun x y => (Host.sort2 S65536 0 comparator_i32_i32_d0 x y).2),
    StableHlo.nullary main_c (constantI S_ 32 0#32),
    StableHlo.unary main_c main_v8 (broadcastInDim S65536 ![] bcast_S_S65536 : (⟨S_, .i32⟩ : BufTy).Contents (Elt F) → (⟨S65536, .i32⟩ : BufTy).Contents (Elt F)),
    StableHlo.binary main_v7 main_v8 main_v9 (cmpi .slt : (⟨S65536, .i32⟩ : BufTy).Contents (Elt F) → (⟨S65536, .i32⟩ : BufTy).Contents (Elt F) → (⟨S65536, .i1⟩ : BufTy).Contents (Elt F)),
    StableHlo.nullary main_c_0 (constantI S_ 32 65536#32),
    StableHlo.unary main_c_0 main_v10 (broadcastInDim S65536 ![] bcast_S_S65536 : (⟨S_, .i32⟩ : BufTy).Contents (Elt F) → (⟨S65536, .i32⟩ : BufTy).Contents (Elt F)),
    StableHlo.binary main_v7 main_v10 main_v11 (addi : (⟨S65536, .i32⟩ : BufTy).Contents (Elt F) → (⟨S65536, .i32⟩ : BufTy).Contents (Elt F) → (⟨S65536, .i32⟩ : BufTy).Contents (Elt F)),
    StableHlo.ternary main_v9 main_v11 main_v7 main_v12 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v12 main_v13 (broadcastInDim S65536x1 ![0] bcast_S65536_S65536x1_0 : (⟨S65536, .i32⟩ : BufTy).Contents (Elt F) → (⟨S65536x1, .i32⟩ : BufTy).Contents (Elt F)),
    StableHlo.binary main_v2 main_v13 main_v14 ((fun x i => Host.gather gather_S65536_S65536x1_S65536_n_0_n_n_0_1_1 x i) : (⟨S65536, .i32⟩ : BufTy).Contents (Elt F) → (⟨S65536x1, .i32⟩ : BufTy).Contents (Elt F) → (⟨S65536, .i32⟩ : BufTy).Contents (Elt F)) ]

/-- Operations 20 … 44 of the line. -/
abbrev opsB1 : List (HloOp τ sig (Elt F)) :=
  [
    StableHlo.nullary main_c_1 (constantI S_ 32 0#32),
    StableHlo.unary main_c_1 main_v15 (broadcastInDim S65536 ![] bcast_S_S65536 : (⟨S_, .i32⟩ : BufTy).Contents (Elt F) → (⟨S65536, .i32⟩ : BufTy).Contents (Elt F)),
    StableHlo.binary main_v7 main_v15 main_v16 (cmpi .slt : (⟨S65536, .i32⟩ : BufTy).Contents (Elt F) → (⟨S65536, .i32⟩ : BufTy).Contents (Elt F) → (⟨S65536, .i1⟩ : BufTy).Contents (Elt F)),
    StableHlo.nullary main_c_2 (constantI S_ 32 65536#32),
    StableHlo.unary main_c_2 main_v17 (broadcastInDim S65536 ![] bcast_S_S65536 : (⟨S_, .i32⟩ : BufTy).Contents (Elt F) → (⟨S65536, .i32⟩ : BufTy).Contents (Elt F)),
    StableHlo.binary main_v7 main_v17 main_v18 (addi : (⟨S65536, .i32⟩ : BufTy).Contents (Elt F) → (⟨S65536, .i32⟩ : BufTy).Contents (Elt F) → (⟨S65536, .i32⟩ : BufTy).Contents (Elt F)),
    StableHlo.ternary main_v16 main_v18 main_v7 main_v19 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v19 main_v20 (broadcastInDim S65536x1 ![0] bcast_S65536_S65536x1_0 : (⟨S65536, .i32⟩ : BufTy).Contents (Elt F) → (⟨S65536x1, .i32⟩ : BufTy).Contents (Elt F)),
    StableHlo.binary main_v6 main_v20 main_v21 ((fun x i => Host.gather gather_S65536_S65536x1_S65536_n_0_n_n_0_1_1 x i) : (⟨S65536, .i32⟩ : BufTy).Contents (Elt F) → (⟨S65536x1, .i32⟩ : BufTy).Contents (Elt F) → (⟨S65536, .i32⟩ : BufTy).Contents (Elt F)),
    StableHlo.nullary main_c_3 (constantI S_ 32 0#32),
    StableHlo.unary main_c_3 main_v22 (broadcastInDim S65536 ![] bcast_S_S65536 : (⟨S_, .i32⟩ : BufTy).Contents (Elt F) → (⟨S65536, .i32⟩ : BufTy).Contents (Elt F)),
    StableHlo.binary main_v14 main_v22 main_v23 (cmpi .slt : (⟨S65536, .i32⟩ : BufTy).Contents (Elt F) → (⟨S65536, .i32⟩ : BufTy).Contents (Elt F) → (⟨S65536, .i1⟩ : BufTy).Contents (Elt F)),
    StableHlo.nullary main_c_4 (constantI S_ 32 8192#32),
    StableHlo.unary main_c_4 main_v24 (broadcastInDim S65536 ![] bcast_S_S65536 : (⟨S_, .i32⟩ : BufTy).Contents (Elt F) → (⟨S65536, .i32⟩ : BufTy).Contents (Elt F)),
    StableHlo.binary main_v14 main_v24 main_v25 (addi : (⟨S65536, .i32⟩ : BufTy).Contents (Elt F) → (⟨S65536, .i32⟩ : BufTy).Contents (Elt F) → (⟨S65536, .i32⟩ : BufTy).Contents (Elt F)),
    StableHlo.ternary main_v23 main_v25 main_v14 main_v26 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.nullary main_c_5 (constantI S_ 32 0#32),
    StableHlo.unary main_c_5 main_v27 (broadcastInDim S65536 ![] bcast_S_S65536 : (⟨S_, .i32⟩ : BufTy).Contents (Elt F) → (⟨S65536, .i32⟩ : BufTy).Contents (Elt F)),
    StableHlo.binary main_v21 main_v27 main_v28 (cmpi .slt : (⟨S65536, .i32⟩ : BufTy).Contents (Elt F) → (⟨S65536, .i32⟩ : BufTy).Contents (Elt F) → (⟨S65536, .i1⟩ : BufTy).Contents (Elt F)),
    StableHlo.nullary main_c_6 (constantI S_ 32 8#32),
    StableHlo.unary main_c_6 main_v29 (broadcastInDim S65536 ![] bcast_S_S65536 : (⟨S_, .i32⟩ : BufTy).Contents (Elt F) → (⟨S65536, .i32⟩ : BufTy).Contents (Elt F)),
    StableHlo.binary main_v21 main_v29 main_v30 (addi : (⟨S65536, .i32⟩ : BufTy).Contents (Elt F) → (⟨S65536, .i32⟩ : BufTy).Contents (Elt F) → (⟨S65536, .i32⟩ : BufTy).Contents (Elt F)),
    StableHlo.ternary main_v28 main_v30 main_v21 main_v31 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v26 main_v32 (broadcastInDim S65536x1 ![0] bcast_S65536_S65536x1_0 : (⟨S65536, .i32⟩ : BufTy).Contents (Elt F) → (⟨S65536x1, .i32⟩ : BufTy).Contents (Elt F)),
    StableHlo.unary main_v31 main_v33 (broadcastInDim S65536x1 ![0] bcast_S65536_S65536x1_0 : (⟨S65536, .i32⟩ : BufTy).Contents (Elt F) → (⟨S65536x1, .i32⟩ : BufTy).Contents (Elt F)) ]

/-- Operations 45 … 47 of the line. -/
abbrev opsB2 : List (HloOp τ sig (Elt F)) :=
  [
    StableHlo.binary main_v32 main_v33 main_v34 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    StableHlo.binary main_arg1 main_v34 main_v35 ((fun x i => Host.gather gather_S8192x8_S65536x2_S65536_n_01_n_n_01_1_11 x i) : (⟨S8192x8, .f32⟩ : BufTy).Contents (Elt F) → (⟨S65536x2, .i32⟩ : BufTy).Contents (Elt F) → (⟨S65536, .f32⟩ : BufTy).Contents (Elt F)),
    StableHlo.unary main_v35 main_v36 (broadcastInDim S65536x1 ![0] bcast_S65536_S65536x1_0 : (⟨S65536, .f32⟩ : BufTy).Contents (Elt F) → (⟨S65536x1, .f32⟩ : BufTy).Contents (Elt F)) ]

/-- Operations 48 … 65 of the line. -/
abbrev opsC1 : List (HloOp τ sig (Elt F)) :=
  [
    StableHlo.TRef.nullary main_call1.c (constantI S_ 32 0#32),
    StableHlo.TRef.unary main_call1.c main_call1.v0 (broadcastInDim S65536 ![] bcast_S_S65536),
    StableHlo.TRef.binary (.of main_v14 : StableHlo.TRef sig ⟨S65536, .i32⟩) main_call1.v0 main_call1.v1 (cmpi .slt),
    StableHlo.TRef.nullary main_call1.c_0 (constantI S_ 32 8192#32),
    StableHlo.TRef.unary main_call1.c_0 main_call1.v2 (broadcastInDim S65536 ![] bcast_S_S65536),
    StableHlo.TRef.binary (.of main_v14 : StableHlo.TRef sig ⟨S65536, .i32⟩) main_call1.v2 main_call1.v3 addi,
    StableHlo.TRef.ternary main_call1.v1 main_call1.v3 (.of main_v14 : StableHlo.TRef sig ⟨S65536, .i32⟩) main_call1.call0.v0 select,
    StableHlo.TRef.unary main_call1.call0.v0 main_call1.v5 (broadcastInDim S65536x1 ![0] bcast_S65536_S65536x1_0),
    StableHlo.TRef.nullary main_call1.c_1 (constantI S1 32 8191#32),
    StableHlo.TRef.nullary main_call1.c_2 (constantI S_ 32 0#32),
    StableHlo.TRef.unary main_call1.c_2 main_call1.v6 (broadcastInDim S65536x1 ![] bcast_S_S65536x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S65536x1 ![0, 1] bcast_S1x1_S65536x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S65536x1_S65536_d1 h_S_) ]

/-- Operations 66 … 71 of the line. -/
abbrev opsC2 : List (HloOp τ sig (Elt F)) :=
  [
    StableHlo.TRef.binary (.of main_arg0 : StableHlo.TRef sig ⟨S8192x768, .f32⟩) main_call1.v5 main_call1.v13 (fun x i => Host.gather gather_S8192x768_S65536x1_S65536x768_1_0_n_n_0_1_1768 x i),
    StableHlo.TRef.unary main_call1.v12 main_call1.v14 (broadcastInDim S65536x768 ![0] bcast_S65536_S65536x768_0),
    StableHlo.TRef.nullary main_call1.cst (constant S_ .f32 0x7FC00000#32),
    StableHlo.TRef.unary main_call1.cst main_call1.v15 (broadcastInDim S65536x768 ![] bcast_S_S65536x768),
    StableHlo.TRef.ternary main_call1.v14 main_call1.v13 main_call1.v15 main_call1.v16 select,
    StableHlo.reshape main_v37 main_v38 rfl shapeCasts_S65536x768_S8x8192x768 ]

/-- Operations 72 … 91 of the line. -/
abbrev opsD1 : List (HloOp τ sig (Elt F)) :=
  [
    StableHlo.binary main_arg0 main_arg2 main_v39 ((fun l r => Host.dotGeneral dot_S8192x768_S768x8_S8192x8_1_0_0_1_n_n none l r) : (⟨S8192x768, .f32⟩ : BufTy).Contents (Elt F) → (⟨S768x8, .f32⟩ : BufTy).Contents (Elt F) → (⟨S8192x8, .f32⟩ : BufTy).Contents (Elt F)),
    StableHlo.unary main_arg3 main_v40 (broadcastInDim S1x8 ![1] bcast_S8_S1x8_1 : (⟨S8, .f32⟩ : BufTy).Contents (Elt F) → (⟨S1x8, .f32⟩ : BufTy).Contents (Elt F)),
    StableHlo.unary main_v40 main_v41 (broadcastInDim S8192x8 ![0, 1] bcast_S1x8_S8192x8_0_1 : (⟨S1x8, .f32⟩ : BufTy).Contents (Elt F) → (⟨S8192x8, .f32⟩ : BufTy).Contents (Elt F)),
    StableHlo.binary main_v39 main_v41 main_v42 (addf : (⟨S8192x8, .f32⟩ : BufTy).Contents (Elt F) → (⟨S8192x8, .f32⟩ : BufTy).Contents (Elt F) → (⟨S8192x8, .f32⟩ : BufTy).Contents (Elt F)),
    StableHlo.nullary main_c_7 (constantI S_ 32 0#32),
    StableHlo.unary main_c_7 main_v43 (broadcastInDim S65536 ![] bcast_S_S65536 : (⟨S_, .i32⟩ : BufTy).Contents (Elt F) → (⟨S65536, .i32⟩ : BufTy).Contents (Elt F)),
    StableHlo.binary main_v14 main_v43 main_v44 (cmpi .slt : (⟨S65536, .i32⟩ : BufTy).Contents (Elt F) → (⟨S65536, .i32⟩ : BufTy).Contents (Elt F) → (⟨S65536, .i1⟩ : BufTy).Contents (Elt F)),
    StableHlo.nullary main_c_8 (constantI S_ 32 8192#32),
    StableHlo.unary main_c_8 main_v45 (broadcastInDim S65536 ![] bcast_S_S65536 : (⟨S_, .i32⟩ : BufTy).Contents (Elt F) → (⟨S65536, .i32⟩ : BufTy).Contents (Elt F)),
    StableHlo.binary main_v14 main_v45 main_v46 (addi : (⟨S65536, .i32⟩ : BufTy).Contents (Elt F) → (⟨S65536, .i32⟩ : BufTy).Contents (Elt F) → (⟨S65536, .i32⟩ : BufTy).Contents (Elt F)),
    StableHlo.ternary main_v44 main_v46 main_v14 main_v47 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.nullary main_c_9 (constantI S_ 32 0#32),
    StableHlo.unary main_c_9 main_v48 (broadcastInDim S65536 ![] bcast_S_S65536 : (⟨S_, .i32⟩ : BufTy).Contents (Elt F) → (⟨S65536, .i32⟩ : BufTy).Contents (Elt F)),
    StableHlo.binary main_v21 main_v48 main_v49 (cmpi .slt : (⟨S65536, .i32⟩ : BufTy).Contents (Elt F) → (⟨S65536, .i32⟩ : BufTy).Contents (Elt F) → (⟨S65536, .i1⟩ : BufTy).Contents (Elt F)),
    StableHlo.nullary main_c_10 (constantI S_ 32 8#32),
    StableHlo.unary main_c_10 main_v50 (broadcastInDim S65536 ![] bcast_S_S65536 : (⟨S_, .i32⟩ : BufTy).Contents (Elt F) → (⟨S65536, .i32⟩ : BufTy).Contents (Elt F)),
    StableHlo.binary main_v21 main_v50 main_v51 (addi : (⟨S65536, .i32⟩ : BufTy).Contents (Elt F) → (⟨S65536, .i32⟩ : BufTy).Contents (Elt F) → (⟨S65536, .i32⟩ : BufTy).Contents (Elt F)),
    StableHlo.ternary main_v49 main_v51 main_v21 main_v52 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v47 main_v53 (broadcastInDim S65536x1 ![0] bcast_S65536_S65536x1_0 : (⟨S65536, .i32⟩ : BufTy).Contents (Elt F) → (⟨S65536x1, .i32⟩ : BufTy).Contents (Elt F)),
    StableHlo.unary main_v52 main_v54 (broadcastInDim S65536x1 ![0] bcast_S65536_S65536x1_0 : (⟨S65536, .i32⟩ : BufTy).Contents (Elt F) → (⟨S65536x1, .i32⟩ : BufTy).Contents (Elt F)) ]

/-- Operations 92 … 94 of the line. -/
abbrev opsD2 : List (HloOp τ sig (Elt F)) :=
  [
    StableHlo.binary main_v53 main_v54 main_v55 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    StableHlo.binary main_v42 main_v55 main_v56 ((fun x i => Host.gather gather_S8192x8_S65536x2_S65536_n_01_n_n_01_1_11 x i) : (⟨S8192x8, .f32⟩ : BufTy).Contents (Elt F) → (⟨S65536x2, .i32⟩ : BufTy).Contents (Elt F) → (⟨S65536, .f32⟩ : BufTy).Contents (Elt F)),
    StableHlo.unary main_v56 main_v57 (broadcastInDim S65536x1 ![0] bcast_S65536_S65536x1_0 : (⟨S65536, .f32⟩ : BufTy).Contents (Elt F) → (⟨S65536x1, .f32⟩ : BufTy).Contents (Elt F)) ]

/-- Operations 95 … 114 of the line. -/
abbrev opsE : List (HloOp τ sig (Elt F)) :=
  [
    StableHlo.binary main_v38 main_arg4 main_v58 ((fun l r => Host.dotGeneral dot_S8x8192x768_S8x768x64_S8x8192x64_2_1_1_2_0_0 none l r) : (⟨S8x8192x768, .f32⟩ : BufTy).Contents (Elt F) → (⟨S8x768x64, .f32⟩ : BufTy).Contents (Elt F) → (⟨S8x8192x64, .f32⟩ : BufTy).Contents (Elt F)),
    StableHlo.unary main_arg5 main_v59 (broadcastInDim S8x1x64 ![0, 2] bcast_S8x64_S8x1x64_0_2 : (⟨S8x64, .f32⟩ : BufTy).Contents (Elt F) → (⟨S8x1x64, .f32⟩ : BufTy).Contents (Elt F)),
    StableHlo.unary main_v59 main_v60 (broadcastInDim S8x8192x64 ![0, 1, 2] bcast_S8x1x64_S8x8192x64_0_1_2 : (⟨S8x1x64, .f32⟩ : BufTy).Contents (Elt F) → (⟨S8x8192x64, .f32⟩ : BufTy).Contents (Elt F)),
    StableHlo.binary main_v58 main_v60 main_v61 (addf : (⟨S8x8192x64, .f32⟩ : BufTy).Contents (Elt F) → (⟨S8x8192x64, .f32⟩ : BufTy).Contents (Elt F) → (⟨S8x8192x64, .f32⟩ : BufTy).Contents (Elt F)),
    StableHlo.reshape main_v61 main_v62 rfl shapeCasts_S8x8192x64_S65536x64,
    StableHlo.unary main_v57 main_v63 (broadcastInDim S65536x64 ![0, 1] bcast_S65536x1_S65536x64_0_1 : (⟨S65536x1, .f32⟩ : BufTy).Contents (Elt F) → (⟨S65536x64, .f32⟩ : BufTy).Contents (Elt F)),
    StableHlo.binary main_v62 main_v63 main_v64 (mulf : (⟨S65536x64, .f32⟩ : BufTy).Contents (Elt F) → (⟨S65536x64, .f32⟩ : BufTy).Contents (Elt F) → (⟨S65536x64, .f32⟩ : BufTy).Contents (Elt F)),
    StableHlo.unary main_v36 main_v65 (broadcastInDim S65536x64 ![0, 1] bcast_S65536x1_S65536x64_0_1 : (⟨S65536x1, .f32⟩ : BufTy).Contents (Elt F) → (⟨S65536x64, .f32⟩ : BufTy).Contents (Elt F)),
    StableHlo.binary main_v64 main_v65 main_v66 (mulf : (⟨S65536x64, .f32⟩ : BufTy).Contents (Elt F) → (⟨S65536x64, .f32⟩ : BufTy).Contents (Elt F) → (⟨S65536x64, .f32⟩ : BufTy).Contents (Elt F)),
    StableHlo.nullary main_cst (constant S_ .f32 0x00000000#32),
    StableHlo.unary main_cst main_v67 (broadcastInDim S8192x64 ![] bcast_S_S8192x64 : (⟨S_, .f32⟩ : BufTy).Contents (Elt F) → (⟨S8192x64, .f32⟩ : BufTy).Contents (Elt F)),
    StableHlo.nullary main_c_11 (constantI S_ 32 0#32),
    StableHlo.unary main_c_11 main_v68 (broadcastInDim S65536 ![] bcast_S_S65536 : (⟨S_, .i32⟩ : BufTy).Contents (Elt F) → (⟨S65536, .i32⟩ : BufTy).Contents (Elt F)),
    StableHlo.binary main_v14 main_v68 main_v69 (cmpi .slt : (⟨S65536, .i32⟩ : BufTy).Contents (Elt F) → (⟨S65536, .i32⟩ : BufTy).Contents (Elt F) → (⟨S65536, .i1⟩ : BufTy).Contents (Elt F)),
    StableHlo.nullary main_c_12 (constantI S_ 32 8192#32),
    StableHlo.unary main_c_12 main_v70 (broadcastInDim S65536 ![] bcast_S_S65536 : (⟨S_, .i32⟩ : BufTy).Contents (Elt F) → (⟨S65536, .i32⟩ : BufTy).Contents (Elt F)),
    StableHlo.binary main_v14 main_v70 main_v71 (addi : (⟨S65536, .i32⟩ : BufTy).Contents (Elt F) → (⟨S65536, .i32⟩ : BufTy).Contents (Elt F) → (⟨S65536, .i32⟩ : BufTy).Contents (Elt F)),
    StableHlo.ternary main_v69 main_v71 main_v14 main_v72 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v72 main_v73 (broadcastInDim S65536x1 ![0] bcast_S65536_S65536x1_0 : (⟨S65536, .i32⟩ : BufTy).Contents (Elt F) → (⟨S65536x1, .i32⟩ : BufTy).Contents (Elt F)),
    StableHlo.ternary main_v67 main_v73 main_v66 main_v74 ((fun x i u => Host.scatterAdd scatter_S8192x64_S65536x1_S65536x64_1_0_0_1 x i u) : (⟨S8192x64, .f32⟩ : BufTy).Contents (Elt F) → (⟨S65536x1, .i32⟩ : BufTy).Contents (Elt F) → (⟨S65536x64, .f32⟩ : BufTy).Contents (Elt F) → (⟨S8192x64, .f32⟩ : BufTy).Contents (Elt F)) ]

set_option maxRecDepth 8192 in
theorem ops_split : (ops : List (HloOp τ sig (Elt F))) = opsA ++ (opsB1 ++ (opsB2 ++ (opsC1 ++ (opsC2 ++ (opsD1 ++ (opsD2 ++ (opsE))))))) := rfl

end Stretches

/-! ## The pairs, their sorted order, the token of each visited pair -/

attribute [local irreducible] Host.sort2 Host.gather Host.scatterAdd Host.reduce concatenate in
set_option maxRecDepth 8192 in
set_option maxHeartbeats 4000000 in
theorem A_v6 (W : Valuation τ sig (Elt Ideal))
    : after opsA W (main_v6 : DevRef τ sig) = Stages.pairCols := by
  after_results_simp
  rfl

attribute [local irreducible] Host.sort2 Host.gather Host.scatterAdd Host.reduce concatenate in
set_option maxRecDepth 8192 in
set_option maxHeartbeats 4000000 in
theorem A_v7 (W : Valuation τ sig (Elt Ideal))
    : after opsA W (main_v7 : DevRef τ sig) = Stages.order := by
  after_results_simp
  rfl

attribute [local irreducible] Host.sort2 Host.gather Host.scatterAdd Host.reduce concatenate in
set_option maxRecDepth 8192 in
set_option maxHeartbeats 4000000 in
theorem A_v14 (W : Valuation τ sig (Elt Ideal))
    : after opsA W (main_v14 : DevRef τ sig) = Stages.batchIdx := by
  after_results_simp
  rfl

theorem A_keep_arg0 (W : Valuation τ sig (Elt Ideal)) : after opsA W (main_arg0 : DevRef τ sig) = W (main_arg0 : DevRef τ sig) := by
  after_results_simp

theorem A_keep_arg1 (W : Valuation τ sig (Elt Ideal)) : after opsA W (main_arg1 : DevRef τ sig) = W (main_arg1 : DevRef τ sig) := by
  after_results_simp

theorem A_keep_arg2 (W : Valuation τ sig (Elt Ideal)) : after opsA W (main_arg2 : DevRef τ sig) = W (main_arg2 : DevRef τ sig) := by
  after_results_simp

theorem A_keep_arg3 (W : Valuation τ sig (Elt Ideal)) : after opsA W (main_arg3 : DevRef τ sig) = W (main_arg3 : DevRef τ sig) := by
  after_results_simp

theorem A_keep_arg4 (W : Valuation τ sig (Elt Ideal)) : after opsA W (main_arg4 : DevRef τ sig) = W (main_arg4 : DevRef τ sig) := by
  after_results_simp

theorem A_keep_arg5 (W : Valuation τ sig (Elt Ideal)) : after opsA W (main_arg5 : DevRef τ sig) = W (main_arg5 : DevRef τ sig) := by
  after_results_simp

/-! ## The expert of each visited pair, and the two index columns -/

attribute [local irreducible] Host.sort2 Host.gather Host.scatterAdd Host.reduce concatenate in
set_option maxRecDepth 8192 in
set_option maxHeartbeats 4000000 in
theorem B1_v21 (W : Valuation τ sig (Elt Ideal))
    (h_v6 : W (main_v6 : DevRef τ sig) = Stages.pairCols)
    (h_v7 : W (main_v7 : DevRef τ sig) = Stages.order) :
    after opsB1 W (main_v21 : DevRef τ sig) = Stages.expertIdx := by
  after_results_simp
  rw [h_v6, h_v7]
  rfl

attribute [local irreducible] Host.sort2 Host.gather Host.scatterAdd Host.reduce concatenate in
set_option maxRecDepth 8192 in
set_option maxHeartbeats 4000000 in
theorem B1_v32 (W : Valuation τ sig (Elt Ideal))
    (h_v14 : W (main_v14 : DevRef τ sig) = Stages.batchIdx) :
    after opsB1 W (main_v32 : DevRef τ sig) = Stages.col (Stages.wrap 8192#32 Stages.batchIdx) := by
  after_results_simp
  rw [h_v14]
  rfl

attribute [local irreducible] Host.sort2 Host.gather Host.scatterAdd Host.reduce concatenate in
set_option maxRecDepth 8192 in
set_option maxHeartbeats 4000000 in
theorem B1_v33 (W : Valuation τ sig (Elt Ideal))
    (h_v6 : W (main_v6 : DevRef τ sig) = Stages.pairCols)
    (h_v7 : W (main_v7 : DevRef τ sig) = Stages.order) :
    after opsB1 W (main_v33 : DevRef τ sig) = Stages.col (Stages.wrap 8#32 Stages.expertIdx) := by
  after_results_simp
  rw [h_v6, h_v7]
  rfl

theorem B1_keep_v14 (W : Valuation τ sig (Elt Ideal)) : after opsB1 W (main_v14 : DevRef τ sig) = W (main_v14 : DevRef τ sig) := by
  after_results_simp

theorem B1_keep_arg0 (W : Valuation τ sig (Elt Ideal)) : after opsB1 W (main_arg0 : DevRef τ sig) = W (main_arg0 : DevRef τ sig) := by
  after_results_simp

theorem B1_keep_arg1 (W : Valuation τ sig (Elt Ideal)) : after opsB1 W (main_arg1 : DevRef τ sig) = W (main_arg1 : DevRef τ sig) := by
  after_results_simp

theorem B1_keep_arg2 (W : Valuation τ sig (Elt Ideal)) : after opsB1 W (main_arg2 : DevRef τ sig) = W (main_arg2 : DevRef τ sig) := by
  after_results_simp

theorem B1_keep_arg3 (W : Valuation τ sig (Elt Ideal)) : after opsB1 W (main_arg3 : DevRef τ sig) = W (main_arg3 : DevRef τ sig) := by
  after_results_simp

theorem B1_keep_arg4 (W : Valuation τ sig (Elt Ideal)) : after opsB1 W (main_arg4 : DevRef τ sig) = W (main_arg4 : DevRef τ sig) := by
  after_results_simp

theorem B1_keep_arg5 (W : Valuation τ sig (Elt Ideal)) : after opsB1 W (main_arg5 : DevRef τ sig) = W (main_arg5 : DevRef τ sig) := by
  after_results_simp

/-! ## The index pairs, and the given gate at each visited pair -/

attribute [local irreducible] Host.sort2 Host.gather Host.scatterAdd Host.reduce concatenate in
set_option maxRecDepth 8192 in
set_option maxHeartbeats 4000000 in
theorem B2_v36 (W : Valuation τ sig (Elt Ideal)) {g : Stages.T S8192x8 .f32}
    (h_v32 : W (main_v32 : DevRef τ sig) = Stages.col (Stages.wrap 8192#32 Stages.batchIdx))
    (h_v33 : W (main_v33 : DevRef τ sig) = Stages.col (Stages.wrap 8#32 Stages.expertIdx))
    (h_arg1 : W (main_arg1 : DevRef τ sig) = g) :
    after opsB2 W (main_v36 : DevRef τ sig) = Stages.col (Stages.gatesAt g) := by
  after_results_simp
  rw [pair_congr h_v32 h_v33, h_arg1]
  rfl

theorem B2_keep_v14 (W : Valuation τ sig (Elt Ideal)) : after opsB2 W (main_v14 : DevRef τ sig) = W (main_v14 : DevRef τ sig) := by
  after_results_simp

theorem B2_keep_v21 (W : Valuation τ sig (Elt Ideal)) : after opsB2 W (main_v21 : DevRef τ sig) = W (main_v21 : DevRef τ sig) := by
  after_results_simp

theorem B2_keep_arg0 (W : Valuation τ sig (Elt Ideal)) : after opsB2 W (main_arg0 : DevRef τ sig) = W (main_arg0 : DevRef τ sig) := by
  after_results_simp

theorem B2_keep_arg2 (W : Valuation τ sig (Elt Ideal)) : after opsB2 W (main_arg2 : DevRef τ sig) = W (main_arg2 : DevRef τ sig) := by
  after_results_simp

theorem B2_keep_arg3 (W : Valuation τ sig (Elt Ideal)) : after opsB2 W (main_arg3 : DevRef τ sig) = W (main_arg3 : DevRef τ sig) := by
  after_results_simp

theorem B2_keep_arg4 (W : Valuation τ sig (Elt Ideal)) : after opsB2 W (main_arg4 : DevRef τ sig) = W (main_arg4 : DevRef τ sig) := by
  after_results_simp

theorem B2_keep_arg5 (W : Valuation τ sig (Elt Ideal)) : after opsB2 W (main_arg5 : DevRef τ sig) = W (main_arg5 : DevRef τ sig) := by
  after_results_simp

/-! ## The row gather's start indices and its in-range mask -/

/-- The in-range mask as a function of the column of start indices: every entry at least 0 and at most 8191. -/
def maskOf (I : Stages.T S65536x1 .i32) : Stages.T S65536 .i1 :=
  Host.reduce IntOp.andi
    ((andi
      ((cmpi .sge I
        (broadcastInDim S65536x1 ![] bcast_S_S65536x1 (constantI S_ 32 0#32 : Stages.T S_ .i32) : Stages.T S65536x1 .i32)) : Stages.T S65536x1 .i1)
      ((cmpi .sle I
        (broadcastInDim S65536x1 ![0, 1] bcast_S1x1_S65536x1_0_1
          (broadcastInDim S1x1 ![1] bcast_S1_S1x1_1 (constantI S1 32 8191#32 : Stages.T S1 .i32) : Stages.T S1x1 .i32) : Stages.T S65536x1 .i32)) : Stages.T S65536x1 .i1))
      : Stages.T S65536x1 .i1)
    (constantI S_ 1 1#1 : Stages.T S_ .i1) reducesTo_S65536x1_S65536_d1 h_S_

attribute [local irreducible] Host.sort2 Host.gather Host.reduce in
theorem takeMask_eq : Stages.takeMask = maskOf (Stages.col (Stages.wrap 8192#32 Stages.batchIdx)) := rfl

attribute [local irreducible] Host.sort2 Host.gather Host.scatterAdd Host.reduce concatenate in
set_option maxRecDepth 8192 in
set_option maxHeartbeats 4000000 in
theorem C1_call1_v5_open (W : Valuation τ sig (Elt Ideal)) :
    after opsC1 W (main_call1_v5 : DevRef τ sig) = Stages.col (Stages.wrap 8192#32 (W (main_v14 : DevRef τ sig))) := by
  after_results_simp
  rfl

theorem C1_call1_v5 (W : Valuation τ sig (Elt Ideal))
    (h_v14 : W (main_v14 : DevRef τ sig) = Stages.batchIdx) :
    after opsC1 W (main_call1_v5 : DevRef τ sig) = Stages.col (Stages.wrap 8192#32 Stages.batchIdx) := by
  rw [C1_call1_v5_open, h_v14]

attribute [local irreducible] Host.sort2 Host.gather Host.scatterAdd Host.reduce concatenate in
set_option maxRecDepth 8192 in
set_option maxHeartbeats 4000000 in
theorem C1_call1_v12_open (W : Valuation τ sig (Elt Ideal)) :
    after opsC1 W (main_call1_v12 : DevRef τ sig) = maskOf (Stages.col (Stages.wrap 8192#32 (W (main_v14 : DevRef τ sig)))) := by
  after_results_simp
  rfl

theorem C1_call1_v12 (W : Valuation τ sig (Elt Ideal))
    (h_v14 : W (main_v14 : DevRef τ sig) = Stages.batchIdx) :
    after opsC1 W (main_call1_v12 : DevRef τ sig) = Stages.takeMask := by
  rw [C1_call1_v12_open, h_v14, takeMask_eq]

theorem C1_keep_v14 (W : Valuation τ sig (Elt Ideal)) : after opsC1 W (main_v14 : DevRef τ sig) = W (main_v14 : DevRef τ sig) := by
  after_results_simp

theorem C1_keep_v21 (W : Valuation τ sig (Elt Ideal)) : after opsC1 W (main_v21 : DevRef τ sig) = W (main_v21 : DevRef τ sig) := by
  after_results_simp

theorem C1_keep_v36 (W : Valuation τ sig (Elt Ideal)) : after opsC1 W (main_v36 : DevRef τ sig) = W (main_v36 : DevRef τ sig) := by
  after_results_simp

theorem C1_keep_arg0 (W : Valuation τ sig (Elt Ideal)) : after opsC1 W (main_arg0 : DevRef τ sig) = W (main_arg0 : DevRef τ sig) := by
  after_results_simp

theorem C1_keep_arg2 (W : Valuation τ sig (Elt Ideal)) : after opsC1 W (main_arg2 : DevRef τ sig) = W (main_arg2 : DevRef τ sig) := by
  after_results_simp

theorem C1_keep_arg3 (W : Valuation τ sig (Elt Ideal)) : after opsC1 W (main_arg3 : DevRef τ sig) = W (main_arg3 : DevRef τ sig) := by
  after_results_simp

theorem C1_keep_arg4 (W : Valuation τ sig (Elt Ideal)) : after opsC1 W (main_arg4 : DevRef τ sig) = W (main_arg4 : DevRef τ sig) := by
  after_results_simp

theorem C1_keep_arg5 (W : Valuation τ sig (Elt Ideal)) : after opsC1 W (main_arg5 : DevRef τ sig) = W (main_arg5 : DevRef τ sig) := by
  after_results_simp

/-! ## The rows of the first argument in visiting order, cut into the experts' chunks -/

attribute [local irreducible] Host.sort2 Host.gather Host.scatterAdd Host.reduce concatenate in
set_option maxRecDepth 8192 in
set_option maxHeartbeats 4000000 in
theorem C2_v38 (W : Valuation τ sig (Elt Ideal)) {x : Stages.T S8192x768 .f32}
    (h_call1_v5 : W (main_call1_v5 : DevRef τ sig) = Stages.col (Stages.wrap 8192#32 Stages.batchIdx))
    (h_call1_v12 : W (main_call1_v12 : DevRef τ sig) = Stages.takeMask)
    (h_arg0 : W (main_arg0 : DevRef τ sig) = x) :
    after opsC2 W (main_v38 : DevRef τ sig) = Stages.chunks x := by
  after_results_simp
  rw [h_call1_v5, h_call1_v12, h_arg0]
  rfl

theorem C2_keep_v14 (W : Valuation τ sig (Elt Ideal)) : after opsC2 W (main_v14 : DevRef τ sig) = W (main_v14 : DevRef τ sig) := by
  after_results_simp

theorem C2_keep_v21 (W : Valuation τ sig (Elt Ideal)) : after opsC2 W (main_v21 : DevRef τ sig) = W (main_v21 : DevRef τ sig) := by
  after_results_simp

theorem C2_keep_v36 (W : Valuation τ sig (Elt Ideal)) : after opsC2 W (main_v36 : DevRef τ sig) = W (main_v36 : DevRef τ sig) := by
  after_results_simp

theorem C2_keep_arg0 (W : Valuation τ sig (Elt Ideal)) : after opsC2 W (main_arg0 : DevRef τ sig) = W (main_arg0 : DevRef τ sig) := by
  after_results_simp

theorem C2_keep_arg2 (W : Valuation τ sig (Elt Ideal)) : after opsC2 W (main_arg2 : DevRef τ sig) = W (main_arg2 : DevRef τ sig) := by
  after_results_simp

theorem C2_keep_arg3 (W : Valuation τ sig (Elt Ideal)) : after opsC2 W (main_arg3 : DevRef τ sig) = W (main_arg3 : DevRef τ sig) := by
  after_results_simp

theorem C2_keep_arg4 (W : Valuation τ sig (Elt Ideal)) : after opsC2 W (main_arg4 : DevRef τ sig) = W (main_arg4 : DevRef τ sig) := by
  after_results_simp

theorem C2_keep_arg5 (W : Valuation τ sig (Elt Ideal)) : after opsC2 W (main_arg5 : DevRef τ sig) = W (main_arg5 : DevRef τ sig) := by
  after_results_simp

/-! ## The learned gate, and the two index columns again -/

attribute [local irreducible] Host.sort2 Host.gather Host.scatterAdd Host.reduce concatenate in
set_option maxRecDepth 8192 in
set_option maxHeartbeats 4000000 in
theorem D1_v42 (W : Valuation τ sig (Elt Ideal)) {x : Stages.T S8192x768 .f32} {wg : Stages.T S768x8 .f32} {bg : Stages.T S8 .f32}
    (h_arg0 : W (main_arg0 : DevRef τ sig) = x)
    (h_arg2 : W (main_arg2 : DevRef τ sig) = wg)
    (h_arg3 : W (main_arg3 : DevRef τ sig) = bg) :
    after opsD1 W (main_v42 : DevRef τ sig) = Stages.logits x wg bg := by
  after_results_simp
  rw [h_arg0, h_arg2, h_arg3]
  rfl

attribute [local irreducible] Host.sort2 Host.gather Host.scatterAdd Host.reduce concatenate in
set_option maxRecDepth 8192 in
set_option maxHeartbeats 4000000 in
theorem D1_v53 (W : Valuation τ sig (Elt Ideal))
    (h_v14 : W (main_v14 : DevRef τ sig) = Stages.batchIdx) :
    after opsD1 W (main_v53 : DevRef τ sig) = Stages.col (Stages.wrap 8192#32 Stages.batchIdx) := by
  after_results_simp
  rw [h_v14]
  rfl

attribute [local irreducible] Host.sort2 Host.gather Host.scatterAdd Host.reduce concatenate in
set_option maxRecDepth 8192 in
set_option maxHeartbeats 4000000 in
theorem D1_v54 (W : Valuation τ sig (Elt Ideal))
    (h_v21 : W (main_v21 : DevRef τ sig) = Stages.expertIdx) :
    after opsD1 W (main_v54 : DevRef τ sig) = Stages.col (Stages.wrap 8#32 Stages.expertIdx) := by
  after_results_simp
  rw [h_v21]
  rfl

theorem D1_keep_v14 (W : Valuation τ sig (Elt Ideal)) : after opsD1 W (main_v14 : DevRef τ sig) = W (main_v14 : DevRef τ sig) := by
  after_results_simp

theorem D1_keep_v36 (W : Valuation τ sig (Elt Ideal)) : after opsD1 W (main_v36 : DevRef τ sig) = W (main_v36 : DevRef τ sig) := by
  after_results_simp

theorem D1_keep_v38 (W : Valuation τ sig (Elt Ideal)) : after opsD1 W (main_v38 : DevRef τ sig) = W (main_v38 : DevRef τ sig) := by
  after_results_simp

theorem D1_keep_arg4 (W : Valuation τ sig (Elt Ideal)) : after opsD1 W (main_arg4 : DevRef τ sig) = W (main_arg4 : DevRef τ sig) := by
  after_results_simp

theorem D1_keep_arg5 (W : Valuation τ sig (Elt Ideal)) : after opsD1 W (main_arg5 : DevRef τ sig) = W (main_arg5 : DevRef τ sig) := by
  after_results_simp

/-! ## The learned gate at each visited pair -/

attribute [local irreducible] Host.sort2 Host.gather Host.scatterAdd Host.reduce concatenate in
set_option maxRecDepth 8192 in
set_option maxHeartbeats 4000000 in
theorem D2_v57 (W : Valuation τ sig (Elt Ideal)) {x : Stages.T S8192x768 .f32} {wg : Stages.T S768x8 .f32} {bg : Stages.T S8 .f32}
    (h_v42 : W (main_v42 : DevRef τ sig) = Stages.logits x wg bg)
    (h_v53 : W (main_v53 : DevRef τ sig) = Stages.col (Stages.wrap 8192#32 Stages.batchIdx))
    (h_v54 : W (main_v54 : DevRef τ sig) = Stages.col (Stages.wrap 8#32 Stages.expertIdx)) :
    after opsD2 W (main_v57 : DevRef τ sig) = Stages.col (Stages.gateAt x wg bg) := by
  after_results_simp
  rw [pair_congr h_v53 h_v54, h_v42]
  rfl

theorem D2_keep_v14 (W : Valuation τ sig (Elt Ideal)) : after opsD2 W (main_v14 : DevRef τ sig) = W (main_v14 : DevRef τ sig) := by
  after_results_simp

theorem D2_keep_v36 (W : Valuation τ sig (Elt Ideal)) : after opsD2 W (main_v36 : DevRef τ sig) = W (main_v36 : DevRef τ sig) := by
  after_results_simp

theorem D2_keep_v38 (W : Valuation τ sig (Elt Ideal)) : after opsD2 W (main_v38 : DevRef τ sig) = W (main_v38 : DevRef τ sig) := by
  after_results_simp

theorem D2_keep_arg4 (W : Valuation τ sig (Elt Ideal)) : after opsD2 W (main_arg4 : DevRef τ sig) = W (main_arg4 : DevRef τ sig) := by
  after_results_simp

theorem D2_keep_arg5 (W : Valuation τ sig (Elt Ideal)) : after opsD2 W (main_arg5 : DevRef τ sig) = W (main_arg5 : DevRef τ sig) := by
  after_results_simp

/-! ## The experts' outputs, scaled by both gates and added into the tokens' rows -/

attribute [local irreducible] Host.sort2 Host.gather Host.scatterAdd Host.reduce concatenate in
set_option maxRecDepth 8192 in
set_option maxHeartbeats 4000000 in
theorem E_v74 (W : Valuation τ sig (Elt Ideal)) {x : Stages.T S8192x768 .f32} {g : Stages.T S8192x8 .f32} {wg : Stages.T S768x8 .f32} {bg : Stages.T S8 .f32} {we : Stages.T S8x768x64 .f32} {be : Stages.T S8x64 .f32}
    (h_v14 : W (main_v14 : DevRef τ sig) = Stages.batchIdx)
    (h_v36 : W (main_v36 : DevRef τ sig) = Stages.col (Stages.gatesAt g))
    (h_v38 : W (main_v38 : DevRef τ sig) = Stages.chunks x)
    (h_v57 : W (main_v57 : DevRef τ sig) = Stages.col (Stages.gateAt x wg bg))
    (h_arg4 : W (main_arg4 : DevRef τ sig) = we)
    (h_arg5 : W (main_arg5 : DevRef τ sig) = be) :
    after opsE W (main_v74 : DevRef τ sig) = Stages.out x g wg bg we be := by
  after_results_simp
  rw [h_v14, h_v36, h_v38, h_v57, h_arg4, h_arg5]
  rfl

/-! ## The whole line -/

/-- The fold read at the result buffer is `Stages.out` of the argument buffers' contents. -/
theorem out_eq (V : Valuation τ sig (Elt Ideal)) :
    after ops V (main_v74 : DevRef τ sig)
      = Stages.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split, after_append, after_append, after_append, after_append, after_append, after_append, after_append]
  have f0_v6 := A_v6 V
  have f0_v7 := A_v7 V
  have f0_v14 := A_v14 V
  have f0_arg0 := A_keep_arg0 V
  have f0_arg1 := A_keep_arg1 V
  have f0_arg2 := A_keep_arg2 V
  have f0_arg3 := A_keep_arg3 V
  have f0_arg4 := A_keep_arg4 V
  have f0_arg5 := A_keep_arg5 V
  generalize after opsA V = W1 at *
  have f1_v21 := B1_v21 W1 f0_v6 f0_v7
  have f1_v32 := B1_v32 W1 f0_v14
  have f1_v33 := B1_v33 W1 f0_v6 f0_v7
  have f1_v14 := (B1_keep_v14 W1).trans f0_v14
  have f1_arg0 := (B1_keep_arg0 W1).trans f0_arg0
  have f1_arg1 := (B1_keep_arg1 W1).trans f0_arg1
  have f1_arg2 := (B1_keep_arg2 W1).trans f0_arg2
  have f1_arg3 := (B1_keep_arg3 W1).trans f0_arg3
  have f1_arg4 := (B1_keep_arg4 W1).trans f0_arg4
  have f1_arg5 := (B1_keep_arg5 W1).trans f0_arg5
  generalize after opsB1 W1 = W2 at *
  clear f0_v6 f0_v7 f0_v14 f0_arg0 f0_arg1 f0_arg2 f0_arg3 f0_arg4 f0_arg5
  have f2_v36 := B2_v36 W2 f1_v32 f1_v33 f1_arg1
  have f2_v14 := (B2_keep_v14 W2).trans f1_v14
  have f2_v21 := (B2_keep_v21 W2).trans f1_v21
  have f2_arg0 := (B2_keep_arg0 W2).trans f1_arg0
  have f2_arg2 := (B2_keep_arg2 W2).trans f1_arg2
  have f2_arg3 := (B2_keep_arg3 W2).trans f1_arg3
  have f2_arg4 := (B2_keep_arg4 W2).trans f1_arg4
  have f2_arg5 := (B2_keep_arg5 W2).trans f1_arg5
  generalize after opsB2 W2 = W3 at *
  clear f1_v21 f1_v32 f1_v33 f1_v14 f1_arg0 f1_arg1 f1_arg2 f1_arg3 f1_arg4 f1_arg5
  have f3_call1_v5 := C1_call1_v5 W3 f2_v14
  have f3_call1_v12 := C1_call1_v12 W3 f2_v14
  have f3_v14 := (C1_keep_v14 W3).trans f2_v14
  have f3_v21 := (C1_keep_v21 W3).trans f2_v21
  have f3_v36 := (C1_keep_v36 W3).trans f2_v36
  have f3_arg0 := (C1_keep_arg0 W3).trans f2_arg0
  have f3_arg2 := (C1_keep_arg2 W3).trans f2_arg2
  have f3_arg3 := (C1_keep_arg3 W3).trans f2_arg3
  have f3_arg4 := (C1_keep_arg4 W3).trans f2_arg4
  have f3_arg5 := (C1_keep_arg5 W3).trans f2_arg5
  generalize after opsC1 W3 = W4 at *
  clear f2_v36 f2_v14 f2_v21 f2_arg0 f2_arg2 f2_arg3 f2_arg4 f2_arg5
  have f4_v38 := C2_v38 W4 f3_call1_v5 f3_call1_v12 f3_arg0
  have f4_v14 := (C2_keep_v14 W4).trans f3_v14
  have f4_v21 := (C2_keep_v21 W4).trans f3_v21
  have f4_v36 := (C2_keep_v36 W4).trans f3_v36
  have f4_arg0 := (C2_keep_arg0 W4).trans f3_arg0
  have f4_arg2 := (C2_keep_arg2 W4).trans f3_arg2
  have f4_arg3 := (C2_keep_arg3 W4).trans f3_arg3
  have f4_arg4 := (C2_keep_arg4 W4).trans f3_arg4
  have f4_arg5 := (C2_keep_arg5 W4).trans f3_arg5
  generalize after opsC2 W4 = W5 at *
  clear f3_call1_v5 f3_call1_v12 f3_v14 f3_v21 f3_v36 f3_arg0 f3_arg2 f3_arg3 f3_arg4 f3_arg5
  have f5_v42 := D1_v42 W5 f4_arg0 f4_arg2 f4_arg3
  have f5_v53 := D1_v53 W5 f4_v14
  have f5_v54 := D1_v54 W5 f4_v21
  have f5_v14 := (D1_keep_v14 W5).trans f4_v14
  have f5_v36 := (D1_keep_v36 W5).trans f4_v36
  have f5_v38 := (D1_keep_v38 W5).trans f4_v38
  have f5_arg4 := (D1_keep_arg4 W5).trans f4_arg4
  have f5_arg5 := (D1_keep_arg5 W5).trans f4_arg5
  generalize after opsD1 W5 = W6 at *
  clear f4_v38 f4_v14 f4_v21 f4_v36 f4_arg0 f4_arg2 f4_arg3 f4_arg4 f4_arg5
  have f6_v57 := D2_v57 W6 f5_v42 f5_v53 f5_v54
  have f6_v14 := (D2_keep_v14 W6).trans f5_v14
  have f6_v36 := (D2_keep_v36 W6).trans f5_v36
  have f6_v38 := (D2_keep_v38 W6).trans f5_v38
  have f6_arg4 := (D2_keep_arg4 W6).trans f5_arg4
  have f6_arg5 := (D2_keep_arg5 W6).trans f5_arg5
  generalize after opsD2 W6 = W7 at *
  clear f5_v42 f5_v53 f5_v54 f5_v14 f5_v36 f5_v38 f5_arg4 f5_arg5
  exact E_v74 W7 f6_v14 f6_v36 f6_v38 f6_v57 f6_arg4 f6_arg5

theorem arg0_eq (V : Valuation τ sig (Elt Ideal)) :
    after ops V (main_arg0 : DevRef τ sig) = V (main_arg0 : DevRef τ sig) := by
  after_results_simp

theorem arg1_eq (V : Valuation τ sig (Elt Ideal)) :
    after ops V (main_arg1 : DevRef τ sig) = V (main_arg1 : DevRef τ sig) := by
  after_results_simp

theorem arg2_eq (V : Valuation τ sig (Elt Ideal)) :
    after ops V (main_arg2 : DevRef τ sig) = V (main_arg2 : DevRef τ sig) := by
  after_results_simp

theorem arg3_eq (V : Valuation τ sig (Elt Ideal)) :
    after ops V (main_arg3 : DevRef τ sig) = V (main_arg3 : DevRef τ sig) := by
  after_results_simp

theorem arg4_eq (V : Valuation τ sig (Elt Ideal)) :
    after ops V (main_arg4 : DevRef τ sig) = V (main_arg4 : DevRef τ sig) := by
  after_results_simp

theorem arg5_eq (V : Valuation τ sig (Elt Ideal)) :
    after ops V (main_arg5 : DevRef τ sig) = V (main_arg5 : DevRef τ sig) := by
  after_results_simp

/-- The reference's run: every weakly fair execution terminates, the result buffer holds `Stages.out` of the six
    argument arrays, and the argument arrays are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v74) = Stages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v74).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_main m ρ)

end Cert.ReferenceIdeal.MoeRun

end
-- ==== Proof.LibScatterGather.lean ====
/-
  A scatter-add and a gather along the leading axis, read at one element.

  The accumulating scatter with one scatter index per update row (inserted window axis 0, the
  start index read signed and not clamped) adds to operand row `c` exactly the update rows whose
  index word, read as a signed integer, is `c`; the gather with one start index per result row
  (collapsed slice axis 0, the start index read signed and clamped into `[0, N - 1]`) reads the
  operand row at that clamped index. Both for a flat operand `[N]` and for a matrix operand
  `[N, C]` whose second axis is carried along unchanged.
-/
import Idealize.ShloMosaic.PureOps.Ideal
import Idealize.ShloMosaic.PureOps.Ideal.Laws
import Idealize.ShloMosaic.Lib.ValueIdx

noncomputable section

open scoped BigOperators

namespace Cert.ScatterGather

open Idealize.ShloMosaic Idealize.ShloMosaic.ValueIdx

/-- A scatter-add into a flat array `[N]` with one index per update: element `c` of the result is the
    operand's element `c` plus the sum of the updates `e` whose index word, read signed, equals `c`. -/
theorem scatterAdd1_apply {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (upd : (⟨1, ![E]⟩ : Shape).Idx → EReal) (c : Fin N) :
    Ideal.hostScatterAdd d x idx upd (ix1 c)
      = x (ix1 c) + ∑ e ∈ Finset.univ.filter
          (fun e : Fin E => (idx (ix2 e ⟨0, Nat.one_pos⟩)).toInt = (c.val : Int)), upd (ix1 e) := by
  obtain ⟨uw, iw, sd, iv, wf⟩ := d
  dsimp only at huw hiw hsd hiv
  subst huw hiw hsd hiv
  unfold Ideal.hostScatterAdd
  congr 1
  have hsz : ((⟨1, ![N]⟩ : Shape).size 0 : Nat) = N := rfl
  have key : ∀ e : Fin E,
      (ScatterDims.resultIdx? (s := ⟨1, ![N]⟩) (si := ⟨2, ![E, 1]⟩) (u := ⟨1, ![E]⟩) ⟨[], [0], [0], 1, wf⟩
        (ix1 e) idx = some (ix1 c)) ↔ (idx (ix2 e ⟨0, Nat.one_pos⟩)).toInt = (c.val : Int) := by
    intro e
    have hst : ∀ a, ScatterDims.start (s := ⟨1, ![N]⟩) (si := ⟨2, ![E, 1]⟩) (u := ⟨1, ![E]⟩) ⟨[], [0], [0], 1, wf⟩
        (ix1 e) idx a = (idx (ix2 e ⟨0, Nat.one_pos⟩)).toInt := by
      intro a
      obtain rfl : a = 0 := Subsingleton.elim _ _
      unfold ScatterDims.start
      rw [dif_pos (List.mem_singleton.mpr rfl)]
      have hsi : ∀ p, ScatterDims.siIdx (s := ⟨1, ![N]⟩) (si := ⟨2, ![E, 1]⟩) (u := ⟨1, ![E]⟩) ⟨[], [0], [0], 1, wf⟩
          (ix1 e) ⟨List.idxOf (0 : Fin 1) [0], p⟩ = ix2 e ⟨0, Nat.one_pos⟩ := by
        intro p; funext b; refine Fin.ext ?_
        match b with
        | ⟨0, _⟩ => rfl
        | ⟨1, _⟩ => rfl
      rw [hsi]
    have hwin : ∀ a, ScatterDims.window (s := ⟨1, ![N]⟩) (si := ⟨2, ![E, 1]⟩) (u := ⟨1, ![E]⟩) ⟨[], [0], [0], 1, wf⟩
        (ix1 e) a = 0 := by
      intro a
      obtain rfl : a = 0 := Subsingleton.elim _ _
      unfold ScatterDims.window
      rw [dif_neg (by simp [Shape.kept])]
    have hc := c.isLt
    constructor
    · intro h
      unfold ScatterDims.resultIdx? at h
      split at h
      · rename_i hall
        have h0 := hall 0
        have hc0 : (ScatterDims.start (s := ⟨1, ![N]⟩) (si := ⟨2, ![E, 1]⟩) (u := ⟨1, ![E]⟩) ⟨[], [0], [0], 1, wf⟩ (ix1 e) idx 0
            + ((ScatterDims.window (s := ⟨1, ![N]⟩) (si := ⟨2, ![E, 1]⟩) (u := ⟨1, ![E]⟩) ⟨[], [0], [0], 1, wf⟩ (ix1 e) 0 : Nat) : Int)).toNat = c.val :=
          congrArg Fin.val (congrFun (Option.some.inj h) 0)
        rw [hst, hwin] at h0 hc0
        rw [hsz] at h0
        omega
      · cases h
    · intro hv
      have hall : ∀ a, 0 ≤ ScatterDims.start (s := ⟨1, ![N]⟩) (si := ⟨2, ![E, 1]⟩) (u := ⟨1, ![E]⟩) ⟨[], [0], [0], 1, wf⟩ (ix1 e) idx a
            + ((ScatterDims.window (s := ⟨1, ![N]⟩) (si := ⟨2, ![E, 1]⟩) (u := ⟨1, ![E]⟩) ⟨[], [0], [0], 1, wf⟩ (ix1 e) a : Nat) : Int)
          ∧ ScatterDims.start (s := ⟨1, ![N]⟩) (si := ⟨2, ![E, 1]⟩) (u := ⟨1, ![E]⟩) ⟨[], [0], [0], 1, wf⟩ (ix1 e) idx a
            + ((ScatterDims.window (s := ⟨1, ![N]⟩) (si := ⟨2, ![E, 1]⟩) (u := ⟨1, ![E]⟩) ⟨[], [0], [0], 1, wf⟩ (ix1 e) a : Nat) : Int)
            < (((⟨1, ![N]⟩ : Shape).size a : Nat) : Int) := by
        intro a
        rw [hst, hwin]
        obtain rfl : a = 0 := Subsingleton.elim _ _
        rw [hsz]
        omega
      unfold ScatterDims.resultIdx?
      rw [dif_pos hall]
      congr 1
      funext a
      obtain rfl : a = 0 := Subsingleton.elim _ _
      refine Fin.ext ?_
      show (ScatterDims.start (s := ⟨1, ![N]⟩) (si := ⟨2, ![E, 1]⟩) (u := ⟨1, ![E]⟩) ⟨[], [0], [0], 1, wf⟩ (ix1 e) idx 0
            + ((ScatterDims.window (s := ⟨1, ![N]⟩) (si := ⟨2, ![E, 1]⟩) (u := ⟨1, ![E]⟩) ⟨[], [0], [0], 1, wf⟩ (ix1 e) 0 : Nat) : Int)).toNat = c.val
      rw [hst, hwin]
      omega
  refine Finset.sum_nbij' (fun j => (j 0 : Fin E)) (fun e => ix1 e) ?_ ?_ ?_ ?_ ?_
  · intro j hj
    have h2 := (Finset.mem_filter.1 hj).2
    rw [eq_ix1 j] at h2
    exact Finset.mem_filter.2 ⟨Finset.mem_univ _, (key _).1 h2⟩
  · intro e he
    exact Finset.mem_filter.2 ⟨Finset.mem_univ _, (key e).2 (Finset.mem_filter.1 he).2⟩
  · intro j _
    exact (eq_ix1 j).symm
  · intro e _
    rfl
  · intro j _
    exact congrArg upd (eq_ix1 j)

/-- A scatter-add of rows into a matrix `[N, C]` with one row index per update row: element `(c, k)` of the
    result is the operand's element `(c, k)` plus the sum over the update rows `e` whose index word, read
    signed, equals `c` of their element `k`. -/
theorem scatterAdd2_apply {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w)
    (upd : (⟨2, ![E, C]⟩ : Shape).Idx → EReal) (c : Fin N) (k : Fin C) :
    Ideal.hostScatterAdd d x idx upd (ix2 c k)
      = x (ix2 c k) + ∑ e ∈ Finset.univ.filter
          (fun e : Fin E => (idx (ix2 e ⟨0, Nat.one_pos⟩)).toInt = (c.val : Int)), upd (ix2 e k) := by
  obtain ⟨uw, iw, sd, iv, wf⟩ := d
  dsimp only at huw hiw hsd hiv
  subst huw hiw hsd hiv
  unfold Ideal.hostScatterAdd
  congr 1
  have hsz0 : ((⟨2, ![N, C]⟩ : Shape).size 0 : Nat) = N := rfl
  have hsz1 : ((⟨2, ![N, C]⟩ : Shape).size 1 : Nat) = C := rfl
  have key : ∀ (e : Fin E) (k' : Fin C),
      (ScatterDims.resultIdx? (⟨[1], [0], [0], 1, wf⟩ : ScatterDims ⟨2, ![N, C]⟩ ⟨2, ![E, 1]⟩ ⟨2, ![E, C]⟩) (ix2 e k') idx = some (ix2 c k))
        ↔ ((idx (ix2 e ⟨0, Nat.one_pos⟩)).toInt = (c.val : Int) ∧ k' = k) := by
    intro e k'
    have hst0 : ScatterDims.start (⟨[1], [0], [0], 1, wf⟩ : ScatterDims ⟨2, ![N, C]⟩ ⟨2, ![E, 1]⟩ ⟨2, ![E, C]⟩) (ix2 e k') idx 0 = (idx (ix2 e ⟨0, Nat.one_pos⟩)).toInt := by
      unfold ScatterDims.start
      rw [dif_pos (List.mem_singleton.mpr rfl)]
      have hsi : ∀ p, ScatterDims.siIdx (⟨[1], [0], [0], 1, wf⟩ : ScatterDims ⟨2, ![N, C]⟩ ⟨2, ![E, 1]⟩ ⟨2, ![E, C]⟩) (ix2 e k') ⟨List.idxOf (0 : Fin 2) [0], p⟩ = ix2 e ⟨0, Nat.one_pos⟩ := by
        intro p; funext b; refine Fin.ext ?_
        match b with
        | ⟨0, _⟩ => rfl
        | ⟨1, _⟩ => rfl
      rw [hsi]
    have hst1 : ScatterDims.start (⟨[1], [0], [0], 1, wf⟩ : ScatterDims ⟨2, ![N, C]⟩ ⟨2, ![E, 1]⟩ ⟨2, ![E, C]⟩) (ix2 e k') idx 1 = 0 := by
      unfold ScatterDims.start
      rw [dif_neg (fun h => absurd (congrArg Fin.val (List.mem_singleton.mp h)) Nat.one_ne_zero)]
    have hwin0 : ScatterDims.window (⟨[1], [0], [0], 1, wf⟩ : ScatterDims ⟨2, ![N, C]⟩ ⟨2, ![E, 1]⟩ ⟨2, ![E, C]⟩) (ix2 e k') 0 = 0 := by
      unfold ScatterDims.window
      rw [dif_neg (by simp [Shape.kept])]
    have hwin1 : ScatterDims.window (⟨[1], [0], [0], 1, wf⟩ : ScatterDims ⟨2, ![N, C]⟩ ⟨2, ![E, 1]⟩ ⟨2, ![E, C]⟩) (ix2 e k') 1 = k'.val := by
      unfold ScatterDims.window
      rw [dif_pos (by simp [Shape.kept])]
      rfl
    have hc := c.isLt
    have hk := k.isLt
    have hk' := k'.isLt
    constructor
    · intro h
      unfold ScatterDims.resultIdx? at h
      split at h
      · rename_i hall
        have h0 := hall 0
        have hc0 : (ScatterDims.start (⟨[1], [0], [0], 1, wf⟩ : ScatterDims ⟨2, ![N, C]⟩ ⟨2, ![E, 1]⟩ ⟨2, ![E, C]⟩) (ix2 e k') idx 0
            + ((ScatterDims.window (⟨[1], [0], [0], 1, wf⟩ : ScatterDims ⟨2, ![N, C]⟩ ⟨2, ![E, 1]⟩ ⟨2, ![E, C]⟩) (ix2 e k') 0 : Nat) : Int)).toNat = c.val :=
          congrArg Fin.val (congrFun (Option.some.inj h) 0)
        have hc1 : (ScatterDims.start (⟨[1], [0], [0], 1, wf⟩ : ScatterDims ⟨2, ![N, C]⟩ ⟨2, ![E, 1]⟩ ⟨2, ![E, C]⟩) (ix2 e k') idx 1
            + ((ScatterDims.window (⟨[1], [0], [0], 1, wf⟩ : ScatterDims ⟨2, ![N, C]⟩ ⟨2, ![E, 1]⟩ ⟨2, ![E, C]⟩) (ix2 e k') 1 : Nat) : Int)).toNat = k.val :=
          congrArg Fin.val (congrFun (Option.some.inj h) 1)
        rw [hst0, hwin0] at h0 hc0
        rw [hsz0] at h0
        rw [hst1, hwin1] at hc1
        exact ⟨by omega, Fin.ext (by omega)⟩
      · cases h
    · rintro ⟨hv, rfl⟩
      have hall : ∀ a, 0 ≤ ScatterDims.start (⟨[1], [0], [0], 1, wf⟩ : ScatterDims ⟨2, ![N, C]⟩ ⟨2, ![E, 1]⟩ ⟨2, ![E, C]⟩) (ix2 e k') idx a
            + ((ScatterDims.window (⟨[1], [0], [0], 1, wf⟩ : ScatterDims ⟨2, ![N, C]⟩ ⟨2, ![E, 1]⟩ ⟨2, ![E, C]⟩) (ix2 e k') a : Nat) : Int)
          ∧ ScatterDims.start (⟨[1], [0], [0], 1, wf⟩ : ScatterDims ⟨2, ![N, C]⟩ ⟨2, ![E, 1]⟩ ⟨2, ![E, C]⟩) (ix2 e k') idx a
            + ((ScatterDims.window (⟨[1], [0], [0], 1, wf⟩ : ScatterDims ⟨2, ![N, C]⟩ ⟨2, ![E, 1]⟩ ⟨2, ![E, C]⟩) (ix2 e k') a : Nat) : Int)
            < (((⟨2, ![N, C]⟩ : Shape).size a : Nat) : Int) := by
        intro a
        match a with
        | ⟨0, _⟩ =>
          show 0 ≤ ScatterDims.start (⟨[1], [0], [0], 1, wf⟩ : ScatterDims ⟨2, ![N, C]⟩ ⟨2, ![E, 1]⟩ ⟨2, ![E, C]⟩) (ix2 e k') idx 0 + ((ScatterDims.window (⟨[1], [0], [0], 1, wf⟩ : ScatterDims ⟨2, ![N, C]⟩ ⟨2, ![E, 1]⟩ ⟨2, ![E, C]⟩) (ix2 e k') 0 : Nat) : Int)
            ∧ ScatterDims.start (⟨[1], [0], [0], 1, wf⟩ : ScatterDims ⟨2, ![N, C]⟩ ⟨2, ![E, 1]⟩ ⟨2, ![E, C]⟩) (ix2 e k') idx 0 + ((ScatterDims.window (⟨[1], [0], [0], 1, wf⟩ : ScatterDims ⟨2, ![N, C]⟩ ⟨2, ![E, 1]⟩ ⟨2, ![E, C]⟩) (ix2 e k') 0 : Nat) : Int)
              < (((⟨2, ![N, C]⟩ : Shape).size 0 : Nat) : Int)
          rw [hst0, hwin0, hsz0]
          omega
        | ⟨1, _⟩ =>
          show 0 ≤ ScatterDims.start (⟨[1], [0], [0], 1, wf⟩ : ScatterDims ⟨2, ![N, C]⟩ ⟨2, ![E, 1]⟩ ⟨2, ![E, C]⟩) (ix2 e k') idx 1 + ((ScatterDims.window (⟨[1], [0], [0], 1, wf⟩ : ScatterDims ⟨2, ![N, C]⟩ ⟨2, ![E, 1]⟩ ⟨2, ![E, C]⟩) (ix2 e k') 1 : Nat) : Int)
            ∧ ScatterDims.start (⟨[1], [0], [0], 1, wf⟩ : ScatterDims ⟨2, ![N, C]⟩ ⟨2, ![E, 1]⟩ ⟨2, ![E, C]⟩) (ix2 e k') idx 1 + ((ScatterDims.window (⟨[1], [0], [0], 1, wf⟩ : ScatterDims ⟨2, ![N, C]⟩ ⟨2, ![E, 1]⟩ ⟨2, ![E, C]⟩) (ix2 e k') 1 : Nat) : Int)
              < (((⟨2, ![N, C]⟩ : Shape).size 1 : Nat) : Int)
          rw [hst1, hwin1, hsz1]
          omega
      unfold ScatterDims.resultIdx?
      rw [dif_pos hall]
      congr 1
      funext a
      refine Fin.ext ?_
      match a with
      | ⟨0, _⟩ =>
        show (ScatterDims.start (⟨[1], [0], [0], 1, wf⟩ : ScatterDims ⟨2, ![N, C]⟩ ⟨2, ![E, 1]⟩ ⟨2, ![E, C]⟩) (ix2 e k') idx 0
            + ((ScatterDims.window (⟨[1], [0], [0], 1, wf⟩ : ScatterDims ⟨2, ![N, C]⟩ ⟨2, ![E, 1]⟩ ⟨2, ![E, C]⟩) (ix2 e k') 0 : Nat) : Int)).toNat = c.val
        rw [hst0, hwin0]
        omega
      | ⟨1, _⟩ =>
        show (ScatterDims.start (⟨[1], [0], [0], 1, wf⟩ : ScatterDims ⟨2, ![N, C]⟩ ⟨2, ![E, 1]⟩ ⟨2, ![E, C]⟩) (ix2 e k') idx 1
            + ((ScatterDims.window (⟨[1], [0], [0], 1, wf⟩ : ScatterDims ⟨2, ![N, C]⟩ ⟨2, ![E, 1]⟩ ⟨2, ![E, C]⟩) (ix2 e k') 1 : Nat) : Int)).toNat = k'.val
        rw [hst1, hwin1]
        omega
  have hmem : ∀ j : (⟨2, ![E, C]⟩ : Shape).Idx,
      ScatterDims.resultIdx? (⟨[1], [0], [0], 1, wf⟩ : ScatterDims ⟨2, ![N, C]⟩ ⟨2, ![E, 1]⟩ ⟨2, ![E, C]⟩) j idx = some (ix2 c k)
        → (idx (ix2 (j 0 : Fin E) ⟨0, Nat.one_pos⟩)).toInt = (c.val : Int) ∧ ix2 (j 0 : Fin E) k = j := by
    intro j hj
    rw [eq_ix2 j] at hj
    have h2 := (key _ _).1 hj
    refine ⟨h2.1, ?_⟩
    have h3 : ix2 (j 0 : Fin E) k = ix2 (j 0 : Fin E) (j 1 : Fin C) :=
      congrArg (fun t : Fin C => ix2 (j 0 : Fin E) t) h2.2.symm
    exact h3.trans (eq_ix2 j).symm
  refine Finset.sum_nbij' (fun j => (j 0 : Fin E)) (fun e => ix2 e k) ?_ ?_ ?_ ?_ ?_
  · intro j hj
    exact Finset.mem_filter.2 ⟨Finset.mem_univ _, (hmem j (Finset.mem_filter.1 hj).2).1⟩
  · intro e he
    exact Finset.mem_filter.2 ⟨Finset.mem_univ _, (key e k).2 ⟨(Finset.mem_filter.1 he).2, rfl⟩⟩
  · intro j hj
    exact (hmem j (Finset.mem_filter.1 hj).2).2
  · intro e _
    rfl
  · intro j hj
    exact congrArg upd (hmem j (Finset.mem_filter.1 hj).2).2.symm

/-- A gather from a flat array `[N]` with one start index per result element: result element `e` is the
    operand at the index word of `e`, read signed and clamped into `[0, N - 1]`. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e)
      = x (ix1 ⟨min (idx (ix2 e ⟨0, Nat.one_pos⟩)).toInt.toNat (N - 1), by omega⟩) := by
  obtain ⟨od, cd, ob, sb, sm, iv, ss, wf⟩ := d
  dsimp only at hod hcd hob hsb hsm hiv hss
  subst hod hcd hob hsb hsm hiv hss
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : ∀ p, GatherDims.siIdx (s := ⟨1, ![N]⟩) (si := ⟨2, ![E, 1]⟩) (t := ⟨1, ![E]⟩)
      ⟨[], [0], [], [], [0], 1, ![1], wf⟩ (ix1 e) ⟨List.idxOf (0 : Fin 1) [0], p⟩ = ix2 e ⟨0, Nat.one_pos⟩ := by
    intro p
    funext b; refine Fin.ext ?_
    match b with
    | ⟨0, _⟩ => rfl
    | ⟨1, _⟩ => rfl
  rw [hsi]
  rfl

/-- A gather of rows from a matrix `[N, C]` with one start index per result row: result element `(e, k)` is
    the operand's element `k` of the row at the index word of `e`, read signed and clamped into `[0, N - 1]`. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (k : Fin C) :
    Host.gather d x idx (ix2 e k)
      = x (ix2 ⟨min (idx (ix2 e ⟨0, Nat.one_pos⟩)).toInt.toNat (N - 1), by omega⟩ k) := by
  obtain ⟨od, cd, ob, sb, sm, iv, ss, wf⟩ := d
  dsimp only at hod hcd hob hsb hsm hiv hss
  subst hod hcd hob hsb hsm hiv hss
  unfold Host.gather
  congr 1
  funext a
  refine Fin.ext ?_
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ p, GatherDims.siIdx (s := ⟨2, ![N, C]⟩) (si := ⟨2, ![E, 1]⟩) (t := ⟨2, ![E, C]⟩)
        ⟨[1], [0], [], [], [0], 1, ![1, C], wf⟩ (ix2 e k) ⟨List.idxOf (0 : Fin 2) [0], p⟩ = ix2 e ⟨0, Nat.one_pos⟩ := by
      intro p
      funext b; refine Fin.ext ?_
      match b with
      | ⟨0, _⟩ => rfl
      | ⟨1, _⟩ => rfl
    rw [hsi]
    rfl
  | ⟨1, _⟩ =>
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start
    rw [dif_neg (fun h => absurd (congrArg Fin.val (List.mem_singleton.mp h)) Nat.one_ne_zero)]
    simp only [Nat.zero_add]
    unfold GatherDims.offCoord
    rw [dif_pos ((GatherDims.mem_sKept _ _).mpr
      ⟨fun h => absurd (congrArg Fin.val (List.mem_singleton.mp h)) Nat.one_ne_zero, List.not_mem_nil⟩)]
    rfl

end Cert.ScatterGather

end
-- ==== Proof.LibGatherPair.lean ====
/-
  A gather of single elements from a matrix by pairs of start indices, read at one element.

  With both operand axes collapsed and a start index of two components per result element (row component first), result
  element `e` is the operand at the row and column given by the two index words of `e`, each read as a signed integer and
  clamped into its axis: `[0, N - 1]` for the row, `[0, M - 1]` for the column.
-/
import Idealize.ShloMosaic.PureOps.Ideal
import Idealize.ShloMosaic.Lib.ValueIdx

noncomputable section

namespace Cert.GatherPair

open Idealize.ShloMosaic Idealize.ShloMosaic.ValueIdx

/-- Result element `e` of the pairwise gather is the operand at (row word of `e`, column word of `e`), clamped. -/
theorem gatherPair_apply {α : Type} {N M E w : Nat} (hN : 0 < N) (hM : 0 < M)
    (d : GatherDims ⟨2, ![N, M]⟩ ⟨2, ![E, 2]⟩ ⟨1, ![E]⟩)
    (hod : d.offsetDims = []) (hcd : d.collapsedSliceDims = [0, 1]) (hob : d.operandBatchingDims = [])
    (hsb : d.startIndicesBatchingDims = []) (hsm : d.startIndexMap = [0, 1]) (hiv : d.indexVectorDim = 1)
    (hss : d.sliceSizes = ![1, 1])
    (x : (⟨2, ![N, M]⟩ : Shape).Idx → α) (idx : IVec ⟨2, ![E, 2]⟩ w) (e : Fin E) :
    Host.gather d x idx (ix1 e)
      = x (ix2 (⟨min (idx (ix2 e (0 : Fin 2))).toInt.toNat (N - 1), by omega⟩ : Fin N)
               (⟨min (idx (ix2 e (1 : Fin 2))).toInt.toNat (M - 1), by omega⟩ : Fin M)) := by
  obtain ⟨od, cd, ob, sb, sm, iv, ss, wf⟩ := d
  dsimp only at hod hcd hob hsb hsm hiv hss
  subst hod hcd hob hsb hsm hiv hss
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    have hsi : ∀ p, GatherDims.siIdx (s := ⟨2, ![N, M]⟩) (si := ⟨2, ![E, 2]⟩) (t := ⟨1, ![E]⟩)
        ⟨[], [0, 1], [], [], [0, 1], 1, ![1, 1], wf⟩ (ix1 e) ⟨List.idxOf (0 : Fin 2) [0, 1], p⟩ = ix2 e (0 : Fin 2) := by
      intro p
      funext b; refine Fin.ext ?_
      match b with
      | ⟨0, _⟩ => rfl
      | ⟨1, _⟩ => rfl
    rw [hsi]
    rfl
  | ⟨1, _⟩ =>
    show GatherDims.start _ (ix1 e) idx 1 + GatherDims.batchCoord _ (ix1 e) 1 + GatherDims.offCoord _ (ix1 e) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    have hsi : ∀ p, GatherDims.siIdx (s := ⟨2, ![N, M]⟩) (si := ⟨2, ![E, 2]⟩) (t := ⟨1, ![E]⟩)
        ⟨[], [0, 1], [], [], [0, 1], 1, ![1, 1], wf⟩ (ix1 e) ⟨List.idxOf (1 : Fin 2) [0, 1], p⟩ = ix2 e (1 : Fin 2) := by
      intro p
      funext b; refine Fin.ext ?_
      match b with
      | ⟨0, _⟩ => rfl
      | ⟨1, _⟩ => rfl
    rw [hsi]
    rfl

end Cert.GatherPair

end
-- ==== Proof.SortedBlocks.lean ====
/-
  A sorted rearrangement of equally many copies of each key is determined position by position.

  Take the 65536 = 8 · 8192 positions `0 … 65535`, position `j` carrying the key `j mod 8`, so each of the eight keys occurs
  8192 times.  If `σ` is a bijection of the positions along which the keys are nondecreasing, then the keys below `v` fill exactly
  the first `v · 8192` places, hence the key at place `k` is `k / 8192`.  Consequently a sum over the places whose source has a
  given quotient by 8 runs over one source per key.
-/
import Mathlib

open scoped BigOperators

namespace Cert.Moe.Sorted

open Finset

/-- Counting the members of `Fin n` by a predicate on their values is counting below `n`. -/
theorem card_fin_filter (p : ℕ → Prop) [DecidablePred p] (n : ℕ) :
    (univ.filter (fun j : Fin n => p j.val)).card = ((range n).filter p).card := by
  rw [card_filter, card_filter]
  exact Fin.sum_univ_eq_sum_range (fun a => if p a then 1 else 0) n

/-- Below 65536, the numbers whose remainder by 8 is less than `v` number `v · 8192`: they are the pairs
    (remainder below `v`, quotient below 8192). -/
theorem card_mod_lt (v : ℕ) (hv : v ≤ 8) :
    ((range 65536).filter (fun j => j % 8 < v)).card = v * 8192 := by
  have h : ((range 65536).filter (fun j => j % 8 < v)).card = (range v ×ˢ range 8192).card := by
    refine card_nbij' (fun j => (j % 8, j / 8)) (fun p => p.2 * 8 + p.1) ?_ ?_ ?_ ?_
    · intro j hj
      have hj' := mem_filter.1 (mem_coe.1 hj)
      have h1 := mem_range.1 hj'.1
      have h2 := hj'.2
      refine mem_coe.2 (mem_product.2 ⟨mem_range.2 h2, mem_range.2 ?_⟩)
      show j / 8 < 8192
      omega
    · intro p hp
      have hp' := mem_product.1 (mem_coe.1 hp)
      have h1 := mem_range.1 hp'.1
      have h2 := mem_range.1 hp'.2
      refine mem_coe.2 (mem_filter.2 ⟨mem_range.2 ?_, ?_⟩)
      · show p.2 * 8 + p.1 < 65536
        omega
      · show (p.2 * 8 + p.1) % 8 < v
        omega
    · intro j _
      show j / 8 * 8 + j % 8 = j
      omega
    · intro p hp
      have hp' := mem_product.1 (mem_coe.1 hp)
      have h1 := mem_range.1 hp'.1
      have h2 := mem_range.1 hp'.2
      show ((p.2 * 8 + p.1) % 8, (p.2 * 8 + p.1) / 8) = p
      refine Prod.ext ?_ ?_
      · show (p.2 * 8 + p.1) % 8 = p.1
        omega
      · show (p.2 * 8 + p.1) / 8 = p.2
        omega
  rw [h, card_product, card_range, card_range]

/-- Along a bijection `σ`, the places whose source key is below `v` number `v · 8192`. -/
theorem card_key_lt (σ : Fin 65536 → Fin 65536) (hσ : Function.Bijective σ) (v : ℕ) (hv : v ≤ 8) :
    (univ.filter (fun i : Fin 65536 => (σ i).val % 8 < v)).card = v * 8192 := by
  have h : (univ.filter (fun i : Fin 65536 => (σ i).val % 8 < v)).card
      = (univ.filter (fun j : Fin 65536 => j.val % 8 < v)).card := by
    refine card_bij (fun i _ => σ i) ?_ ?_ ?_
    · intro i hi
      exact mem_filter.2 ⟨mem_univ _, (mem_filter.1 hi).2⟩
    · intro a _ b _ hab
      exact hσ.injective hab
    · intro b hb
      obtain ⟨a, rfl⟩ := hσ.surjective b
      exact ⟨a, mem_filter.2 ⟨mem_univ _, (mem_filter.1 hb).2⟩, rfl⟩
  rw [h, card_fin_filter (fun n => n % 8 < v) 65536, card_mod_lt v hv]

/-- The key at place `k` of a nondecreasing rearrangement is `k / 8192`. -/
theorem key_at (σ : Fin 65536 → Fin 65536) (hσ : Function.Bijective σ)
    (hmono : ∀ i j : Fin 65536, i ≤ j → (σ i).val % 8 ≤ (σ j).val % 8) (k : Fin 65536) :
    (σ k).val % 8 = k.val / 8192 := by
  have hv : (σ k).val % 8 < 8 := Nat.mod_lt _ (by norm_num)
  -- the places with a smaller key all lie before `k`
  have h1 : (σ k).val % 8 * 8192 ≤ k.val := by
    rw [← card_key_lt σ hσ ((σ k).val % 8) (le_of_lt hv), ← Fin.card_Iio k]
    refine card_le_card ?_
    intro i hi
    have hlt := (mem_filter.1 hi).2
    refine mem_Iio.2 ?_
    by_contra hge
    have := hmono k i (not_lt.1 hge)
    omega
  -- the places up to `k` all carry a key no larger
  have h2 : k.val + 1 ≤ ((σ k).val % 8 + 1) * 8192 := by
    rw [← card_key_lt σ hσ ((σ k).val % 8 + 1) hv, ← Fin.card_Iic k]
    refine card_le_card ?_
    intro i hi
    have hle := mem_Iic.1 hi
    refine mem_filter.2 ⟨mem_univ _, ?_⟩
    have := hmono i k hle
    omega
  omega

/-- A sum over the places whose source has quotient `t` by 8 is the sum over the eight keys. -/
theorem sum_dispatch {M : Type*} [AddCommMonoid M] (σ : Fin 65536 → Fin 65536) (hσ : Function.Bijective σ)
    (H : ℕ → ℕ → M) (t : Fin 8192) :
    ∑ k ∈ univ.filter (fun k : Fin 65536 => (σ k).val / 8 = t.val), H ((σ k).val / 8) ((σ k).val % 8)
      = ∑ e : Fin 8, H t.val e.val := by
  rw [sum_filter]
  rw [hσ.sum_comp (fun j : Fin 65536 => if j.val / 8 = t.val then H (j.val / 8) (j.val % 8) else 0)]
  rw [← sum_filter]
  have ht := t.isLt
  refine sum_nbij' (fun j : Fin 65536 => (⟨j.val % 8, Nat.mod_lt _ (by norm_num)⟩ : Fin 8))
    (fun e : Fin 8 => (⟨t.val * 8 + e.val, by have := e.isLt; omega⟩ : Fin 65536)) ?_ ?_ ?_ ?_ ?_
  · intro j _
    exact mem_univ _
  · intro e _
    refine mem_filter.2 ⟨mem_univ _, ?_⟩
    have := e.isLt
    show (t.val * 8 + e.val) / 8 = t.val
    omega
  · intro j hj
    have hq := (mem_filter.1 hj).2
    refine Fin.ext ?_
    show t.val * 8 + j.val % 8 = j.val
    omega
  · intro e _
    refine Fin.ext ?_
    have := e.isLt
    show (t.val * 8 + e.val) % 8 = e.val
    omega
  · intro j hj
    have hq := (mem_filter.1 hj).2
    show H (j.val / 8) (j.val % 8) = H t.val (j.val % 8)
    rw [hq]

end Cert.Moe.Sorted
-- ==== Proof.RefWords.lean ====
/-
  Small facts about 32-bit index words and one-bit masks, and the dispatch sum over typed indices.

  A natural number below 2^31 written as a 32-bit word reads back, signed, as itself; it is therefore not below zero, and
  it is at most a bound it does not exceed.  An "and" over one-bit words that are all 1, started from 1, is 1.
-/
import Idealize.ShloMosaic.PureOps.Reduce
import Idealize.ShloMosaic.Lib.ValueIdx
import proofs.«181126_g60644938220147_cont_9to1c4b_99_20_alg».proof.Proof.SortedBlocks

open scoped BigOperators

namespace Cert.Moe.Words

open Idealize.ShloMosaic

/-- A natural number below 2^31, as a 32-bit word, reads signed as itself. -/
theorem toInt_ofNat (a : ℕ) (ha : a < 2147483648) : (BitVec.ofNat 32 a).toInt = (a : ℤ) := by
  unfold BitVec.toInt
  rw [BitVec.toNat_ofNat]
  have h1 : a % 2 ^ 32 = a := Nat.mod_eq_of_lt (by omega)
  rw [h1, if_pos (by omega)]

/-- The clamp of such a word's signed reading into `[0, n - 1]` is the number itself when it is below `n`. -/
theorem clamp_ofNat (a n : ℕ) (ha : a < 2147483648) (hn : a < n) :
    min (BitVec.ofNat 32 a).toInt.toNat (n - 1) = a := by
  rw [toInt_ofNat a ha]
  omega

/-- Zero is signed-at-most such a word. -/
theorem sge_zero (a : ℕ) (ha : a < 2147483648) : IntOp.cmpi .sge (BitVec.ofNat 32 a) 0#32 = 1#1 := by
  show BitVec.ofBool ((0#32 : BitVec 32).sle (BitVec.ofNat 32 a)) = 1#1
  have h0 : (0#32 : BitVec 32).toInt = 0 := by decide
  have h : (0#32 : BitVec 32).sle (BitVec.ofNat 32 a) = true := by
    rw [BitVec.sle, h0, toInt_ofNat a ha]
    exact decide_eq_true (by omega)
  rw [h]
  rfl

/-- Such a word is signed-at-most the word of a bound it does not exceed. -/
theorem sle_bound (a b : ℕ) (hb : b < 2147483648) (hab : a ≤ b) :
    IntOp.cmpi .sle (BitVec.ofNat 32 a) (BitVec.ofNat 32 b) = 1#1 := by
  show BitVec.ofBool ((BitVec.ofNat 32 a).sle (BitVec.ofNat 32 b)) = 1#1
  have h : (BitVec.ofNat 32 a).sle (BitVec.ofNat 32 b) = true := by
    rw [BitVec.sle, toInt_ofNat a (by omega), toInt_ofNat b hb]
    exact decide_eq_true (by omega)
  rw [h]
  rfl

/-- A left fold by "and" over one-bit words that are all 1, from 1, is 1. -/
theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a]
    exact foldl_andi_one f hf l

/-- An "and"-reduction of an array of ones, from one, is one at every result index. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  rw [Host.reduce_eq_foldl, hi]
  exact foldl_andi_one x hx _

open Finset in
/-- The dispatch sum with typed indices: along a bijection `σ` of the 65536 places, summing over the places whose source
    has quotient `t` by 8 a function of (quotient, remainder) gives its sum over the eight remainders at `t`. -/
theorem sum_dispatch_fin {M : Type*} [AddCommMonoid M] (σ : Fin 65536 → Fin 65536) (hσ : Function.Bijective σ)
    (H : Fin 8192 → Fin 8 → M) (t : Fin 8192) :
    ∑ k ∈ univ.filter (fun k : Fin 65536 => (σ k).val / 8 = t.val),
        H ⟨(σ k).val / 8, by have := (σ k).isLt; omega⟩ ⟨(σ k).val % 8, Nat.mod_lt _ (by norm_num)⟩
      = ∑ e : Fin 8, H t e := by
  have key := Cert.Moe.Sorted.sum_dispatch σ hσ
    (fun r e => if h : r < 8192 ∧ e < 8 then H ⟨r, h.1⟩ ⟨e, h.2⟩ else 0) t
  refine Eq.trans (Finset.sum_congr rfl fun k _ => ?_) (key.trans (Finset.sum_congr rfl fun e _ => ?_))
  · have h1 : (σ k).val / 8 < 8192 := by have := (σ k).isLt; omega
    have h2 : (σ k).val % 8 < 8 := Nat.mod_lt _ (by norm_num)
    show _ = dite _ _ _
    rw [dif_pos (⟨h1, h2⟩ : (σ k).val / 8 < 8192 ∧ (σ k).val % 8 < 8)]
  · show dite _ _ _ = _
    rw [dif_pos (⟨t.isLt, e.isLt⟩ : t.val < 8192 ∧ e.val < 8)]

end Cert.Moe.Words
-- ==== Proof.RefGather.lean ====
/-
  The reference's gathers, read at one visited pair.

  Everything here is stated relative to ONE description of the dispatch indices: a map `perm` of the 65536 visited places to
  the (token, expert) pairs, place `k` visiting token `perm k / 8` and expert `k / 8192`.  Given that description, the index
  columns fed to the gathers hold those two numbers, every visited token number is in range (so the out-of-range fill is never
  taken), the gathered row of `x` at place `k` is row `perm k / 8`, and the two gate gathers read entry
  `(perm k / 8, k / 8192)` of their operand.
-/
import proofs.«181126_g60644938220147_cont_9to1c4b_99_20_alg».proof.Proof.RefStages
import proofs.«181126_g60644938220147_cont_9to1c4b_99_20_alg».proof.Proof.LibScatterGather
import proofs.«181126_g60644938220147_cont_9to1c4b_99_20_alg».proof.Proof.LibGatherPair
import proofs.«181126_g60644938220147_cont_9to1c4b_99_20_alg».proof.Proof.RefWords
import Idealize.ShloMosaic.Lib.Pipeline.Value
import Idealize.ShloMosaic.Lib.ValueIdx

noncomputable section

namespace Cert.ReferenceIdeal.Dispatch

open Idealize.ShloMosaic Idealize.ShloMosaic.ValueIdx Cert.ReferenceIdeal Cert.ReferenceIdeal.Stages
open Cert.ReferenceIdeal.Facts₀ Cert.ReferenceIdeal.Facts

variable [Cert.ReferenceIdeal.Facts]

/-- What the float stages need to know of the dispatch indices: `perm` is a bijection of the places, the expert of place
    `k` is both `perm k mod 8` and `k / 8192`, and the two normalised index vectors hold `perm k / 8` and `k / 8192`. -/
structure IndexFacts (perm : Fin 65536 → Fin 65536) : Prop where
  bij : Function.Bijective perm
  key : ∀ k : Fin 65536, (perm k).val % 8 = k.val / 8192
  row : ∀ k : Fin 65536, Stages.wrap 8192#32 Stages.batchIdx (ix1 k) = BitVec.ofNat 32 ((perm k).val / 8)
  exp : ∀ k : Fin 65536, Stages.wrap 8#32 Stages.expertIdx (ix1 k) = BitVec.ofNat 32 (k.val / 8192)

/-- The token visited at place `k`. -/
def tok (perm : Fin 65536 → Fin 65536) (k : Fin 65536) : Fin 8192 :=
  ⟨(perm k).val / 8, by have := (perm k).isLt; omega⟩

/-- The expert visited at place `k`. -/
def expert (k : Fin 65536) : Fin 8 := ⟨k.val / 8192, by have := k.isLt; omega⟩

/-- A vector as a one-column matrix, read at row `k`. -/
theorem col_at {e : EltTy} (v : T S65536 e) (k : Fin 65536) : Stages.col (e := e) v (ix2 k (0 : Fin 1)) = v (ix1 k) := by
  unfold Stages.col
  refine broadcastInDim_apply _ _ v _ (ix1 k) ?_
  intro a
  match a with
  | ⟨0, _⟩ =>
    show k.val = if (65536 : ℕ) = 1 then 0 else k.val
    rw [if_neg (by decide)]

/-- The row-index column holds the visited token's number. -/
theorem rowCol_at {perm : Fin 65536 → Fin 65536} (hf : IndexFacts perm) (k : Fin 65536) :
    Stages.col (e := .i32) (Stages.wrap 8192#32 Stages.batchIdx) (ix2 k (0 : Fin 1))
      = BitVec.ofNat 32 (tok perm k).val := by
  rw [col_at, hf.row k]
  rfl

/-- The (token, expert) index matrix, token column. -/
theorem pairIdx_tok {perm : Fin 65536 → Fin 65536} (hf : IndexFacts perm) (k : Fin 65536) :
    Stages.pairIdx (ix2 k (0 : Fin 2)) = BitVec.ofNat 32 (tok perm k).val := by
  have h := concatenate_pair_apply_left (t := S65536x2) (s₁ := S65536x1) (s₂ := S65536x1) (1 : Fin 2)
    (Stages.col (e := .i32) (Stages.wrap 8192#32 Stages.batchIdx)) (Stages.col (e := .i32) (Stages.wrap 8#32 Stages.expertIdx))
    concatenates_S65536x1_S65536x1_S65536x2_d1 (ix2 k (0 : Fin 2)) rfl (ix2 k (0 : Fin 1))
    (by intro b; match b with | ⟨0, _⟩ => rfl | ⟨1, _⟩ => rfl)
  unfold Stages.pairIdx
  exact h.trans (rowCol_at hf k)

/-- The (token, expert) index matrix, expert column. -/
theorem pairIdx_expert {perm : Fin 65536 → Fin 65536} (hf : IndexFacts perm) (k : Fin 65536) :
    Stages.pairIdx (ix2 k (1 : Fin 2)) = BitVec.ofNat 32 (expert k).val := by
  have h := concatenate_pair_apply_right (t := S65536x2) (s₁ := S65536x1) (s₂ := S65536x1) (1 : Fin 2)
    (Stages.col (e := .i32) (Stages.wrap 8192#32 Stages.batchIdx)) (Stages.col (e := .i32) (Stages.wrap 8#32 Stages.expertIdx))
    concatenates_S65536x1_S65536x1_S65536x2_d1 (ix2 k (1 : Fin 2)) rfl rfl (ix2 k (0 : Fin 1))
    (by intro b hb; match b, hb with | ⟨0, _⟩, _ => rfl | ⟨1, _⟩, hb => exact absurd rfl hb)
    rfl
  unfold Stages.pairIdx
  refine h.trans ?_
  rw [col_at, hf.exp k]
  rfl

/-- Every visited token number is in range: the mask of the row gather is all ones. -/
theorem takeMask_at {perm : Fin 65536 → Fin 65536} (hf : IndexFacts perm) (k : Fin 65536) :
    Stages.takeMask (ix1 k) = 1#1 := by
  unfold Stages.takeMask
  refine Cert.Moe.Words.reduce_andi_one _ _ _ _ _ ?_ (fun _ => rfl)
  intro i
  obtain ⟨p, q, rfl⟩ : ∃ (p : Fin 65536) (q : Fin 1), i = ix2 p q := ⟨i 0, i 1, eq_ix2 i⟩
  obtain rfl : q = 0 := Subsingleton.elim _ _
  show IntOp.andi
      (IntOp.cmpi .sge (Stages.col (e := .i32) (Stages.wrap 8192#32 Stages.batchIdx) (ix2 p (0 : Fin 1))) 0#32)
      (IntOp.cmpi .sle (Stages.col (e := .i32) (Stages.wrap 8192#32 Stages.batchIdx) (ix2 p (0 : Fin 1))) 8191#32) = 1#1
  rw [rowCol_at hf]
  have hlt := (tok perm p).isLt
  rw [Cert.Moe.Words.sge_zero _ (by omega)]
  have h8 : (8191#32 : BitVec 32) = BitVec.ofNat 32 8191 := rfl
  rw [h8, Cert.Moe.Words.sle_bound _ 8191 (by norm_num) (by omega)]
  rfl

/-- The gathered rows of `x`: place `k` holds the row of its visited token. -/
theorem taken_at {perm : Fin 65536 → Fin 65536} (hf : IndexFacts perm) (x : T S8192x768 .f32) (k : Fin 65536) (d : Fin 768) :
    Stages.taken x (ix2 k d) = x (ix2 (tok perm k) d) := by
  unfold Stages.taken
  rw [select_apply]
  have hm : broadcastInDim S65536x768 ![0] bcast_S65536_S65536x768_0 Stages.takeMask (ix2 k d) = 1#1 := by
    rw [broadcastInDim_apply _ _ Stages.takeMask (ix2 k d) (ix1 k)
      (by intro a; match a with
          | ⟨0, _⟩ =>
            show k.val = if (65536 : ℕ) = 1 then 0 else k.val
            rw [if_neg (by decide)])]
    exact takeMask_at hf k
  rw [hm, select_one]
  rw [Cert.ScatterGather.gather2_apply (N := 8192) (E := 65536) (C := 768) (w := 32) (by norm_num)
    gather_S8192x768_S65536x1_S65536x768_1_0_n_n_0_1_1768 rfl rfl rfl rfl rfl rfl rfl x _ k d]
  refine congrArg x (congrArg (fun r : Fin 8192 => ix2 r d) (Fin.ext ?_))
  show min (Stages.col (e := .i32) (Stages.wrap 8192#32 Stages.batchIdx) (ix2 k ⟨0, Nat.one_pos⟩)).toInt.toNat (8192 - 1) = (tok perm k).val
  have h0 : (⟨0, Nat.one_pos⟩ : Fin 1) = 0 := rfl
  rw [h0, rowCol_at hf k]
  exact Cert.Moe.Words.clamp_ofNat _ 8192 (by have := (tok perm k).isLt; omega) (tok perm k).isLt

/-- A gather by (token, expert) pairs: place `k` reads entry (visited token, visited expert) of the operand. -/
theorem pairGather_at {perm : Fin 65536 → Fin 65536} (hf : IndexFacts perm) (v : T S8192x8 .f32) (k : Fin 65536) :
    Host.gather gather_S8192x8_S65536x2_S65536_n_01_n_n_01_1_11 v Stages.pairIdx (ix1 k)
      = v (ix2 (tok perm k) (expert k)) := by
  rw [Cert.GatherPair.gatherPair_apply (N := 8192) (M := 8) (E := 65536) (w := 32) (by norm_num) (by norm_num)
    gather_S8192x8_S65536x2_S65536_n_01_n_n_01_1_11 rfl rfl rfl rfl rfl rfl rfl v Stages.pairIdx k]
  refine congrArg v (congrArg₂ (fun (r : Fin 8192) (c : Fin 8) => ix2 r c) (Fin.ext ?_) (Fin.ext ?_))
  · show min (Stages.pairIdx (ix2 k (0 : Fin 2))).toInt.toNat (8192 - 1) = (tok perm k).val
    rw [pairIdx_tok hf k]
    exact Cert.Moe.Words.clamp_ofNat _ 8192 (by have := (tok perm k).isLt; omega) (tok perm k).isLt
  · show min (Stages.pairIdx (ix2 k (1 : Fin 2))).toInt.toNat (8 - 1) = (expert k).val
    rw [pairIdx_expert hf k]
    exact Cert.Moe.Words.clamp_ofNat _ 8 (by have := (expert k).isLt; omega) (expert k).isLt

/-- The given gate at place `k`. -/
theorem gatesAt_at {perm : Fin 65536 → Fin 65536} (hf : IndexFacts perm) (gates : T S8192x8 .f32) (k : Fin 65536) :
    Stages.gatesAt gates (ix1 k) = gates (ix2 (tok perm k) (expert k)) := by
  unfold Stages.gatesAt
  exact pairGather_at hf gates k

/-- The learned gate at place `k`. -/
theorem gateAt_at {perm : Fin 65536 → Fin 65536} (hf : IndexFacts perm) (x : T S8192x768 .f32) (wg : T S768x8 .f32)
    (bg : T S8 .f32) (k : Fin 65536) :
    Stages.gateAt x wg bg (ix1 k) = Stages.logits x wg bg (ix2 (tok perm k) (expert k)) := by
  unfold Stages.gateAt
  exact pairGather_at hf (Stages.logits x wg bg) k

end Cert.ReferenceIdeal.Dispatch

end
-- ==== Proof.RefIndex.lean ====
/-
  The dispatch indices of the reference, as arrays of 32-bit words over the 65536 (token, expert) pairs.

  Pair `k` (tokens outer, experts inner) has token row `k / 8` and expert column `k mod 8`.  The pairs are then sorted by
  their expert column (a stable sort carrying the positions `0 … 65535`), and the token rows and expert columns are read
  back through the sorted positions, each index first passed through the "add the extent where negative" wrap.
-/
import proofs.«181126_g60644938220147_cont_9to1c4b_99_20_alg».proof.ReferenceIdeal

noncomputable section

namespace Cert.ReferenceIdeal.Idx

open Idealize.ShloMosaic Cert.ReferenceIdeal

variable [Cert.ReferenceIdeal.Facts]
open Cert.ReferenceIdeal.Facts₀ Cert.ReferenceIdeal.Facts

/-- The token row of each pair: the row numbers `0 … 8191`, each repeated over the eight experts, flattened. -/
def rows : IVec S65536 32 :=
  shapeCast S65536 (broadcastInDim S8192x8 ![0] bcast_S8192_S8192x8_0 (iotaInDim S8192 32 0)) shapeCasts_S8192x8_S65536

/-- The expert column of each pair: the column numbers `0 … 7`, repeated for every token, flattened. -/
def cols : IVec S65536 32 :=
  shapeCast S65536 (broadcastInDim S8192x8 ![0, 1] bcast_S1x8_S8192x8_0_1
    (shapeCast S1x8 (iotaInDim S8 32 0) shapeCasts_S8_S1x8)) shapeCasts_S8192x8_S65536

/-- The positions of the pairs in the order of a stable sort by expert column. -/
def order : IVec S65536 32 :=
  (Host.sort2 S65536 0 comparator_i32_i32_d0 cols (iotaInDim S65536 32 0)).2

/-- An index with the extent `n` added where it is negative. -/
def wrap (n : BitVec 32) (v : IVec S65536 32) : IVec S65536 32 :=
  select (cmpi .slt v (broadcastInDim S65536 ![] bcast_S_S65536 (constantI S_ 32 0#32)))
    (addi v (broadcastInDim S65536 ![] bcast_S_S65536 (constantI S_ 32 n))) v

/-- A vector of indices as a one-column matrix of start indices. -/
def col {α : Type} (v : S65536.Idx → α) : S65536x1.Idx → α :=
  broadcastInDim S65536x1 ![0] bcast_S65536_S65536x1_0 v

/-- The token row of the pair at each sorted position. -/
def batchIdx : IVec S65536 32 :=
  Host.gather gather_S65536_S65536x1_S65536_n_0_n_n_0_1_1 rows (col (wrap 65536#32 order))

/-- The expert column of the pair at each sorted position. -/
def expertIdx : IVec S65536 32 :=
  Host.gather gather_S65536_S65536x1_S65536_n_0_n_n_0_1_1 cols (col (wrap 65536#32 order))

end Cert.ReferenceIdeal.Idx

end
-- ==== Proof.RefIndexValues.lean ====
/-
  The reference's dispatch indices, read at one (token, expert) pair.

  Pair `k` of the 65536 = 8192 · 8 pairs (tokens outer, experts inner) has token row `k / 8` and expert column
  `k mod 8`: the flattening of an `[8192, 8]` array is row-major.  The pairs are sorted by expert column by a stable
  sort that carries the positions along; the carried positions are a bijection `perm` of the 65536 places along which
  the expert column is nondecreasing, so place `k` holds a pair of expert column `k / 8192`.  Reading the rows and
  the columns back through the sorted positions therefore gives, at place `k`, the token row `perm k / 8` and the
  expert column `k / 8192`.  Every index that occurs is below 2³¹, so the "add the extent where negative" wrap
  leaves it alone and its signed and unsigned readings agree.
-/
import proofs.«181126_g60644938220147_cont_9to1c4b_99_20_alg».proof.Proof.RefIndex
import proofs.«181126_g60644938220147_cont_9to1c4b_99_20_alg».proof.Proof.SortedBlocks
import proofs.«181126_g60644938220147_cont_9to1c4b_99_20_alg».proof.Proof.LibScatterGather
import Idealize.ShloMosaic.Lib.SortFacts
import Idealize.ShloMosaic.Lib.Affine
import Idealize.ShloMosaic.Lib.ValueIdx
import Idealize.ShloMosaic.Lib.Pipeline.Value
import Idealize.ShloMosaic.Lib.ValueLayout

noncomputable section

namespace Cert.ReferenceIdeal.IdxValues

open Idealize.ShloMosaic Idealize.ShloMosaic.ValueIdx Cert.ReferenceIdeal

variable [Cert.ReferenceIdeal.Facts]
open Cert.ReferenceIdeal.Facts₀ Cert.ReferenceIdeal.Facts

/-! ## Token row and expert column of a pair -/

/-- Position `k` of the flattened `[8192, 8]` array is row `k / 8`, column `k mod 8`. -/
theorem flat_pos (k : Fin 65536) (hq : k.val / 8 < 8192) (hr : k.val % 8 < 8) :
    (S8192x8.rowMajor (ix2 (⟨k.val / 8, hq⟩ : Fin 8192) (⟨k.val % 8, hr⟩ : Fin 8))).val
      = (S65536.rowMajor (ix1 k)).val := by
  rw [Shape.rowMajor_val_two, Shape.rowMajor_val_one]
  show k.val / 8 * 8 + k.val % 8 = k.val
  omega

/-- The token row of pair `k` is `k / 8`. -/
theorem rows_apply (k : Fin 65536) : Idx.rows (ix1 k) = BitVec.ofNat 32 (k.val / 8) := by
  have hq : k.val / 8 < 8192 := by have := k.isLt; omega
  have hr : k.val % 8 < 8 := Nat.mod_lt _ (by norm_num)
  unfold Idx.rows
  refine (shapeCast_apply _ shapeCasts_S8192x8_S65536 (ix1 k)
    (ix2 (⟨k.val / 8, hq⟩ : Fin 8192) (⟨k.val % 8, hr⟩ : Fin 8)) (flat_pos k hq hr)).trans ?_
  refine (broadcastInDim_apply ![0] bcast_S8192_S8192x8_0 _ _ (ix1 (⟨k.val / 8, hq⟩ : Fin 8192)) ?_).trans ?_
  · intro a
    obtain rfl : a = 0 := Subsingleton.elim _ _
    rw [if_neg (by decide)]
    rfl
  · rfl

/-- The expert column of pair `k` is `k mod 8`. -/
theorem cols_apply (k : Fin 65536) : Idx.cols (ix1 k) = BitVec.ofNat 32 (k.val % 8) := by
  have hq : k.val / 8 < 8192 := by have := k.isLt; omega
  have hr : k.val % 8 < 8 := Nat.mod_lt _ (by norm_num)
  unfold Idx.cols
  refine (shapeCast_apply _ shapeCasts_S8192x8_S65536 (ix1 k)
    (ix2 (⟨k.val / 8, hq⟩ : Fin 8192) (⟨k.val % 8, hr⟩ : Fin 8)) (flat_pos k hq hr)).trans ?_
  refine (broadcastInDim_apply ![0, 1] bcast_S1x8_S8192x8_0_1 _ _
    (ix2 (0 : Fin 1) (⟨k.val % 8, hr⟩ : Fin 8)) ?_).trans ?_
  · intro a
    match a with
    | ⟨0, _⟩ => exact (if_pos rfl).symm
    | ⟨1, _⟩ => exact (if_neg (fun h : (8 : Nat) = 1 => absurd h (by decide))).symm
  · exact (shapeCast_a_1a_apply _ shapeCasts_S8_S1x8 (0 : Fin 1) (⟨k.val % 8, hr⟩ : Fin 8)).trans rfl

/-! ## Words below 2³¹ -/

/-- A natural number below 2³¹, as a 32-bit word, reads back signed as itself. -/
theorem toInt_ofNat_of_lt (a : Nat) (ha : a < 2147483648) : (BitVec.ofNat 32 a).toInt = (a : Int) := by
  rw [BitVec.toInt_eq_toNat_cond, BitVec.toNat_ofNat]
  have h : a % 2 ^ 32 = a := Nat.mod_eq_of_lt (by omega)
  rw [h]
  split <;> omega

/-! ## The sorting permutation -/

/-- Pair `a` sorts strictly before pair `b`: the comparator (signed less-than on the keys, the carried positions
ignored) on the two (expert column, position) entries. -/
def before (a b : Fin 65536) : Bool :=
  comparator_i32_i32_d0 (Idx.cols (ix1 a), iotaInDim S65536 32 0 (ix1 a))
    (Idx.cols (ix1 b), iotaInDim S65536 32 0 (ix1 b)) == 1#1

/-- The pair that the stable sort by expert column puts at place `k`. -/
def perm : Fin 65536 → Fin 65536 := sortedFrom before

/-- Sorting strictly before is having the smaller expert column. -/
theorem before_iff (a b : Fin 65536) : before a b = true ↔ a.val % 8 < b.val % 8 := by
  have ha : a.val % 8 < 2147483648 := by omega
  have hb : b.val % 8 < 2147483648 := by omega
  unfold before comparator_i32_i32_d0
  rw [beq_iff_eq]
  dsimp only
  rw [IntOp.cmpi_slt, cols_apply, cols_apply, toInt_ofNat_of_lt _ ha, toInt_ofNat_of_lt _ hb]
  omega

theorem before_eq_false_iff (a b : Fin 65536) : before a b = false ↔ b.val % 8 ≤ a.val % 8 := by
  rw [← Bool.not_eq_true, before_iff]
  omega

/-- On a rank-1 shape the second result of a two-operand stable sort along axis 0 reads its operand through one
self-map of the positions: the sorting permutation of the comparator on the (first, second) entries. -/
theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The rank-1 index at a coordinate, in its two spellings. -/
theorem ofFin_eq_ix1 {n : Nat} (k : Fin n) : Shape.Idx.ofFin k = ix1 k := by
  funext d
  match d with
  | ⟨0, _⟩ => rfl

/-- The carried positions after the sort: place `k` holds the position `perm k`. -/
theorem order_apply (k : Fin 65536) : Idx.order (ix1 k) = BitVec.ofNat 32 (perm k).val := by
  unfold Idx.order
  refine (sort2_rank1_snd comparator_i32_i32_d0 Idx.cols (iotaInDim S65536 32 0) (ix1 k)).trans ?_
  simp only [ofFin_eq_ix1]
  rfl

theorem perm_bijective : Function.Bijective perm :=
  ⟨sortedFrom_injective before, sortedFrom_surjective before⟩

/-- Along the sorted places the expert column is nondecreasing. -/
theorem perm_mono (i j : Fin 65536) (hij : i ≤ j) : (perm i).val % 8 ≤ (perm j).val % 8 := by
  rcases lt_or_eq_of_le hij with hlt | rfl
  · have h := sortedFrom_noInversion before before
      (fun a b hab => (before_eq_false_iff b a).2 (le_of_lt ((before_iff a b).1 hab)))
      (fun _ _ hab => hab)
      (fun a b c hab hbc => (before_eq_false_iff a c).2
        (le_trans ((before_eq_false_iff b c).1 hbc) ((before_eq_false_iff a b).1 hab)))
      i j hlt
    exact (before_eq_false_iff (perm j) (perm i)).1 h
  · exact le_refl _

/-- Each expert column occurs 8192 times, so place `k` holds a pair of expert column `k / 8192`. -/
theorem perm_key (k : Fin 65536) : (perm k).val % 8 = k.val / 8192 :=
  Cert.Moe.Sorted.key_at perm perm_bijective perm_mono k

attribute [irreducible] perm

/-! ## The wrap and the column of start indices -/

/-- The wrap keeps an index that is below 2³¹: such a word is not negative. -/
theorem wrap_of_nat (k : Fin 65536) (v : IVec S65536 32) (n : BitVec 32) (a : Nat) (ha : a < 2147483648)
    (hv : v (ix1 k) = BitVec.ofNat 32 a) : Idx.wrap n v (ix1 k) = BitVec.ofNat 32 a := by
  have hc : IntOp.cmpi .slt (v (ix1 k)) 0#32 = 0#1 := by
    refine eq_zero_of_ne_one ?_
    rw [IntOp.cmpi_slt, hv, toInt_ofNat_of_lt a ha]
    show ¬ ((a : Int) < 0)
    omega
  show Scalar.select (IntOp.cmpi .slt (v (ix1 k)) 0#32) _ (v (ix1 k)) = _
  rw [hc, select_zero, hv]

/-- The one-column matrix of start indices holds, in row `k`, the index at place `k`. -/
theorem col_apply {α : Type} (v : S65536.Idx → α) (k : Fin 65536) :
    Idx.col v (ix2 k (⟨0, Nat.one_pos⟩ : Fin 1)) = v (ix1 k) := by
  unfold Idx.col
  refine broadcastInDim_apply ![0] bcast_S65536_S65536x1_0 v _ (ix1 k) ?_
  intro a
  obtain rfl : a = 0 := Subsingleton.elim _ _
  exact (if_neg (fun h : (65536 : Nat) = 1 => absurd h (by decide))).symm

/-- The start index of the two read-backs at place `k` is `perm k`, as a word and as a clamped natural number. -/
theorem start_apply (k : Fin 65536) :
    Idx.col (Idx.wrap 65536#32 Idx.order) (ix2 k (⟨0, Nat.one_pos⟩ : Fin 1)) = BitVec.ofNat 32 (perm k).val := by
  rw [col_apply]
  exact wrap_of_nat k _ _ _ (by have := (perm k).isLt; omega) (order_apply k)

theorem start_clamped (k : Fin 65536)
    (p : min (Idx.col (Idx.wrap 65536#32 Idx.order) (ix2 k (⟨0, Nat.one_pos⟩ : Fin 1))).toInt.toNat (65536 - 1) < 65536) :
    (⟨min (Idx.col (Idx.wrap 65536#32 Idx.order) (ix2 k (⟨0, Nat.one_pos⟩ : Fin 1))).toInt.toNat (65536 - 1), p⟩ : Fin 65536)
      = perm k := by
  refine Fin.ext ?_
  show min (Idx.col (Idx.wrap 65536#32 Idx.order) (ix2 k (⟨0, Nat.one_pos⟩ : Fin 1))).toInt.toNat (65536 - 1) = (perm k).val
  have hlt := (perm k).isLt
  rw [start_apply, toInt_ofNat_of_lt _ (by omega)]
  generalize (perm k).val = m at hlt ⊢
  omega

/-! ## Token row and expert column at a sorted place -/

/-- The token row read back at place `k` is that of the pair `perm k`. -/
theorem batchIdx_apply (k : Fin 65536) : Idx.batchIdx (ix1 k) = BitVec.ofNat 32 ((perm k).val / 8) := by
  unfold Idx.batchIdx
  refine (Cert.ScatterGather.gather1_apply (by norm_num) gather_S65536_S65536x1_S65536_n_0_n_n_0_1_1
    rfl rfl rfl rfl rfl rfl rfl Idx.rows (Idx.col (Idx.wrap 65536#32 Idx.order)) k).trans ?_
  exact (congrArg (fun t => Idx.rows (ix1 t)) (start_clamped k _)).trans (rows_apply (perm k))

/-- The expert column read back at place `k` is `k / 8192`. -/
theorem expertIdx_apply (k : Fin 65536) : Idx.expertIdx (ix1 k) = BitVec.ofNat 32 (k.val / 8192) := by
  unfold Idx.expertIdx
  refine (Cert.ScatterGather.gather1_apply (by norm_num) gather_S65536_S65536x1_S65536_n_0_n_n_0_1_1
    rfl rfl rfl rfl rfl rfl rfl Idx.cols (Idx.col (Idx.wrap 65536#32 Idx.order)) k).trans ?_
  refine (congrArg (fun t => Idx.cols (ix1 t)) (start_clamped k _)).trans ?_
  rw [cols_apply, perm_key]

/-- Both read-backs are below 2³¹, so their wraps leave them alone. -/
theorem wrap_batchIdx_apply (k : Fin 65536) :
    Idx.wrap 8192#32 Idx.batchIdx (ix1 k) = BitVec.ofNat 32 ((perm k).val / 8) :=
  wrap_of_nat k _ _ _ (by have := (perm k).isLt; omega) (batchIdx_apply k)

theorem wrap_expertIdx_apply (k : Fin 65536) :
    Idx.wrap 8#32 Idx.expertIdx (ix1 k) = BitVec.ofNat 32 (k.val / 8192) :=
  wrap_of_nat k _ _ _ (by have := k.isLt; omega) (expertIdx_apply k)

end Cert.ReferenceIdeal.IdxValues

end
-- ==== Proof.RefBridge.lean ====
/-
  The two spellings of the reference's dispatch indices are the same arrays.
-/
import proofs.«181126_g60644938220147_cont_9to1c4b_99_20_alg».proof.Proof.RefStages
import proofs.«181126_g60644938220147_cont_9to1c4b_99_20_alg».proof.Proof.RefIndex

noncomputable section

namespace Cert.ReferenceIdeal.Bridge

open Idealize.ShloMosaic Cert.ReferenceIdeal

variable [Cert.ReferenceIdeal.Facts]

theorem rows_eq : Stages.pairRows = Idx.rows := rfl
theorem cols_eq : Stages.pairCols = Idx.cols := rfl
theorem order_eq : Stages.order = Idx.order := rfl
theorem wrap_eq (n : BitVec 32) (v : IVec S65536 32) : Stages.wrap n v = Idx.wrap n v := rfl
theorem col_eq (v : IVec S65536 32) : Stages.col (e := .i32) v = Idx.col v := rfl
theorem batchIdx_eq : Stages.batchIdx = Idx.batchIdx := rfl
theorem expertIdx_eq : Stages.expertIdx = Idx.expertIdx := rfl

end Cert.ReferenceIdeal.Bridge

end
-- ==== Proof.RefIndexFacts.lean ====
/-
  The dispatch indices satisfy the description the float stages rely on: the sorting permutation is a bijection of the places,
  the expert of place `k` is `k / 8192`, and the normalised index vectors hold the visited token and expert numbers.
-/
import proofs.«181126_g60644938220147_cont_9to1c4b_99_20_alg».proof.Proof.RefGather
import proofs.«181126_g60644938220147_cont_9to1c4b_99_20_alg».proof.Proof.RefIndexValues
import proofs.«181126_g60644938220147_cont_9to1c4b_99_20_alg».proof.Proof.RefBridge

noncomputable section

namespace Cert.ReferenceIdeal.Dispatch

open Idealize.ShloMosaic Idealize.ShloMosaic.ValueIdx Cert.ReferenceIdeal

variable [Cert.ReferenceIdeal.Facts]

theorem indexFacts : IndexFacts IdxValues.perm where
  bij := IdxValues.perm_bijective
  key := IdxValues.perm_key
  row k := by
    rw [Bridge.batchIdx_eq, Bridge.wrap_eq]
    exact IdxValues.wrap_batchIdx_apply k
  exp k := by
    rw [Bridge.expertIdx_eq, Bridge.wrap_eq]
    exact IdxValues.wrap_expertIdx_apply k

end Cert.ReferenceIdeal.Dispatch

end
-- ==== Proof.RefFloatStages.lean ====
/-
  The reference's float stages read at an index.  A vector made a one-column matrix, a one-column matrix copied
  across 64 columns, and the two reshapes between 65536 rows and 8 blocks of 8192 rows (row-major: flat row k is
  row k % 8192 of block k / 8192) are each the operand at the matching index.  The two matrix products are the sum,
  over the contracted coordinate, of the operands' products, and each bias is added at its own column.  Together these
  give the scaled row of the k-th visited pair as the expert's affine map of the visited token row, times the two gates.
-/
import proofs.«181126_g60644938220147_cont_9to1c4b_99_20_alg».proof.Proof.RefStages
import proofs.«181126_g60644938220147_cont_9to1c4b_99_20_alg».proof.Proof.MoeSpec
import proofs.«181126_g60644938220147_cont_9to1c4b_99_20_alg».proof.Proof.LibContract1
import Idealize.ShloMosaic.Lib.ValueIdx
import Idealize.ShloMosaic.Lib.Pipeline.Value
import Idealize.ShloMosaic.PureOps.Ideal.Laws

set_option synthInstance.maxSize 4096

noncomputable section

open scoped BigOperators

namespace Cert.ReferenceIdeal.StageValues

open Idealize.ShloMosaic Idealize.ShloMosaic.ValueIdx Cert.ReferenceIdeal Cert.ReferenceIdeal.Stages
open Cert.ReferenceIdeal.Facts₀ Cert.ReferenceIdeal.Facts

variable [Cert.ReferenceIdeal.Facts]

/-! ## Layout: columns, copies across columns, and the two reshapes -/

/-- A vector as a one-column matrix, read at row `k`, is the vector at `k`. -/
theorem col_apply {e : EltTy} (v : T S65536 e) (k : Fin 65536) :
    Stages.col (e := e) v (ix2 k (0 : Fin 1)) = v (ix1 k) := by
  unfold Stages.col
  refine broadcastInDim_apply ![0] bcast_S65536_S65536x1_0 v (ix2 k (0 : Fin 1)) (ix1 k) ?_
  intro a
  match a with
  | ⟨0, _⟩ =>
    show k.val = if (65536 : ℕ) = 1 then 0 else k.val
    rw [if_neg (by decide)]

/-- A one-column matrix copied across 64 columns, read at `(k, o)`, is the column at row `k`. -/
theorem bcastCol_apply (v : T S65536x1 .f32) (k : Fin 65536) (o : Fin 64) :
    broadcastInDim S65536x64 ![0, 1] bcast_S65536x1_S65536x64_0_1 v (ix2 k o) = v (ix2 k (0 : Fin 1)) := by
  refine broadcastInDim_apply ![0, 1] bcast_S65536x1_S65536x64_0_1 v (ix2 k o) (ix2 k (0 : Fin 1)) ?_
  intro a
  match a with
  | ⟨0, _⟩ =>
    show k.val = if (65536 : ℕ) = 1 then 0 else k.val
    rw [if_neg (by decide)]
  | ⟨1, _⟩ =>
    show (0 : ℕ) = if (1 : ℕ) = 1 then 0 else o.val
    rw [if_pos rfl]

/-- Eight blocks of 8192 rows flattened to 65536 rows: flat row `k` is row `k % 8192` of block `k / 8192`. -/
theorem flat_apply (v : T S8x8192x64 .f32) (k : Fin 65536) (o : Fin 64) :
    shapeCast S65536x64 v shapeCasts_S8x8192x64_S65536x64 (ix2 k o)
      = v (ix3 (⟨k.val / 8192, by have := k.isLt; omega⟩ : Fin 8) (⟨k.val % 8192, by omega⟩ : Fin 8192) o) := by
  refine shapeCast_apply v shapeCasts_S8x8192x64_S65536x64 (ix2 k o)
    (ix3 (⟨k.val / 8192, by have := k.isLt; omega⟩ : Fin 8) (⟨k.val % 8192, by omega⟩ : Fin 8192) o) ?_
  rw [Shape.rowMajor_val_three, Shape.rowMajor_val_two]
  show (k.val / 8192 * 8192 + k.val % 8192) * 64 + o.val = k.val * 64 + o.val
  omega

/-- 65536 rows cut into eight blocks of 8192 rows: row `k % 8192` of block `k / 8192` is flat row `k`. -/
theorem chunk_apply (v : T S65536x768 .f32) (k : Fin 65536) (d : Fin 768) :
    shapeCast S8x8192x768 v shapeCasts_S65536x768_S8x8192x768
        (ix3 (⟨k.val / 8192, by have := k.isLt; omega⟩ : Fin 8) (⟨k.val % 8192, by omega⟩ : Fin 8192) d)
      = v (ix2 k d) := by
  refine shapeCast_apply v shapeCasts_S65536x768_S8x8192x768
    (ix3 (⟨k.val / 8192, by have := k.isLt; omega⟩ : Fin 8) (⟨k.val % 8192, by omega⟩ : Fin 8192) d) (ix2 k d) ?_
  rw [Shape.rowMajor_val_three, Shape.rowMajor_val_two]
  show k.val * 768 + d.val = (k.val / 8192 * 8192 + k.val % 8192) * 768 + d.val
  omega

/-! ## The two matrix products with their biases -/

/-- The gate's product: rows of `x` times columns of `W_gate`, the contracted coordinate running over 768. -/
theorem gateDot_apply (x : T S8192x768 .f32) (wg : T S768x8 .f32) (r : Fin 8192) (c : Fin 8) :
    Host.dotGeneral (F := Ideal) (φ₁ := .f32) (φ₂ := .f32) dot_S8192x768_S768x8_S8192x8_1_0_0_1_n_n none x wg (ix2 r c)
      = ∑ d : Fin 768, x (ix2 r d) * wg (ix2 d c) := by
  refine Cert.LibContract1.dotGeneral_single dot_S8192x768_S768x8_S8192x8_1_0_0_1_n_n 768 rfl rfl x wg (ix2 r c)
    (fun d => ix2 r d) (fun d => ix2 d c) ?_ ?_
  · intro k
    have hk := contrEquiv1_symm_val dot_S8192x768_S768x8_S8192x8_1_0_0_1_n_n 768 rfl rfl k
    funext a
    apply Fin.ext
    match a with
    | ⟨0, h0⟩ =>
      unfold DotDims.lhsIdx
      rw [dif_neg (show ¬(⟨0, h0⟩ : Fin S8192x768.rank) ∈ dot_S8192x768_S768x8_S8192x8_1_0_0_1_n_n.lhsBatch from List.not_mem_nil),
        dif_pos (show (⟨0, h0⟩ : Fin S8192x768.rank) ∈ dot_S8192x768_S768x8_S8192x8_1_0_0_1_n_n.lhsNonContracting from List.mem_singleton.mpr rfl)]
      rfl
    | ⟨1, _⟩ =>
      exact (dot_S8192x768_S768x8_S8192x8_1_0_0_1_n_n.lhsIdx_val_of_single rfl _ _).trans hk
  · intro k
    have hk := contrEquiv1_symm_val dot_S8192x768_S768x8_S8192x8_1_0_0_1_n_n 768 rfl rfl k
    funext a
    apply Fin.ext
    match a with
    | ⟨0, _⟩ =>
      exact (dot_S8192x768_S768x8_S8192x8_1_0_0_1_n_n.rhsIdx_val_of_single rfl _ _).trans hk
    | ⟨1, h1⟩ =>
      unfold DotDims.rhsIdx
      rw [dif_neg (show ¬(⟨1, h1⟩ : Fin S768x8.rank) ∈ dot_S8192x768_S768x8_S8192x8_1_0_0_1_n_n.rhsBatch from List.not_mem_nil),
        dif_pos (show (⟨1, h1⟩ : Fin S768x8.rank) ∈ dot_S8192x768_S768x8_S8192x8_1_0_0_1_n_n.rhsNonContracting from List.mem_singleton.mpr rfl)]
      rfl

/-- The gate's bias, made a one-row matrix and copied down 8192 rows, read at `(r, c)`, is the bias at `c`. -/
theorem gateBias_apply (bg : T S8 .f32) (r : Fin 8192) (c : Fin 8) :
    broadcastInDim S8192x8 ![0, 1] bcast_S1x8_S8192x8_0_1
        (broadcastInDim S1x8 ![1] bcast_S8_S1x8_1 bg : T S1x8 .f32) (ix2 r c) = bg (ix1 c) := by
  have e1 := broadcastInDim_apply ![0, 1] bcast_S1x8_S8192x8_0_1
    (broadcastInDim S1x8 ![1] bcast_S8_S1x8_1 bg : T S1x8 .f32) (ix2 r c) (ix2 (0 : Fin 1) c) (by
      intro a
      match a with
      | ⟨0, _⟩ =>
        show (0 : ℕ) = if (1 : ℕ) = 1 then 0 else r.val
        rw [if_pos rfl]
      | ⟨1, _⟩ =>
        show c.val = if (8 : ℕ) = 1 then 0 else c.val
        rw [if_neg (by decide)])
  have e2 := broadcastInDim_apply ![1] bcast_S8_S1x8_1 bg (ix2 (0 : Fin 1) c) (ix1 c) (by
      intro a
      match a with
      | ⟨0, _⟩ =>
        show c.val = if (8 : ℕ) = 1 then 0 else c.val
        rw [if_neg (by decide)])
  exact e1.trans e2

/-- The learned gate before the given one, at token `r` and expert `c`: the gate's linear map plus its bias. -/
theorem logits_apply (x : T S8192x768 .f32) (wg : T S768x8 .f32) (bg : T S8 .f32) (r : Fin 8192) (c : Fin 8) :
    Stages.logits x wg bg (ix2 r c) = Cert.Moe.logit x wg r c + bg (ix1 c) := by
  unfold Stages.logits
  rw [addf_apply, gateDot_apply, gateBias_apply]
  rfl

/-- The experts' product: for each expert, the rows of its block times the columns of its matrix. -/
theorem expertDot_apply (y : T S8x8192x768 .f32) (we : T S8x768x64 .f32) (e : Fin 8) (b : Fin 8192) (o : Fin 64) :
    Host.dotGeneral (F := Ideal) (φ₁ := .f32) (φ₂ := .f32) dot_S8x8192x768_S8x768x64_S8x8192x64_2_1_1_2_0_0 none y we (ix3 e b o)
      = ∑ d : Fin 768, y (ix3 e b d) * we (ix3 e d o) := by
  refine Cert.LibContract1.dotGeneral_single dot_S8x8192x768_S8x768x64_S8x8192x64_2_1_1_2_0_0 768 rfl rfl y we (ix3 e b o)
    (fun d => ix3 e b d) (fun d => ix3 e d o) ?_ ?_
  · intro k
    have hk := contrEquiv1_symm_val dot_S8x8192x768_S8x768x64_S8x8192x64_2_1_1_2_0_0 768 rfl rfl k
    funext a
    apply Fin.ext
    match a with
    | ⟨0, h0⟩ =>
      unfold DotDims.lhsIdx
      rw [dif_pos (show (⟨0, h0⟩ : Fin S8x8192x768.rank) ∈ dot_S8x8192x768_S8x768x64_S8x8192x64_2_1_1_2_0_0.lhsBatch from List.mem_singleton.mpr rfl)]
      rfl
    | ⟨1, h1⟩ =>
      unfold DotDims.lhsIdx
      rw [dif_neg (show ¬(⟨1, h1⟩ : Fin S8x8192x768.rank) ∈ dot_S8x8192x768_S8x768x64_S8x8192x64_2_1_1_2_0_0.lhsBatch from
            fun hm => absurd (congrArg Fin.val (List.mem_singleton.mp hm)) (by decide : ¬(1 : ℕ) = 0)),
        dif_pos (show (⟨1, h1⟩ : Fin S8x8192x768.rank) ∈ dot_S8x8192x768_S8x768x64_S8x8192x64_2_1_1_2_0_0.lhsNonContracting from List.mem_singleton.mpr rfl)]
      rfl
    | ⟨2, _⟩ =>
      exact (dot_S8x8192x768_S8x768x64_S8x8192x64_2_1_1_2_0_0.lhsIdx_val_of_single rfl _ _).trans hk
  · intro k
    have hk := contrEquiv1_symm_val dot_S8x8192x768_S8x768x64_S8x8192x64_2_1_1_2_0_0 768 rfl rfl k
    funext a
    apply Fin.ext
    match a with
    | ⟨0, h0⟩ =>
      unfold DotDims.rhsIdx
      rw [dif_pos (show (⟨0, h0⟩ : Fin S8x768x64.rank) ∈ dot_S8x8192x768_S8x768x64_S8x8192x64_2_1_1_2_0_0.rhsBatch from List.mem_singleton.mpr rfl)]
      rfl
    | ⟨1, _⟩ =>
      exact (dot_S8x8192x768_S8x768x64_S8x8192x64_2_1_1_2_0_0.rhsIdx_val_of_single rfl _ _).trans hk
    | ⟨2, h2⟩ =>
      unfold DotDims.rhsIdx
      rw [dif_neg (show ¬(⟨2, h2⟩ : Fin S8x768x64.rank) ∈ dot_S8x8192x768_S8x768x64_S8x8192x64_2_1_1_2_0_0.rhsBatch from
            fun hm => absurd (congrArg Fin.val (List.mem_singleton.mp hm)) (by decide : ¬(2 : ℕ) = 0)),
        dif_pos (show (⟨2, h2⟩ : Fin S8x768x64.rank) ∈ dot_S8x8192x768_S8x768x64_S8x8192x64_2_1_1_2_0_0.rhsNonContracting from List.mem_singleton.mpr rfl)]
      rfl

/-- The experts' bias, given a unit middle axis and copied down 8192 rows, read at `(e, b, o)`, is the bias at `(e, o)`. -/
theorem expertBias_apply (be : T S8x64 .f32) (e : Fin 8) (b : Fin 8192) (o : Fin 64) :
    broadcastInDim S8x8192x64 ![0, 1, 2] bcast_S8x1x64_S8x8192x64_0_1_2
        (broadcastInDim S8x1x64 ![0, 2] bcast_S8x64_S8x1x64_0_2 be : T S8x1x64 .f32) (ix3 e b o) = be (ix2 e o) := by
  have e1 := broadcastInDim_apply ![0, 1, 2] bcast_S8x1x64_S8x8192x64_0_1_2
    (broadcastInDim S8x1x64 ![0, 2] bcast_S8x64_S8x1x64_0_2 be : T S8x1x64 .f32) (ix3 e b o) (ix3 e (0 : Fin 1) o) (by
      intro a
      match a with
      | ⟨0, _⟩ =>
        show e.val = if (8 : ℕ) = 1 then 0 else e.val
        rw [if_neg (by decide)]
      | ⟨1, _⟩ =>
        show (0 : ℕ) = if (1 : ℕ) = 1 then 0 else b.val
        rw [if_pos rfl]
      | ⟨2, _⟩ =>
        show o.val = if (64 : ℕ) = 1 then 0 else o.val
        rw [if_neg (by decide)])
  have e2 := broadcastInDim_apply ![0, 2] bcast_S8x64_S8x1x64_0_2 be (ix3 e (0 : Fin 1) o) (ix2 e o) (by
      intro a
      match a with
      | ⟨0, _⟩ =>
        show e.val = if (8 : ℕ) = 1 then 0 else e.val
        rw [if_neg (by decide)]
      | ⟨1, _⟩ =>
        show o.val = if (64 : ℕ) = 1 then 0 else o.val
        rw [if_neg (by decide)])
  exact e1.trans e2

/-- Each expert applied to its block, at block `e`, row `b`, column `o`: the expert's linear map of the row plus its bias. -/
theorem expertOut_apply (x : T S8192x768 .f32) (we : T S8x768x64 .f32) (be : T S8x64 .f32)
    (e : Fin 8) (b : Fin 8192) (o : Fin 64) :
    Stages.expertOut x we be (ix3 e b o)
      = (∑ d : Fin 768, Stages.chunks x (ix3 e b d) * we (ix3 e d o)) + be (ix2 e o) := by
  unfold Stages.expertOut
  rw [addf_apply, expertDot_apply, expertBias_apply]

/-! ## The blocked visited rows -/

/-- Row `k % 8192` of block `k / 8192` of the blocked visited rows is visited row `k`. -/
theorem chunks_apply (x : T S8192x768 .f32) (k : Fin 65536) (d : Fin 768) :
    Stages.chunks x (ix3 (⟨k.val / 8192, by have := k.isLt; omega⟩ : Fin 8) (⟨k.val % 8192, by omega⟩ : Fin 8192) d)
      = Stages.taken x (ix2 k d) := by
  unfold Stages.chunks
  exact chunk_apply (Stages.taken x) k d

end Cert.ReferenceIdeal.StageValues

end
-- ==== Proof.RefScaled.lean ====
/-
  The scaled row of a visited pair.  Visited row k belongs to expert k / 8192 (the visited rows are cut into eight
  consecutive blocks of 8192, one per expert), so its scaled row at column o is that expert's affine map of the visited
  token row, times the learned gate at the pair, times the given gate at the pair.
-/
import proofs.«181126_g60644938220147_cont_9to1c4b_99_20_alg».proof.Proof.RefFloatStages

set_option synthInstance.maxSize 4096

noncomputable section

open scoped BigOperators

namespace Cert.ReferenceIdeal.StageValues

open Idealize.ShloMosaic Idealize.ShloMosaic.ValueIdx Cert.ReferenceIdeal Cert.ReferenceIdeal.Stages
open Cert.ReferenceIdeal.Facts₀ Cert.ReferenceIdeal.Facts

variable [Cert.ReferenceIdeal.Facts]

/-- The scaled row of the `k`-th visited pair at column `o`: expert `k / 8192`'s affine map of the visited token row,
    times the learned gate at the pair, times the given gate at the pair. -/
theorem scaled_apply (x : T S8192x768 .f32) (gates : T S8192x8 .f32) (wg : T S768x8 .f32) (bg : T S8 .f32)
    (we : T S8x768x64 .f32) (be : T S8x64 .f32) (k : Fin 65536) (o : Fin 64) :
    Stages.scaled x gates wg bg we be (ix2 k o)
      = (((∑ d : Fin 768, Stages.taken x (ix2 k d) * we (ix3 (⟨k.val / 8192, by have := k.isLt; omega⟩ : Fin 8) d o))
            + be (ix2 (⟨k.val / 8192, by have := k.isLt; omega⟩ : Fin 8) o))
          * Stages.gateAt x wg bg (ix1 k))
        * Stages.gatesAt gates (ix1 k) := by
  unfold Stages.scaled
  rw [mulf_apply, mulf_apply]
  refine congrArg₂ (· * ·) (congrArg₂ (· * ·) ?_ ?_) ?_
  · refine (flat_apply (Stages.expertOut x we be) k o).trans ((expertOut_apply x we be _ _ o).trans ?_)
    refine congrArg₂ (· + ·) (Finset.sum_congr rfl fun d _ => ?_) rfl
    exact congrArg₂ (· * ·) (chunks_apply x k d) rfl
  · exact (bcastCol_apply (Stages.col (e := .f32) (Stages.gateAt x wg bg)) k o).trans
      (col_apply (e := .f32) (Stages.gateAt x wg bg) k)
  · exact (bcastCol_apply (Stages.col (e := .f32) (Stages.gatesAt gates)) k o).trans
      (col_apply (e := .f32) (Stages.gatesAt gates) k)

end Cert.ReferenceIdeal.StageValues

end
-- ==== Proof.RefOut.lean ====
/-
  The reference's result is the dispatched form.

  At place `k` the scaled row is the visited expert's biased output for the visited token, times the learned gate, times the
  given gate — a function of (visited token, visited expert) alone.  The accumulating scatter adds into token row `t`, from
  zero, exactly the places that visit `t`; since the places are in bijection with the (token, expert) pairs, those are one
  place per expert, and the sum is the dispatched form's sum over the eight experts.
-/
import proofs.«181126_g60644938220147_cont_9to1c4b_99_20_alg».proof.Proof.RefGather
import proofs.«181126_g60644938220147_cont_9to1c4b_99_20_alg».proof.Proof.RefIndexFacts
import proofs.«181126_g60644938220147_cont_9to1c4b_99_20_alg».proof.Proof.RefFloatStages
import proofs.«181126_g60644938220147_cont_9to1c4b_99_20_alg».proof.Proof.RefScaled
import proofs.«181126_g60644938220147_cont_9to1c4b_99_20_alg».proof.Proof.MoeSpec
import Idealize.ShloMosaic.PureOps.Ideal.Laws

noncomputable section

open scoped BigOperators

namespace Cert.ReferenceIdeal.Dispatch

open Idealize.ShloMosaic Idealize.ShloMosaic.ValueIdx Cert.ReferenceIdeal Cert.ReferenceIdeal.Stages
open Cert.ReferenceIdeal.Facts₀ Cert.ReferenceIdeal.Facts

variable [Cert.ReferenceIdeal.Facts]

/-- One expert's term of the dispatched form at token `r`, output column `o`. -/
def term (x : T S8192x768 .f32) (gates : T S8192x8 .f32) (wg : T S768x8 .f32) (bg : T S8 .f32)
    (we : T S8x768x64 .f32) (be : T S8x64 .f32) (o : Fin 64) (r : Fin 8192) (e : Fin 8) : EReal :=
  ((Cert.Moe.lin x we r e o + be (ix2 e o)) * (Cert.Moe.logit x wg r e + bg (ix1 e))) * gates (ix2 r e)

/-- The scaled row at place `k` is the term of (visited token, visited expert). -/
theorem scaled_at {perm : Fin 65536 → Fin 65536} (hf : IndexFacts perm) (x : T S8192x768 .f32) (gates : T S8192x8 .f32)
    (wg : T S768x8 .f32) (bg : T S8 .f32) (we : T S8x768x64 .f32) (be : T S8x64 .f32) (k : Fin 65536) (o : Fin 64) :
    Stages.scaled x gates wg bg we be (ix2 k o) = term x gates wg bg we be o (tok perm k) (expert k) := by
  rw [StageValues.scaled_apply, gateAt_at hf, gatesAt_at hf, StageValues.logits_apply]
  unfold term Cert.Moe.lin
  have hs : (∑ d : Fin 768, Stages.taken x (ix2 k d) * we (ix3 (expert k) d o))
      = ∑ d : Fin 768, x (ix2 (tok perm k) d) * we (ix3 (expert k) d o) :=
    Finset.sum_congr rfl fun d _ => by rw [taken_at hf]
  exact congrArg (fun s => ((s + be (ix2 (expert k) o)) * (Cert.Moe.logit x wg (tok perm k) (expert k) + bg (ix1 (expert k))))
    * gates (ix2 (tok perm k) (expert k))) hs

/-- The accumulating scatter of rows into an [8192, 64] array, read at (t, o): the operand there plus the update rows whose
    index word reads `t`. -/
theorem scatter_rows (z : T S8192x64 .f32) (idx : T S65536x1 .i32) (u : T S65536x64 .f32) (t : Fin 8192) (o : Fin 64) :
    Host.scatterAdd (F := Ideal) (φ := .f32) scatter_S8192x64_S65536x1_S65536x64_1_0_0_1 z idx u (ix2 t o)
      = z (ix2 t o) + ∑ k ∈ Finset.univ.filter
          (fun k : Fin 65536 => (idx (ix2 k ⟨0, Nat.one_pos⟩)).toInt = (t.val : ℤ)), u (ix2 k o) :=
  Cert.ScatterGather.scatterAdd2_apply (N := 8192) (E := 65536) (C := 64) (w := 32)
    scatter_S8192x64_S65536x1_S65536x64_1_0_0_1 rfl rfl rfl rfl z idx u t o

/-- The array the scatter starts from is zero everywhere. -/
theorem zero_rows (t : Fin 8192) (o : Fin 64) :
    (broadcastInDim S8192x64 ![] bcast_S_S8192x64 (constant (F := Ideal) S_ .f32 0x00000000#32 : T S_ .f32) : T S8192x64 .f32) (ix2 t o)
      = (0 : EReal) := by
  show Ideal.ofBits .f32 0x00000000#32 = 0
  exact Ideal.ofBits_zero_f32

/-- The dispatched form at (t, o), term by term. -/
theorem routed_at (x : T S8192x768 .f32) (gates : T S8192x8 .f32) (wg : T S768x8 .f32) (bg : T S8 .f32)
    (we : T S8x768x64 .f32) (be : T S8x64 .f32) (t : Fin 8192) (o : Fin 64) :
    Cert.Moe.routed x gates wg bg we be (ix2 t o) = (0 : EReal) + ∑ e : Fin 8, term x gates wg bg we be o t e := rfl

/-- The places scattered into row `t` are those that visit token `t`. -/
theorem visits {perm : Fin 65536 → Fin 65536} (hf : IndexFacts perm) (t : Fin 8192) :
    (Finset.univ.filter fun k : Fin 65536 =>
        (Stages.col (e := .i32) (Stages.wrap 8192#32 Stages.batchIdx) (ix2 k ⟨0, Nat.one_pos⟩)).toInt = (t.val : ℤ))
      = Finset.univ.filter (fun k : Fin 65536 => (perm k).val / 8 = t.val) := by
  refine Finset.filter_congr fun k _ => ?_
  have h0 : (⟨0, Nat.one_pos⟩ : Fin 1) = 0 := rfl
  rw [h0, rowCol_at hf k, Cert.Moe.Words.toInt_ofNat _ (by have := (tok perm k).isLt; omega)]
  show ((((perm k).val / 8 : ℕ) : ℤ) = (t.val : ℤ)) ↔ _
  exact Nat.cast_inj

/-- Each place contributes the term of (its token, its expert), the expert being the source's remainder by 8. -/
theorem scaled_at_source {perm : Fin 65536 → Fin 65536} (hf : IndexFacts perm) (x : T S8192x768 .f32) (gates : T S8192x8 .f32)
    (wg : T S768x8 .f32) (bg : T S8 .f32) (we : T S8x768x64 .f32) (be : T S8x64 .f32) (k : Fin 65536) (o : Fin 64) :
    Stages.scaled x gates wg bg we be (ix2 k o)
      = term x gates wg bg we be o ⟨(perm k).val / 8, by have := (perm k).isLt; omega⟩
          ⟨(perm k).val % 8, Nat.mod_lt _ (by norm_num)⟩ := by
  rw [scaled_at hf]
  have he : expert k = ⟨(perm k).val % 8, Nat.mod_lt _ (by norm_num)⟩ := Fin.ext (hf.key k).symm
  rw [he]
  rfl

/-- The reference's result array is the dispatched form of its arguments. -/
theorem out_eq_routed_of {perm : Fin 65536 → Fin 65536} (hf : IndexFacts perm) (x : T S8192x768 .f32) (gates : T S8192x8 .f32)
    (wg : T S768x8 .f32) (bg : T S8 .f32) (we : T S8x768x64 .f32) (be : T S8x64 .f32) :
    Stages.out x gates wg bg we be = Cert.Moe.routed x gates wg bg we be := by
  funext i
  obtain ⟨t, o, rfl⟩ : ∃ (t : Fin 8192) (o : Fin 64), i = ix2 t o := ⟨i 0, i 1, eq_ix2 i⟩
  rw [routed_at]
  unfold Stages.out
  refine (scatter_rows _ _ _ t o).trans ?_
  refine congrArg₂ (fun a b : EReal => a + b) (zero_rows t o) ?_
  refine (Finset.sum_congr (visits hf t) fun k _ => scaled_at_source hf x gates wg bg we be k o).trans ?_
  exact Cert.Moe.Words.sum_dispatch_fin perm hf.bij (term x gates wg bg we be o) t

/-- The reference's result array is the dispatched form of its arguments. -/
theorem out_eq_routed (x : T S8192x768 .f32) (gates : T S8192x8 .f32)
    (wg : T S768x8 .f32) (bg : T S8 .f32) (we : T S8x768x64 .f32) (be : T S8x64 .f32) :
    Stages.out x gates wg bg we be = Cert.Moe.routed x gates wg bg we be :=
  out_eq_routed_of indexFacts x gates wg bg we be

end Cert.ReferenceIdeal.Dispatch

end
-- ==== Proof.MoeAlgebra.lean ====
/-
  The fused and the dispatched forms of the mixture-of-experts layer agree on arrays of real numbers.

  For a token `t` and an output column `o`, write  p e = logit t e + b_gate[e],  γ e = gates[t,e],
  ℓ e = lin t e o  and  β e = b_experts[e,o].  The fused form is
      Σ_e (p e · γ e) · ℓ e  +  Σ_e (p e · γ e) · β e,
  and the dispatched form is
      0 + Σ_e ((ℓ e + β e) · p e) · γ e.
  When every entry is a real number both sides are coercions of real numbers, and in ℝ the two sums are joined
  term by term:  (p·γ)·ℓ + (p·γ)·β = ((ℓ + β)·p)·γ  by distributivity and commutativity.  (On the extended reals
  distributivity fails at the infinities, which is why the entries are assumed real.)
-/
import proofs.«181126_g60644938220147_cont_9to1c4b_99_20_alg».proof.Proof.MoeSpec
import Mathlib.Data.EReal.Basic
import Mathlib.Algebra.BigOperators.Ring.Finset
import Mathlib.Tactic.Ring

noncomputable section

open scoped BigOperators

namespace Cert.Moe

open Idealize.ShloMosaic Idealize.ShloMosaic.ValueIdx

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The law in ℝ, over an arbitrary finite set of experts: the gated outputs and the gated biases, summed
separately, are the sum of the biased outputs weighted by the two gates one after the other. -/
theorem real_fused_eq_routed {ι : Type*} (s : Finset ι) (p γ ℓ β : ι → ℝ) :
    (∑ e ∈ s, (p e * γ e) * ℓ e) + ∑ e ∈ s, (p e * γ e) * β e
      = 0 + ∑ e ∈ s, ((ℓ e + β e) * p e) * γ e := by
  rw [zero_add, ← Finset.sum_add_distrib]
  refine Finset.sum_congr rfl fun e _ => ?_
  ring

/-- On arrays all of whose entries are real numbers the fused form and the dispatched form are the same array. -/
theorem fused_eq_routed
    (x : (⟨2, ![8192, 768]⟩ : Shape).Idx → EReal) (g : (⟨2, ![8192, 8]⟩ : Shape).Idx → EReal)
    (wg : (⟨2, ![768, 8]⟩ : Shape).Idx → EReal) (bg : (⟨1, ![8]⟩ : Shape).Idx → EReal)
    (we : (⟨3, ![8, 768, 64]⟩ : Shape).Idx → EReal) (be : (⟨2, ![8, 64]⟩ : Shape).Idx → EReal)
    (hx : ∀ i, ∃ r : ℝ, x i = (r : EReal)) (hg : ∀ i, ∃ r : ℝ, g i = (r : EReal))
    (hwg : ∀ i, ∃ r : ℝ, wg i = (r : EReal)) (hbg : ∀ i, ∃ r : ℝ, bg i = (r : EReal))
    (hwe : ∀ i, ∃ r : ℝ, we i = (r : EReal)) (hbe : ∀ i, ∃ r : ℝ, be i = (r : EReal)) :
    fused x g wg bg we be = routed x g wg bg we be := by
  -- every array is the coercion of a real-valued one
  choose xr hxr using hx
  choose gr hgr using hg
  choose wgr hwgr using hwg
  choose bgr hbgr using hbg
  choose wer hwer using hwe
  choose ber hber using hbe
  obtain rfl : x = fun i => (xr i : EReal) := funext hxr
  obtain rfl : g = fun i => (gr i : EReal) := funext hgr
  obtain rfl : wg = fun i => (wgr i : EReal) := funext hwgr
  obtain rfl : bg = fun i => (bgr i : EReal) := funext hbgr
  obtain rfl : we = fun i => (wer i : EReal) := funext hwer
  obtain rfl : be = fun i => (ber i : EReal) := funext hber
  funext i
  -- both sides are coercions of real numbers: push the coercion outward
  simp only [fused, routed, gate, logit, lin, ← EReal.coe_mul, ← coe_sum, ← EReal.coe_add, ← EReal.coe_zero]
  -- and the two real numbers are equal by the law in ℝ
  exact congrArg _ (real_fused_eq_routed Finset.univ _ _ _ _)

end Cert.Moe

end
-- ==== Proof.MoeFinite.lean ====
/-
  From the precondition "every input is finite" to "every entry of every argument array is a real number".

  The precondition is printed as one program: for each of the six argument arrays `a`, the array of bits
  `|a i| < +∞` is reduced by `and` over all its axes from the bit 1, and the six results are joined by `and`;
  the claim's hypothesis is that the final bit is 1.  Read backwards: a conjunction that is 1 has both
  conjuncts 1; a reduction by `and` over all axes that is 1 met a 1 at every index; and an extended real `x`
  with `max x (-x) < ⊤` is neither `⊤` nor `⊥`, that is, it is a real number.  (The word 0x7F800000 is the
  single-precision pattern of +∞.)
-/
import proofs.«181126_g60644938220147_cont_9to1c4b_99_20_alg».proof.Defs
import Idealize.ShloMosaic.Lib.ReduceAll
import Idealize.ShloMosaic.Lib.ValueIdx

noncomputable section

namespace Cert.Moe

open Idealize.ShloMosaic

/-- The rank-0 shape has exactly one index. -/
instance subsingleton_scalar_idx : Subsingleton (⟨0, ![]⟩ : Shape).Idx :=
  ⟨fun a b => funext fun d => d.elim0⟩

/-- The single-precision pattern 0x7F800000 denotes `+∞`. -/
theorem ofBits_inf : Ideal.ofBits .f32 0x7F800000#32 = (⊤ : EReal) := by
  simp [Ideal.ofBits, Ideal.ieee]

/-- One element: an extended real whose absolute value compares below `+∞` is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  -- the comparison is the order's, the absolute value is `max x (-x)`, and the pattern is `⊤`
  have h' : BitVec.ofBool (decide (max (x : EReal) (-(x : EReal)) < Ideal.ofBits .f32 0x7F800000#32)) = 1#1 := h
  rw [ofBits_inf] at h'
  have hlt : max (x : EReal) (-(x : EReal)) < ⊤ := by
    by_contra hn
    rw [decide_eq_false hn] at h'
    exact absurd h' (by decide)
  rw [max_lt_iff] at hlt
  induction x using EReal.rec with
  | bot => simp at hlt
  | coe r => exact ⟨r, rfl⟩
  | top => simp at hlt

/-- One array: if the bits `|a i| < +∞`, reduced by `and` over all axes from the bit 1, give 1,
then every entry of `a` is a real number. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (j : (⟨0, ![]⟩ : Shape).Idx)
    (e : Host.reduce IntOp.andi
          (cmpf .olt (Host.absf a)
            (broadcastInDim s ![] hb (constant (F := Ideal) (⟨0, ![]⟩ : Shape) .f32 0x7F800000#32)))
          (constantI (⟨0, ![]⟩ : Shape) 1 1#1) hr hu j = 1#1) :
    ∀ i, ∃ r : ℝ, a i = (r : EReal) := fun i =>
  real_of_abs_lt_inf (a i) (Host.reduce_andi_all _ _ hr hu j e i)

/-- All six arrays: the precondition's bit being 1 makes every entry of every argument array a real number. -/
theorem real_of_pre [Cert.Pre_finite_inputs.Facts]
    (a0 : (⟨2, ![8192, 768]⟩ : Shape).Idx → EReal) (a1 : (⟨2, ![8192, 8]⟩ : Shape).Idx → EReal)
    (a2 : (⟨2, ![768, 8]⟩ : Shape).Idx → EReal) (a3 : (⟨1, ![8]⟩ : Shape).Idx → EReal)
    (a4 : (⟨3, ![8, 768, 64]⟩ : Shape).Idx → EReal) (a5 : (⟨2, ![8, 64]⟩ : Shape).Idx → EReal)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1, andi] at h0
  simp only [IntOp.andi_eq_one] at h0
  obtain ⟨⟨⟨⟨⟨e0, e1⟩, e2⟩, e3⟩, e4⟩, e5⟩ := h0
  exact ⟨real_of_all a0 _ _ _ _ e0, real_of_all a1 _ _ _ _ e1, real_of_all a2 _ _ _ _ e2,
    real_of_all a3 _ _ _ _ e3, real_of_all a4 _ _ _ _ e4, real_of_all a5 _ _ _ _ e5⟩

end Cert.Moe

end
-- ==== Proof.lean ====
/-
  A fused mixture-of-experts kernel against its dispatching reference: the two idealized programs compute the same array.

  For tokens `x` [8192, 768], given gates [8192, 8], a gate map W_gate [768, 8] with bias b_gate [8], and eight experts
  W_experts [8, 768, 64] with biases b_experts [8, 64], write, for token t, expert e, output column o,
      logit t e = Σ_d x[t,d]·W_gate[d,e],   gate t e = (logit t e + b_gate[e])·gates[t,e],   lin t e o = Σ_d x[t,d]·W_experts[e,d,o].
  The kernel, tiled over four blocks of 2048 tokens, forms every expert's linear map and the gate logits by matrix products
  against the experts' weights stacked side by side, spreads the gates over the stacked columns and folds the columns back
  over the experts by two products with 0/1 matrices, and adds the gated biases: its result is
      Σ_e gate t e · lin t e o + Σ_e gate t e · b_experts[e,o].
  The reference enumerates all 65536 (token, expert) pairs, sorts them by expert, gathers the token rows and the two gates in
  that order, applies each expert to its run of 8192 gathered rows, scales by the two gates and adds every pair's row back
  into its token's row starting from zero.  The sort is a bijection of the pairs along which the expert number is
  nondecreasing, so the expert at sorted place k is k / 8192 and each token is visited once per expert; the result is
      0 + Σ_e ((lin t e o + b_experts[e,o]) · (logit t e + b_gate[e])) · gates[t,e].
  On arrays of real numbers — which the precondition provides — the two expressions are equal by distributivity.
-/
import proofs.«181126_g60644938220147_cont_9to1c4b_99_20_alg».proof.Defs
import proofs.«181126_g60644938220147_cont_9to1c4b_99_20_alg».proof.Proof.Gen.Kernel
import proofs.«181126_g60644938220147_cont_9to1c4b_99_20_alg».proof.Proof.Gen.Kernel.Skeleton
import proofs.«181126_g60644938220147_cont_9to1c4b_99_20_alg».proof.Proof.Gen.Kernel.Launch
import proofs.«181126_g60644938220147_cont_9to1c4b_99_20_alg».proof.Proof.Gen.Kernel.Points
import proofs.«181126_g60644938220147_cont_9to1c4b_99_20_alg».proof.Proof.Gen.Kernel.Frame
import proofs.«181126_g60644938220147_cont_9to1c4b_99_20_alg».proof.Proof.Gen.KernelIdeal
import proofs.«181126_g60644938220147_cont_9to1c4b_99_20_alg».proof.Proof.Gen.KernelIdeal.Skeleton
import proofs.«181126_g60644938220147_cont_9to1c4b_99_20_alg».proof.Proof.Gen.KernelIdeal.Launch
import proofs.«181126_g60644938220147_cont_9to1c4b_99_20_alg».proof.Proof.Gen.KernelIdeal.Points
import proofs.«181126_g60644938220147_cont_9to1c4b_99_20_alg».proof.Proof.Gen.KernelIdeal.Frame
import proofs.«181126_g60644938220147_cont_9to1c4b_99_20_alg».proof.Proof.Gen.ReferenceIdeal
import proofs.«181126_g60644938220147_cont_9to1c4b_99_20_alg».proof.Proof.Gen.Pre_finite_inputs
import proofs.«181126_g60644938220147_cont_9to1c4b_99_20_alg».proof.Proof.MoeKernel
import proofs.«181126_g60644938220147_cont_9to1c4b_99_20_alg».proof.Proof.RefRun
import proofs.«181126_g60644938220147_cont_9to1c4b_99_20_alg».proof.Proof.RefOut
import proofs.«181126_g60644938220147_cont_9to1c4b_99_20_alg».proof.Proof.MoeAlgebra
import proofs.«181126_g60644938220147_cont_9to1c4b_99_20_alg».proof.Proof.MoeFinite
import Idealize.ShloMosaic.Adequacy
import Idealize.ShloMosaic.Init

noncomputable section

namespace Cert.Proof

open Idealize.ShloMosaic Idealize.SL.Sem

/-- The word-level kernel runs and leaves its arguments unchanged: the generated frame. -/
theorem frame_Kernel : Cert.frame_Kernel := fun m ρ _ => Cert.Kernel.Gen.frame m ρ

/-- The idealized kernel runs and leaves its arguments unchanged: the generated frame. -/
theorem frame_KernelIdeal : Cert.frame_KernelIdeal := fun m ρ _ => Cert.KernelIdeal.Gen.frame m ρ

/-- The reference runs and leaves its arguments unchanged: its run with the result forgotten. -/
theorem frame_ReferenceIdeal : Cert.frame_ReferenceIdeal := fun m ρ _ =>
  (θ_run Cert.ReferenceIdeal.defs _ _).mono (fun _ h c => (h c).2) (Cert.ReferenceIdeal.MoeRun.run m ρ)

/-- The idealization rewrote no operation. -/
theorem preserves : Cert.preserves_Kernel_KernelIdeal := trivial

/-- Both idealized programs end with the fused form of the layer on the kernel's arguments.  The kernel computes the fused
form; the reference computes the dispatched form of its own arguments, which are the kernel's; and on arrays of real
numbers — which the precondition gives — the dispatched form is the fused form. -/
theorem algebraic : Cert.algebraic_KernelIdeal_ReferenceIdeal := by
  intro m ρ m' ρ' hpre hagree
  refine ⟨fun c => Cert.Moe.fused (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.MoeValue.run m ρ, ?_⟩
  refine (θ_run Cert.ReferenceIdeal.defs _ _).mono (fun _ h c => ⟨(h c).1.trans ?_, (h c).2⟩)
    (Cert.ReferenceIdeal.MoeRun.run m' ρ')
  obtain ⟨hx, hg, hwg, hbg, hwe, hbe⟩ := Cert.Moe.real_of_pre _ _ _ _ _ _ (hpre c)
  rw [Cert.ReferenceIdeal.Dispatch.out_eq_routed, (hagree c).1, (hagree c).2.1, (hagree c).2.2.1, (hagree c).2.2.2.1,
    (hagree c).2.2.2.2.1, (hagree c).2.2.2.2.2]
  exact (Cert.Moe.fused_eq_routed _ _ _ _ _ _ hx hg hwg hbg hwe hbe).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
